-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 102
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S128, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S50000x128, .f32⟩
  | .hbm, ⟨74, _⟩ => ⟨S50000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x1, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S128, .f32⟩
  | .hbm, ⟨92, _⟩ => ⟨S128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S128, .f32⟩
  | .hbm, ⟨100, _⟩ => ⟨S128, .f32⟩
  | .hbm, ⟨101, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128, .f32⟩
  | .local _ .vmem, ⟨27, _⟩ => ⟨S128, .f32⟩
  | .local _ .vmem, ⟨28, _⟩ => ⟨S128, .f32⟩
  | .local _ .vmem, ⟨29, _⟩ => ⟨S5000x128, .f32⟩
  | .local _ .vmem, ⟨30, _⟩ => ⟨S5000x128, .f32⟩
  | .local _ .vmem, ⟨31, _⟩ => ⟨S128, .f32⟩
  | .local _ .vmem, ⟨32, _⟩ => ⟨S128, .f32⟩
  | .local _ .vmem, ⟨33, _⟩ => ⟨S128, .f32⟩
  | .local _ .vmem, ⟨34, _⟩ => ⟨S128, .f32⟩
  | .local _ .vmem, ⟨35, _⟩ => ⟨S128, .f32⟩
  | .local _ .vmem, ⟨36, _⟩ => ⟨S5000x128, .f32⟩
  | .local _ .vmem, ⟨37, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43_0 : Ref sig .tc := ⟨.hbm, 63, rfl⟩
abbrev main_v43_1 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65_0 : Ref sig .tc := ⟨.hbm, 91, rfl⟩
abbrev main_v65_1 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S128 : S5000x128.Reduces [0] S128
  shapeCasts_S128_S128 : S128.ShapeCasts S128
  bcast_S_S128 : S_.BroadcastsInDim S128 (![] : Fin 0 → Fin S128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43_0) S128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43_1) S128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v50) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65_0) S128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65_1) S128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v64) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v71) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg8) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg9) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v72) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 181
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S50000x128, .f32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S50000x128, .f32⟩
  | 75 => ⟨S_, .f32⟩
  | 76 => ⟨S128, .f32⟩
  | 77 => ⟨S_, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x128, .f32⟩
  | 100 => ⟨S_, .f32⟩
  | 101 => ⟨S850000, .f32⟩
  | 102 => ⟨S_, .f32⟩
  | 103 => ⟨S50000, .f32⟩
  | 104 => ⟨S850000x1, .i32⟩
  | 105 => ⟨S50000, .f32⟩
  | 106 => ⟨S_, .f32⟩
  | 107 => ⟨S50000, .f32⟩
  | 108 => ⟨S50000, .f32⟩
  | 109 => ⟨S50000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000, .f32⟩
  | _ => ⟨S50000x128, .f32⟩

abbrev hbmTy0_1 (i : Nat) : BufTy := match i % 128 with
  | 0 => ⟨S850000, .f32⟩
  | 1 => ⟨S_, .i32⟩
  | 2 => ⟨S850000, .i32⟩
  | 3 => ⟨S850000, .i1⟩
  | 4 => ⟨S_, .i32⟩
  | 5 => ⟨S850000, .i32⟩
  | 6 => ⟨S850000, .i32⟩
  | 7 => ⟨S850000, .i32⟩
  | 8 => ⟨S850000x1, .i32⟩
  | 9 => ⟨S850000x128, .f32⟩
  | 10 => ⟨S850000x1, .f32⟩
  | 11 => ⟨S850000x128, .f32⟩
  | 12 => ⟨S850000x128, .f32⟩
  | 13 => ⟨S_, .f32⟩
  | 14 => ⟨S50000x128, .f32⟩
  | 15 => ⟨S850000x1, .i32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S128, .f32⟩
  | 22 => ⟨S_, .f32⟩
  | 23 => ⟨S128, .f32⟩
  | 24 => ⟨S128, .f32⟩
  | 25 => ⟨S1x128, .f32⟩
  | 26 => ⟨S50000x128, .f32⟩
  | 27 => ⟨S50000x128, .f32⟩
  | 28 => ⟨S50000x128, .f32⟩
  | 29 => ⟨S_, .f32⟩
  | 30 => ⟨S128, .f32⟩
  | 31 => ⟨S_, .f32⟩
  | 32 => ⟨S128, .f32⟩
  | 33 => ⟨S128, .f32⟩
  | 34 => ⟨S1x128, .f32⟩
  | 35 => ⟨S50000x128, .f32⟩
  | 36 => ⟨S50000x128, .f32⟩
  | 37 => ⟨S_, .f32⟩
  | 38 => ⟨S128, .f32⟩
  | 39 => ⟨S128, .f32⟩
  | 40 => ⟨S128, .f32⟩
  | 41 => ⟨S1x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S_, .f32⟩
  | 51 => ⟨S50000x128, .f32⟩
  | 52 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call0_cst : Ref sig .tc := ⟨.hbm, 96, rfl⟩
abbrev main_call0_v0 : Ref sig .tc := ⟨.hbm, 97, rfl⟩
abbrev main_v71 : Ref sig .tc := ⟨.hbm, 98, rfl⟩
abbrev main_v72 : Ref sig .tc := ⟨.hbm, 99, rfl⟩
abbrev main_cst_13 : Ref sig .tc := ⟨.hbm, 100, rfl⟩
abbrev main_v73 : Ref sig .tc := ⟨.hbm, 101, rfl⟩
abbrev main_cst_14 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_16 : Ref sig .tc := ⟨.hbm, 110, rfl⟩
abbrev main_v80 : Ref sig .tc := ⟨.hbm, 111, rfl⟩
abbrev main_v81 : Ref sig .tc := ⟨.hbm, 112, rfl⟩
abbrev main_c_17 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_18 : Ref sig .tc := ⟨.hbm, 119, rfl⟩
abbrev main_v87 : Ref sig .tc := ⟨.hbm, 120, rfl⟩
abbrev main_v88 : Ref sig .tc := ⟨.hbm, 121, rfl⟩
abbrev main_c_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_20 : Ref sig .tc := ⟨.hbm, 129, rfl⟩
abbrev main_v95 : Ref sig .tc := ⟨.hbm, 130, rfl⟩
abbrev main_v96 : Ref sig .tc := ⟨.hbm, 131, rfl⟩
abbrev main_c_21 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_22 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_23 : Ref sig .tc := ⟨.hbm, 148, rfl⟩
abbrev main_v111 : Ref sig .tc := ⟨.hbm, 149, rfl⟩
abbrev main_cst_24 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_25 : Ref sig .tc := ⟨.hbm, 157, rfl⟩
abbrev main_v118 : Ref sig .tc := ⟨.hbm, 158, rfl⟩
abbrev main_cst_26 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_27 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_call1_cst : Ref sig .tc := ⟨.hbm, 178, rfl⟩
abbrev main_call1_v0 : Ref sig .tc := ⟨.hbm, 179, rfl⟩
abbrev main_v136 : Ref sig .tc := ⟨.hbm, 180, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with its result NAMED: every weakly fair execution of the program terminates, nothing
  faulting, and the result array ends at the contents the last of the program's eleven segments leaves in it — the fold
  of each host stretch's operations and each region's write-backs from the launch memory — with the arguments unchanged.
  The launch is the several-region launch theorem of the pipeline library over the program's segments; the only addition
  to the frame statement is that the final state is also read at the result buffer.
-/
import proofs.«157031_j26723286515821_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents. -/
theorem run_value : θ_run defs (onTc (τ := τ) (main (F := F))) ⟨m, fun _ => 0, ρ⟩ (fun r => ∀ c : Dev nD,
      r.2.mem ((c.tc : Thread nD τ).loc main_v72) = W11 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v72 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.RunValue

end
-- ==== Proof.KernelCarry.lean ====
/-
  Buffers the program does not touch between two segment boundaries keep their contents. The program's run is a fold
  of eleven segments (host stretches and regions); these lemmas walk one buffer back through the fold: a host stretch
  that does not write it leaves it alone, a region that does not stage it leaves it alone, and a region that stages it
  as an INPUT window writes nothing back. They are stated for the argument arrays at the boundaries where a region
  reads them, for the edge-index vectors and the edge weights from the first stretch to the second layer's aggregation,
  and for each layer's aggregate from where it is computed to where the normalisation reads it.
-/
import proofs.«157031_j26723286515821_1_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A host stretch leaves a buffer none of its operations writes as it found it. -/
macro "host_skip " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem carry_arg0_1_0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := by host_skip hostOps0

theorem carry_arg2_1_0 (c : Dev nD) : W1 m ρ c (Proc.devRef .tc main_arg2) = W0 m ρ c (Proc.devRef .tc main_arg2) :=
  calc W1 m ρ c (Proc.devRef .tc main_arg2)
    _ = W0 m ρ c (Proc.devRef .tc main_arg2) := by host_skip hostOps0

theorem carry_arg3_3_0 (c : Dev nD) : W3 m ρ c (Proc.devRef .tc main_arg3) = W0 m ρ c (Proc.devRef .tc main_arg3) :=
  calc W3 m ρ c (Proc.devRef .tc main_arg3)
    _ = W2 m ρ c (Proc.devRef .tc main_arg3) := by host_skip hostOps1
    _ = W1 m ρ c (Proc.devRef .tc main_arg3) := W2_of_ne m ρ c main_arg3 (by decide)
    _ = W0 m ρ c (Proc.devRef .tc main_arg3) := by host_skip hostOps0

theorem carry_arg3_5_0 (c : Dev nD) : W5 m ρ c (Proc.devRef .tc main_arg3) = W0 m ρ c (Proc.devRef .tc main_arg3) :=
  calc W5 m ρ c (Proc.devRef .tc main_arg3)
    _ = W4 m ρ c (Proc.devRef .tc main_arg3) := by host_skip hostOps2
    _ = W3 m ρ c (Proc.devRef .tc main_arg3) := (W4_arr m ρ c 1).trans (((dat1 (V3 m ρ) c).arrAt_in 1 rfl _).trans (A_eq1 (V3 m ρ) c 1))
    _ = W2 m ρ c (Proc.devRef .tc main_arg3) := by host_skip hostOps1
    _ = W1 m ρ c (Proc.devRef .tc main_arg3) := W2_of_ne m ρ c main_arg3 (by decide)
    _ = W0 m ρ c (Proc.devRef .tc main_arg3) := by host_skip hostOps0

theorem carry_arg6_5_0 (c : Dev nD) : W5 m ρ c (Proc.devRef .tc main_arg6) = W0 m ρ c (Proc.devRef .tc main_arg6) :=
  calc W5 m ρ c (Proc.devRef .tc main_arg6)
    _ = W4 m ρ c (Proc.devRef .tc main_arg6) := by host_skip hostOps2
    _ = W3 m ρ c (Proc.devRef .tc main_arg6) := W4_of_ne m ρ c main_arg6 (by decide)
    _ = W2 m ρ c (Proc.devRef .tc main_arg6) := by host_skip hostOps1
    _ = W1 m ρ c (Proc.devRef .tc main_arg6) := W2_of_ne m ρ c main_arg6 (by decide)
    _ = W0 m ρ c (Proc.devRef .tc main_arg6) := by host_skip hostOps0

theorem carry_arg7_5_0 (c : Dev nD) : W5 m ρ c (Proc.devRef .tc main_arg7) = W0 m ρ c (Proc.devRef .tc main_arg7) :=
  calc W5 m ρ c (Proc.devRef .tc main_arg7)
    _ = W4 m ρ c (Proc.devRef .tc main_arg7) := by host_skip hostOps2
    _ = W3 m ρ c (Proc.devRef .tc main_arg7) := W4_of_ne m ρ c main_arg7 (by decide)
    _ = W2 m ρ c (Proc.devRef .tc main_arg7) := by host_skip hostOps1
    _ = W1 m ρ c (Proc.devRef .tc main_arg7) := W2_of_ne m ρ c main_arg7 (by decide)
    _ = W0 m ρ c (Proc.devRef .tc main_arg7) := by host_skip hostOps0

theorem carry_arg4_6_0 (c : Dev nD) : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_skip hostOps2
    _ = W3 m ρ c (Proc.devRef .tc main_arg4) := W4_of_ne m ρ c main_arg4 (by decide)
    _ = W2 m ρ c (Proc.devRef .tc main_arg4) := by host_skip hostOps1
    _ = W1 m ρ c (Proc.devRef .tc main_arg4) := W2_of_ne m ρ c main_arg4 (by decide)
    _ = W0 m ρ c (Proc.devRef .tc main_arg4) := by host_skip hostOps0

theorem carry_arg5_8_0 (c : Dev nD) : W8 m ρ c (Proc.devRef .tc main_arg5) = W0 m ρ c (Proc.devRef .tc main_arg5) :=
  calc W8 m ρ c (Proc.devRef .tc main_arg5)
    _ = W7 m ρ c (Proc.devRef .tc main_arg5) := by host_skip hostOps4
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by host_skip hostOps2
    _ = W3 m ρ c (Proc.devRef .tc main_arg5) := W4_of_ne m ρ c main_arg5 (by decide)
    _ = W2 m ρ c (Proc.devRef .tc main_arg5) := by host_skip hostOps1
    _ = W1 m ρ c (Proc.devRef .tc main_arg5) := W2_of_ne m ρ c main_arg5 (by decide)
    _ = W0 m ρ c (Proc.devRef .tc main_arg5) := by host_skip hostOps0

theorem carry_arg5_10_0 (c : Dev nD) : W10 m ρ c (Proc.devRef .tc main_arg5) = W0 m ρ c (Proc.devRef .tc main_arg5) :=
  calc W10 m ρ c (Proc.devRef .tc main_arg5)
    _ = W9 m ρ c (Proc.devRef .tc main_arg5) := by host_skip hostOps5
    _ = W8 m ρ c (Proc.devRef .tc main_arg5) := (W9_arr m ρ c 1).trans (((dat4 (V8 m ρ) c).arrAt_in 1 rfl _).trans (A_eq4 (V8 m ρ) c 1))
    _ = W7 m ρ c (Proc.devRef .tc main_arg5) := by host_skip hostOps4
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by host_skip hostOps2
    _ = W3 m ρ c (Proc.devRef .tc main_arg5) := W4_of_ne m ρ c main_arg5 (by decide)
    _ = W2 m ρ c (Proc.devRef .tc main_arg5) := by host_skip hostOps1
    _ = W1 m ρ c (Proc.devRef .tc main_arg5) := W2_of_ne m ρ c main_arg5 (by decide)
    _ = W0 m ρ c (Proc.devRef .tc main_arg5) := by host_skip hostOps0

theorem carry_arg8_10_0 (c : Dev nD) : W10 m ρ c (Proc.devRef .tc main_arg8) = W0 m ρ c (Proc.devRef .tc main_arg8) :=
  calc W10 m ρ c (Proc.devRef .tc main_arg8)
    _ = W9 m ρ c (Proc.devRef .tc main_arg8) := by host_skip hostOps5
    _ = W8 m ρ c (Proc.devRef .tc main_arg8) := W9_of_ne m ρ c main_arg8 (by decide)
    _ = W7 m ρ c (Proc.devRef .tc main_arg8) := by host_skip hostOps4
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by host_skip hostOps2
    _ = W3 m ρ c (Proc.devRef .tc main_arg8) := W4_of_ne m ρ c main_arg8 (by decide)
    _ = W2 m ρ c (Proc.devRef .tc main_arg8) := by host_skip hostOps1
    _ = W1 m ρ c (Proc.devRef .tc main_arg8) := W2_of_ne m ρ c main_arg8 (by decide)
    _ = W0 m ρ c (Proc.devRef .tc main_arg8) := by host_skip hostOps0

theorem carry_arg9_10_0 (c : Dev nD) : W10 m ρ c (Proc.devRef .tc main_arg9) = W0 m ρ c (Proc.devRef .tc main_arg9) :=
  calc W10 m ρ c (Proc.devRef .tc main_arg9)
    _ = W9 m ρ c (Proc.devRef .tc main_arg9) := by host_skip hostOps5
    _ = W8 m ρ c (Proc.devRef .tc main_arg9) := W9_of_ne m ρ c main_arg9 (by decide)
    _ = W7 m ρ c (Proc.devRef .tc main_arg9) := by host_skip hostOps4
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by host_skip hostOps2
    _ = W3 m ρ c (Proc.devRef .tc main_arg9) := W4_of_ne m ρ c main_arg9 (by decide)
    _ = W2 m ρ c (Proc.devRef .tc main_arg9) := by host_skip hostOps1
    _ = W1 m ρ c (Proc.devRef .tc main_arg9) := W2_of_ne m ρ c main_arg9 (by decide)
    _ = W0 m ρ c (Proc.devRef .tc main_arg9) := by host_skip hostOps0

theorem carry_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem carry_v6_2_1 (c : Dev nD) : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

theorem carry_v28_2_1 (c : Dev nD) : W2 m ρ c (Proc.devRef .tc main_v28) = W1 m ρ c (Proc.devRef .tc main_v28) :=
  calc W2 m ρ c (Proc.devRef .tc main_v28)
    _ = W1 m ρ c (Proc.devRef .tc main_v28) := W2_of_ne m ρ c main_v28 (by decide)

theorem carry_v3_7_1 (c : Dev nD) : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_skip hostOps2
    _ = W3 m ρ c (Proc.devRef .tc main_v3) := W4_of_ne m ρ c main_v3 (by decide)
    _ = W2 m ρ c (Proc.devRef .tc main_v3) := by host_skip hostOps1
    _ = W1 m ρ c (Proc.devRef .tc main_v3) := W2_of_ne m ρ c main_v3 (by decide)

theorem carry_v6_7_1 (c : Dev nD) : W7 m ρ c (Proc.devRef .tc main_v6) = W1 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_skip hostOps2
    _ = W3 m ρ c (Proc.devRef .tc main_v6) := W4_of_ne m ρ c main_v6 (by decide)
    _ = W2 m ρ c (Proc.devRef .tc main_v6) := by host_skip hostOps1
    _ = W1 m ρ c (Proc.devRef .tc main_v6) := W2_of_ne m ρ c main_v6 (by decide)

theorem carry_v28_7_1 (c : Dev nD) : W7 m ρ c (Proc.devRef .tc main_v28) = W1 m ρ c (Proc.devRef .tc main_v28) :=
  calc W7 m ρ c (Proc.devRef .tc main_v28)
    _ = W6 m ρ c (Proc.devRef .tc main_v28) := W7_of_ne m ρ c main_v28 (by decide)
    _ = W5 m ρ c (Proc.devRef .tc main_v28) := W6_of_ne m ρ c main_v28 (by decide)
    _ = W4 m ρ c (Proc.devRef .tc main_v28) := by host_skip hostOps2
    _ = W3 m ρ c (Proc.devRef .tc main_v28) := W4_of_ne m ρ c main_v28 (by decide)
    _ = W2 m ρ c (Proc.devRef .tc main_v28) := by host_skip hostOps1
    _ = W1 m ρ c (Proc.devRef .tc main_v28) := W2_of_ne m ρ c main_v28 (by decide)

theorem carry_v42_5_3 (c : Dev nD) : W5 m ρ c (Proc.devRef .tc main_v42) = W3 m ρ c (Proc.devRef .tc main_v42) :=
  calc W5 m ρ c (Proc.devRef .tc main_v42)
    _ = W4 m ρ c (Proc.devRef .tc main_v42) := by host_skip hostOps2
    _ = W3 m ρ c (Proc.devRef .tc main_v42) := (W4_arr m ρ c 0).trans (((dat1 (V3 m ρ) c).arrAt_in 0 rfl _).trans (A_eq1 (V3 m ρ) c 0))

theorem carry_v64_10_8 (c : Dev nD) : W10 m ρ c (Proc.devRef .tc main_v64) = W8 m ρ c (Proc.devRef .tc main_v64) :=
  calc W10 m ρ c (Proc.devRef .tc main_v64)
    _ = W9 m ρ c (Proc.devRef .tc main_v64) := by host_skip hostOps5
    _ = W8 m ρ c (Proc.devRef .tc main_v64) := (W9_arr m ρ c 0).trans (((dat4 (V8 m ρ) c).arrAt_in 0 rfl _).trans (A_eq4 (V8 m ρ) c 0))

end Cert.KernelIdeal.Chain

end
-- ==== Proof.Spec.lean ====
/-
  The arithmetic of one graph-convolution layer's normalisation, as whole-array functions over the extended reals.

  A layer's aggregated features are an array `x` of 50000 rows and 128 columns; with the bias row `b` added, `y = x + b`.
  Per column `j` the batch statistics are the mean `μ_j = (Σ_r y_rj) / n` and a variance, which the two programs spell
  differently: `varK` is `(Σ_r y_rj²) / n − μ_j²`, `varR` is `(Σ_r (y_rj − μ_j)²) / n`. Both then output
  `max (((y − μ) · (var + ε)^(-1/2)) · γ + β, 0)`. Over finite entries the two variances are one real number
  (expand the square: Σ (y − μ)² = Σ y² − 2 μ Σ y + n μ², and Σ y = n μ); on the extended reals the expansion needs
  every `y_rj` finite, which is why finiteness (`IsFin`) is carried through the layer.
  `n` and `ε` are kept as the printed float words; `matmulNH` is the dense product feeding the aggregation.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- 50000 rows by 128 columns; one row of 128; a 128 by 128 weight matrix. -/
abbrev SNH : Shape := ⟨2, ![50000, 128]⟩
abbrev SH : Shape := ⟨1, ![128]⟩
abbrev SHH : Shape := ⟨2, ![128, 128]⟩

/-- Every entry is a real number (neither infinity). -/
def IsFin {s : Shape} (v : s.Idx → EReal) : Prop := ∀ i, ∃ r : ℝ, v i = (r : EReal)

/-- The number of rows, 50000, as the printed single-precision word. -/
def nW : EReal := Ideal.ofBits .f32 0x47435000#32
/-- The normalisation's ε (the single-precision word nearest 1e-5). -/
def epsW : EReal := Ideal.ofBits .f32 0x3727C5AC#32

/-- The dense product: entry (r, j) is Σ_k x_rk · W_kj. -/
def matmulNH (x : SNH.Idx → EReal) (W : SHH.Idx → EReal) : SNH.Idx → EReal :=
  fun i => ∑ k : Fin 128, x (ix2 (i 0) k) * W (ix2 k (i 1))

/-- Add a row vector to every row. -/
def addRow (x : SNH.Idx → EReal) (b : SH.Idx → EReal) : SNH.Idx → EReal :=
  fun i => x i + b (ix1 (i 1))

/-- Column sum, and column sum of squares. -/
def colSum (y : SNH.Idx → EReal) (j : Fin 128) : EReal := ∑ k : Fin 50000, y (ix2 k j)
def colSumSq (y : SNH.Idx → EReal) (j : Fin 128) : EReal := ∑ k : Fin 50000, y (ix2 k j) * y (ix2 k j)

/-- Column mean. -/
def mean (y : SNH.Idx → EReal) (j : Fin 128) : EReal := Ideal.div (colSum y j) nW

/-- Variance as mean of squares minus squared mean. -/
def varK (y : SNH.Idx → EReal) (j : Fin 128) : EReal := Ideal.div (colSumSq y j) nW - mean y j * mean y j

/-- Variance as mean of squared deviations. -/
def varR (y : SNH.Idx → EReal) (j : Fin 128) : EReal :=
  Ideal.div (∑ k : Fin 50000, (y (ix2 k j) - mean y j) * (y (ix2 k j) - mean y j)) nW

/-- Normalise with given per-column mean and variance, scale, shift, clamp below at zero — on `x + b` with the
    bias added inside. -/
def bnK (x : SNH.Idx → EReal) (b m v g be : SH.Idx → EReal) : SNH.Idx → EReal :=
  fun i => max (((((x i + b (ix1 (i 1))) - m (ix1 (i 1))) * Ideal.rsqrt (v (ix1 (i 1)) + epsW)) * g (ix1 (i 1))) + be (ix1 (i 1))) 0

/-- The layer's output from `y` with a chosen variance. -/
def bnOf (y : SNH.Idx → EReal) (var : Fin 128 → EReal) (g be : SH.Idx → EReal) : SNH.Idx → EReal :=
  fun i => max ((((y i - mean y (i 1)) * Ideal.rsqrt (var (i 1) + epsW)) * g (ix1 (i 1))) + be (ix1 (i 1))) 0

end Cert.Gcn

end
-- ==== Proof.KernelHost.lean ====
/-
  The kernel program's host stretches, read back. Between its six regions the program runs the same host operations as
  the reference — the edge endpoints with the self-loops appended, the symmetric degree weights, and per layer the
  gather of the dense product's rows along the edges, their scaling and the scatter-add onto the destination rows — so
  each stretch's result is the reference's own stage function of the same arguments; and after each statistics region
  it divides the column sum and the column sum of squares by the number of rows: the mean, and the mean of squares
  less the squared mean.
-/
import proofs.«157031_j26723286515821_1_alg».proof.Proof.KernelCarry
import proofs.«157031_j26723286515821_1_alg».proof.Proof.Gen.ReferenceIdeal.Read
import Idealize.ShloMosaic.Lib.StableHlo.Run
import Idealize.ShloMosaic.PureOps.Ideal
import Idealize.ShloMosaic.Lib.Pipeline.Value
import proofs.«157031_j26723286515821_1_alg».proof.Proof.Spec

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read (val_main_v3 val_main_v6 val_main_v7 val_main_v29 val_main_v42 val_main_v107)

variable (m : (ℓ : Loc nD τ sig) → Buf (Elt Ideal) ℓ) (ρ : Dev nD → PrngReg)

/-! ## The opening stretch: edge endpoints and edge weights -/

set_option maxHeartbeats 8000000 in
theorem h1_v3 (c : Dev nD) : (W1 m ρ c (Proc.devRef .tc main_v3) : S850000.Idx → BitVec 32)
    = val_main_v3 (F := Ideal) (m ((c : Thread nD τ).loc main_arg1)) := by
  show StableHlo.after hostOps0 (W0 m ρ c) (Proc.devRef .tc main_v3) = _
  dsimp only [hostOps0]
  after_results_simp
  rfl

set_option maxHeartbeats 8000000 in
theorem h1_v6 (c : Dev nD) : (W1 m ρ c (Proc.devRef .tc main_v6) : S850000.Idx → BitVec 32)
    = val_main_v6 (F := Ideal) (m ((c : Thread nD τ).loc main_arg1)) := by
  show StableHlo.after hostOps0 (W0 m ρ c) (Proc.devRef .tc main_v6) = _
  dsimp only [hostOps0]
  after_results_simp
  rfl

set_option maxHeartbeats 8000000 in
theorem h1_v28 (c : Dev nD) : (W1 m ρ c (Proc.devRef .tc main_v28) : S850000.Idx → EReal)
    = val_main_v29 (F := Ideal) (m ((c : Thread nD τ).loc main_arg1)) := by
  show StableHlo.after hostOps0 (W0 m ρ c) (Proc.devRef .tc main_v28) = _
  dsimp only [hostOps0]
  after_results_simp
  rfl

/-! ## The aggregation stretches -/

set_option maxHeartbeats 8000000 in
/-- Layer 1: once the dense product is the reference's, so is the aggregate. -/
theorem h3_v42 (c : Dev nD) (x0 : S50000x128.Idx → EReal) (x2 : S128x128.Idx → EReal)
    (h29 : (W2 m ρ c (Proc.devRef .tc main_v29) : S50000x128.Idx → EReal) = val_main_v7 (F := Ideal) x0 x2) :
    (W3 m ρ c (Proc.devRef .tc main_v42) : S50000x128.Idx → EReal)
      = val_main_v42 (F := Ideal) x0 (m ((c : Thread nD τ).loc main_arg1)) x2 := by
  show StableHlo.after hostOps1 (W2 m ρ c) (Proc.devRef .tc main_v42) = _
  dsimp only [hostOps1]
  after_results_simp
  rw [h29, carry_v3_2_1 m ρ c, carry_v6_2_1 m ρ c, carry_v28_2_1 m ρ c, h1_v3 m ρ c, h1_v6 m ρ c, h1_v28 m ρ c]
  rfl

set_option maxHeartbeats 8000000 in
/-- Layer 2: the same, from the second dense product. -/
theorem h8_v64 (c : Dev nD) (x0 : S50000x128.Idx → EReal) (x2 x4 : S128x128.Idx → EReal) (x3 x6 x7 : S128.Idx → EReal)
    (h51 : (W7 m ρ c (Proc.devRef .tc main_v51) : S50000x128.Idx → EReal)
      = Cert.ReferenceIdeal.Read.val_main_v72 (F := Ideal) x0 (m ((c : Thread nD τ).loc main_arg1)) x2 x3 x4 x6 x7) :
    (W8 m ρ c (Proc.devRef .tc main_v64) : S50000x128.Idx → EReal)
      = val_main_v107 (F := Ideal) x0 (m ((c : Thread nD τ).loc main_arg1)) x2 x3 x4 x6 x7 := by
  show StableHlo.after hostOps4 (W7 m ρ c) (Proc.devRef .tc main_v64) = _
  dsimp only [hostOps4]
  after_results_simp
  rw [h51, carry_v3_7_1 m ρ c, carry_v6_7_1 m ρ c, carry_v28_7_1 m ρ c, h1_v3 m ρ c, h1_v6 m ρ c, h1_v28 m ρ c]
  rfl

/-! ## The statistics stretches -/

/-- A scalar word broadcast to a row reads as the word at every column. -/
theorem bcast_const_apply (w : BitVec 32) (j : S128.Idx) :
    broadcastInDim S128 ![] bcast_S_S128 (constant (F := Ideal) S_ .f32 w) j = Ideal.ofBits .f32 w :=
  (broadcastInDim_apply _ bcast_S_S128 _ j (fun a => a.elim0) (fun a => a.elim0)).trans rfl

set_option maxHeartbeats 4000000 in
theorem h5_mean (c : Dev nD) (y : Cert.Gcn.SNH.Idx → EReal)
    (hs : (W4 m ρ c (Proc.devRef .tc main_v43_0) : S128.Idx → EReal) = fun j => Cert.Gcn.colSum y (j 0)) :
    (W5 m ρ c (Proc.devRef .tc main_v45) : S128.Idx → EReal) = fun j => Cert.Gcn.mean y (j 0) := by
  show StableHlo.after hostOps2 (W4 m ρ c) (Proc.devRef .tc main_v45) = _
  dsimp only [hostOps2]
  after_results
  rw [hs]
  funext j
  show Ideal.div (Cert.Gcn.colSum y (j 0)) (broadcastInDim S128 ![] bcast_S_S128 (constant (F := Ideal) S_ .f32 0x47435000#32) j) = _
  rw [bcast_const_apply]
  rfl

set_option maxHeartbeats 4000000 in
theorem h5_var (c : Dev nD) (y : Cert.Gcn.SNH.Idx → EReal)
    (hs : (W4 m ρ c (Proc.devRef .tc main_v43_0) : S128.Idx → EReal) = fun j => Cert.Gcn.colSum y (j 0))
    (hq : (W4 m ρ c (Proc.devRef .tc main_v43_1) : S128.Idx → EReal) = fun j => Cert.Gcn.colSumSq y (j 0)) :
    (W5 m ρ c (Proc.devRef .tc main_v49) : S128.Idx → EReal) = fun j => Cert.Gcn.varK y (j 0) := by
  show StableHlo.after hostOps2 (W4 m ρ c) (Proc.devRef .tc main_v49) = _
  dsimp only [hostOps2]
  after_results
  rw [hs, hq]
  funext j
  show Ideal.div (Cert.Gcn.colSumSq y (j 0)) (broadcastInDim S128 ![] bcast_S_S128 (constant (F := Ideal) S_ .f32 0x47435000#32) j)
      - Ideal.div (Cert.Gcn.colSum y (j 0)) (broadcastInDim S128 ![] bcast_S_S128 (constant (F := Ideal) S_ .f32 0x47435000#32) j)
        * Ideal.div (Cert.Gcn.colSum y (j 0)) (broadcastInDim S128 ![] bcast_S_S128 (constant (F := Ideal) S_ .f32 0x47435000#32) j) = _
  rw [bcast_const_apply]
  rfl

set_option maxHeartbeats 4000000 in
theorem h10_mean (c : Dev nD) (y : Cert.Gcn.SNH.Idx → EReal)
    (hs : (W9 m ρ c (Proc.devRef .tc main_v65_0) : S128.Idx → EReal) = fun j => Cert.Gcn.colSum y (j 0)) :
    (W10 m ρ c (Proc.devRef .tc main_v67) : S128.Idx → EReal) = fun j => Cert.Gcn.mean y (j 0) := by
  show StableHlo.after hostOps5 (W9 m ρ c) (Proc.devRef .tc main_v67) = _
  dsimp only [hostOps5]
  after_results
  rw [hs]
  funext j
  show Ideal.div (Cert.Gcn.colSum y (j 0)) (broadcastInDim S128 ![] bcast_S_S128 (constant (F := Ideal) S_ .f32 0x47435000#32) j) = _
  rw [bcast_const_apply]
  rfl

set_option maxHeartbeats 4000000 in
theorem h10_var (c : Dev nD) (y : Cert.Gcn.SNH.Idx → EReal)
    (hs : (W9 m ρ c (Proc.devRef .tc main_v65_0) : S128.Idx → EReal) = fun j => Cert.Gcn.colSum y (j 0))
    (hq : (W9 m ρ c (Proc.devRef .tc main_v65_1) : S128.Idx → EReal) = fun j => Cert.Gcn.colSumSq y (j 0)) :
    (W10 m ρ c (Proc.devRef .tc main_v71) : S128.Idx → EReal) = fun j => Cert.Gcn.varK y (j 0) := by
  show StableHlo.after hostOps5 (W9 m ρ c) (Proc.devRef .tc main_v71) = _
  dsimp only [hostOps5]
  after_results
  rw [hs, hq]
  funext j
  show Ideal.div (Cert.Gcn.colSumSq y (j 0)) (broadcastInDim S128 ![] bcast_S_S128 (constant (F := Ideal) S_ .f32 0x47435000#32) j)
      - Ideal.div (Cert.Gcn.colSum y (j 0)) (broadcastInDim S128 ![] bcast_S_S128 (constant (F := Ideal) S_ .f32 0x47435000#32) j)
        * Ideal.div (Cert.Gcn.colSum y (j 0)) (broadcastInDim S128 ![] bcast_S_S128 (constant (F := Ideal) S_ .f32 0x47435000#32) j) = _
  rw [bcast_const_apply]
  rfl

end Cert.KernelIdeal.Chain

end
-- ==== Proof.Algebra.lean ====
/-
  The real-number algebra behind the layer's batch statistics.

  With every entry of `y` a real number, each column sum is a real, the mean is that real divided by 50000, and both
  spellings of the variance are the same real: expanding the square,
  Σ_k (y_k − μ)² = Σ_k y_k² − 2 μ Σ_k y_k + n μ², and Σ_k y_k = n μ, so (Σ_k (y_k − μ)²)/n = (Σ_k y_k²)/n − μ².
  The common value is a sum of squares over a positive count, hence non-negative; adding the positive ε makes it positive,
  so its inverse square root is a real and the normalised, scaled, shifted and clamped output is a real as well.
-/
import proofs.«157031_j26723286515821_1_alg».proof.Proof.Spec
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-! ### The two float words -/

/-- The word `0x47435000` denotes the real 50000. -/
theorem nW_eq : nW = ((50000 : ℝ) : EReal) := by
  unfold nW
  simp [Ideal.ofBits, Ideal.ieee, -EReal.coe_mul]; norm_num

/-- The word `0x3727C5AC` denotes a positive real. -/
theorem epsW_pos : ∃ e : ℝ, 0 < e ∧ epsW = (e : EReal) := by
  unfold epsW
  simp [Ideal.ofBits, Ideal.ieee, -EReal.coe_mul]

/-- The word `0x3F800000` denotes the real 1. -/
theorem ofBits_one_f32 : Ideal.ofBits .f32 0x3F800000#32 = 1 := by
  simp [Ideal.ofBits, Ideal.ieee, -EReal.coe_mul]; norm_num

/-! ### Sums of reals inside the extended reals -/

/-- A finite sum of real numbers, taken in the extended reals, is the real sum. -/
theorem coe_finsum {ι : Type*} (s : Finset ι) (f : ι → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- Dividing by the row count is multiplying by the real `1/50000`. -/
theorem div_nW (x : EReal) : Ideal.div x nW = x * (((1 / 50000 : ℝ)) : EReal) := by
  rw [nW_eq]
  exact Ideal.div_coe (by norm_num) x

/-! ### The variance identity over the reals -/

/-- Expanding the square under a finite sum. -/
theorem sum_sq_dev {ι : Type*} (s : Finset ι) (a : ι → ℝ) (m : ℝ) :
    (∑ k ∈ s, (a k - m) * (a k - m))
      = (∑ k ∈ s, a k * a k) - 2 * m * (∑ k ∈ s, a k) + (s.card : ℝ) * (m * m) := by
  have h : ∀ k, (a k - m) * (a k - m) = a k * a k - 2 * m * a k + m * m := fun k => by ring
  simp only [h, Finset.sum_add_distrib, Finset.sum_sub_distrib, ← Finset.mul_sum, Finset.sum_const, nsmul_eq_mul]
  ring

/-- Mean of squared deviations equals mean of squares minus squared mean, for 50000 real numbers. -/
theorem var_identity (a : Fin 50000 → ℝ) :
    (∑ k, (a k - (∑ k, a k) * (1 / 50000)) * (a k - (∑ k, a k) * (1 / 50000))) * (1 / 50000)
      = (∑ k, a k * a k) * (1 / 50000) - ((∑ k, a k) * (1 / 50000)) * ((∑ k, a k) * (1 / 50000)) := by
  rw [sum_sq_dev, Finset.card_univ, Fintype.card_fin]
  push_cast
  ring

/-! ### The statistics of a finite array -/

/-- The column sum of a finite array is the real column sum. -/
theorem colSum_coe (f : SNH.Idx → ℝ) (y : SNH.Idx → EReal) (hf : ∀ i, y i = (f i : EReal)) (j : Fin 128) :
    colSum y j = ((∑ k : Fin 50000, f (ix2 k j) : ℝ) : EReal) := by
  unfold colSum
  simp only [hf]
  exact coe_finsum _ _

/-- The mean of a finite array is the real mean. -/
theorem mean_coe (f : SNH.Idx → ℝ) (y : SNH.Idx → EReal) (hf : ∀ i, y i = (f i : EReal)) (j : Fin 128) :
    mean y j = (((∑ k : Fin 50000, f (ix2 k j)) * (1 / 50000) : ℝ) : EReal) := by
  unfold mean
  rw [div_nW, colSum_coe f y hf, ← EReal.coe_mul]

/-- The mean-of-squares variance of a finite array, as a real. -/
theorem varK_coe (f : SNH.Idx → ℝ) (y : SNH.Idx → EReal) (hf : ∀ i, y i = (f i : EReal)) (j : Fin 128) :
    varK y j = (((∑ k : Fin 50000, f (ix2 k j) * f (ix2 k j)) * (1 / 50000)
      - ((∑ k : Fin 50000, f (ix2 k j)) * (1 / 50000)) * ((∑ k : Fin 50000, f (ix2 k j)) * (1 / 50000)) : ℝ) : EReal) := by
  unfold varK colSumSq
  rw [div_nW, mean_coe f y hf]
  simp only [hf, ← EReal.coe_mul]
  rw [coe_finsum, ← EReal.coe_mul, ← EReal.coe_sub]

/-- The mean-of-squared-deviations variance of a finite array, as a real. -/
theorem varR_coe (f : SNH.Idx → ℝ) (y : SNH.Idx → EReal) (hf : ∀ i, y i = (f i : EReal)) (j : Fin 128) :
    varR y j = (((∑ k : Fin 50000, (f (ix2 k j) - (∑ k : Fin 50000, f (ix2 k j)) * (1 / 50000))
        * (f (ix2 k j) - (∑ k : Fin 50000, f (ix2 k j)) * (1 / 50000))) * (1 / 50000) : ℝ) : EReal) := by
  unfold varR
  rw [div_nW, mean_coe f y hf]
  simp only [hf, ← EReal.coe_sub, ← EReal.coe_mul]
  rw [coe_finsum, ← EReal.coe_mul]

theorem mean_real (y : SNH.Idx → EReal) (hy : IsFin y) (j : Fin 128) : ∃ r : ℝ, mean y j = (r : EReal) := by
  choose f hf using hy
  exact ⟨_, mean_coe f y hf j⟩

theorem varR_eq_varK (y : SNH.Idx → EReal) (hy : IsFin y) (j : Fin 128) : varR y j = varK y j := by
  choose f hf using hy
  rw [varR_coe f y hf, varK_coe f y hf, var_identity (fun k => f (ix2 k j))]

theorem varR_nonneg_real (y : SNH.Idx → EReal) (hy : IsFin y) (j : Fin 128) :
    ∃ r : ℝ, 0 ≤ r ∧ varR y j = (r : EReal) := by
  choose f hf using hy
  refine ⟨_, ?_, varR_coe f y hf j⟩
  exact mul_nonneg (Finset.sum_nonneg fun k _ => mul_self_nonneg _) (by norm_num)

theorem bnOf_congr_var (y : SNH.Idx → EReal) (hy : IsFin y) (g be : SH.Idx → EReal) :
    bnOf y (varK y) g be = bnOf y (varR y) g be := by
  have h : varK y = varR y := funext fun j => (varR_eq_varK y hy j).symm
  rw [h]

/-- The inverse square root of a positive real is a real. -/
theorem rsqrt_pos_real (r : ℝ) (hr : 0 < r) : ∃ t : ℝ, Ideal.rsqrt (r : EReal) = (t : EReal) := by
  refine ⟨(Real.sqrt r)⁻¹, ?_⟩
  rw [Ideal.rsqrt_coe, if_neg (not_lt.mpr hr.le), if_neg hr.ne']

/-- The larger of a real and zero is a real. -/
theorem max_zero_real (a : ℝ) : ∃ t : ℝ, max (a : EReal) 0 = (t : EReal) := by
  rcases max_choice (a : EReal) 0 with h | h
  · exact ⟨a, h⟩
  · exact ⟨0, by rw [h, EReal.coe_zero]⟩

theorem isFin_bnOf (y : SNH.Idx → EReal) (hy : IsFin y) (g be : SH.Idx → EReal) (hg : IsFin g) (hbe : IsFin be) :
    IsFin (bnOf y (varR y) g be) := by
  intro i
  obtain ⟨a, ha⟩ := hy i
  obtain ⟨m, hm⟩ := mean_real y hy (i 1)
  obtain ⟨v, hv0, hv⟩ := varR_nonneg_real y hy (i 1)
  obtain ⟨e, he0, he⟩ := epsW_pos
  obtain ⟨c, hc⟩ := hg (ix1 (i 1))
  obtain ⟨d, hd⟩ := hbe (ix1 (i 1))
  obtain ⟨t, ht⟩ := rsqrt_pos_real (v + e) (by linarith)
  unfold bnOf
  rw [ha, hm, hv, he, hc, hd, ← EReal.coe_add, ht, ← EReal.coe_sub, ← EReal.coe_mul, ← EReal.coe_mul, ← EReal.coe_add]
  exact max_zero_real _

end Cert.Gcn

end
-- ==== Proof.RegionLinear.lean ====
/-
  The two dense-product regions of the encoder (regions 0 and 3), read as whole-array functions over the extended reals.

  Each region multiplies a [50000,128] array by a [128,128] weight matrix in ten row blocks of 5000 rows. On the
  extended reals the narrowing casts are the identity and the matrix unit's product into a zero accumulator is the
  plain sum Σ_k x_rk · W_kj, so each block written back is the corresponding block of `Cert.Gcn.matmulNH x W`; the ten
  blocks tile the result, hence the result array is `matmulNH x W` of the operand arrays as the region finds them.
-/
import proofs.«157031_j26723286515821_1_alg».proof.Proof.Gen.KernelIdeal.Frame
import proofs.«157031_j26723286515821_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, as a constant function. -/
theorem lin_hz : (![0, 0] : Fin 2 → Nat) = fun _ => 0 := funext fun a => by fin_cases a <;> rfl

/-! ## The contraction read at an index

The product contracts the left operand's axis 1 with the right operand's axis 0: at output index (r, j) and
contraction index q the left operand is read at (r, q) and the right at (q, j). -/

theorem lin_dot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lin_dot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem lin_dot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem lin_dot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, over the extended reals: entry (r, j) is Σ_k x0 (r, k) · x1 (k, j)
    (the accumulator's zero word is the real 0, and the sum over the contraction's one axis is a sum over Fin 128). -/
theorem lin_matmul_zero_apply (x0 : FVec Ideal S5000x128 .bf16) (x1 : FVec Ideal S128x128 .bf16) (r : Fin 5000) (j : Fin 128) :
    matmul dot_S5000x128_S128x128_S5000x128_1_0_0_1_n_n none x0 x1 (constant (F := Ideal) S5000x128 .f32 0x00000000#32) (ix2 r j)
      = ∑ k : Fin 128, x0 (ix2 r k) * x1 (ix2 k j) := by
  refine (Ideal.matmul_constant_zero_apply dot_S5000x128_S128x128_S5000x128_1_0_0_1_n_n none x0 x1 (ix2 r j)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k :=
    funext fun a => Fin.ext (by
      match a with
      | ⟨0, _⟩ => exact lin_dot_lhs_0 _ _
      | ⟨1, _⟩ => exact (lin_dot_lhs_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j :=
    funext fun a => Fin.ext (by
      match a with
      | ⟨0, _⟩ => exact (lin_dot_rhs_0 _ _).trans hk
      | ⟨1, _⟩ => exact lin_dot_rhs_1 _ _)
  rw [el, er]

/-! # Region 0: the dense product, block by block

The grid has 10 points; at point t the body reads rows 5000 t … 5000 t + 4999 of the left operand and the whole
weight matrix, and writes the same rows of the result. The narrowing casts are the identity on extended reals. -/

/-- The body's payload at (r, j): the row-by-column sum. -/
theorem lin_pay0 (x0 : Vec Ideal S5000x128 .f32) (x1 : Vec Ideal S128x128 .f32) (r : Fin 5000) (j : Fin 128) :
    k0_pay1 (F := Ideal) x0 x1 (ix2 r j) = ∑ k : Fin 128, x0 (ix2 r k) * x1 (ix2 k j) := by
  unfold k0_pay1
  exact lin_matmul_zero_apply _ _ r j

/-- The index maps over the grid: the row-blocked windows are at block (t, 0), the weights at block (0, 0). -/
theorem lin_idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem lin_onto0 : ∀ q : Fin 10, ∃ t : Fin cfg0.N, t.val = q.val :=
  (by decide +kernel : ∀ q : Fin 10, ∃ t : Fin grid0.N, t.val = q.val)

theorem lin_N0_lt (t : Fin cfg0.N) : t.val < 10 := by have := t.isLt; have h : cfg0.N = 10 := N_0; omega

/-- The left operand's block at point t is rows 5000 t … 5000 t + 4999 of its array. -/
theorem lin_iblk0_0 (c : Dev nD) (t : Fin cfg0.N) (r : Fin 5000) (k : Fin 128) :
    (iblk0 V c 0 t : Vec Ideal S5000x128 .f32) (ix2 r k)
      = (V c (Pipeline.arrRef spec0 0) : S50000x128.Idx → EReal) (ix2 ⟨5000 * t.val + r.val, by have := lin_N0_lt t; omega⟩ k) := by
  obtain ⟨e0, e1, -⟩ := lin_idx0 t
  unfold iblk0
  rw [View.read_apply]
  refine congrArg (V c (Pipeline.arrRef spec0 0) : S50000x128.Idx → EReal) (funext fun a => Fin.ext ?_)
  match a with
  | ⟨0, _⟩ => show win0_0.index t (0 : Fin 2) * 5000 + 1 * r.val = 5000 * t.val + r.val; rw [e0]; omega
  | ⟨1, _⟩ => show win0_0.index t (1 : Fin 2) * 128 + 1 * k.val = k.val; rw [e1]; omega

/-- The weight window's block at every point is the whole matrix. -/
theorem lin_iblk0_1 (c : Dev nD) (t : Fin cfg0.N) (k : Fin 128) (j : Fin 128) :
    (iblk0 V c 1 t : Vec Ideal S128x128 .f32) (ix2 k j)
      = (V c (Pipeline.arrRef spec0 1) : S128x128.Idx → EReal) (ix2 k j) := by
  obtain ⟨-, -, e0, e1, -⟩ := lin_idx0 t
  unfold iblk0
  rw [View.read_apply]
  refine congrArg (V c (Pipeline.arrRef spec0 1) : S128x128.Idx → EReal) (funext fun a => Fin.ext ?_)
  match a with
  | ⟨0, _⟩ => show win0_1.index t (0 : Fin 2) * 128 + 1 * k.val = k.val; rw [e0]; omega
  | ⟨1, _⟩ => show win0_1.index t (1 : Fin 2) * 128 + 1 * j.val = j.val; rw [e1]; omega

/-- Element (r, j) of the result's block at point t sits at row 5000 t + r, column j of the array. -/
theorem lin_emb0 (t : Fin cfg0.N) (r : Fin 5000) (j : Fin 128) :
    (((cfg0.win 2).blk t).view.emb (ix2 r j) : S50000x128.Idx) = ix2 ⟨5000 * t.val + r.val, by have := lin_N0_lt t; omega⟩ j := by
  obtain ⟨-, -, -, -, e0, e1⟩ := lin_idx0 t
  funext a
  apply Fin.ext
  match a with
  | ⟨0, _⟩ => show win0_2.index t (0 : Fin 2) * 5000 + 1 * r.val = 5000 * t.val + r.val; rw [e0]; omega
  | ⟨1, _⟩ => show win0_2.index t (1 : Fin 2) * 128 + 1 * j.val = j.val; rw [e1]; omega

/-- What point t writes back is block t of the dense product of the two arrays as the region finds them. -/
theorem lin_flushed0 (c : Dev nD) (t : Fin cfg0.N) :
    (dat0 (F := Ideal) V c).flushed 2 t = ((cfg0.win 2).blk t).view.read (Elt Ideal) (Cert.Gcn.matmulNH (V c (Pipeline.arrRef spec0 0)) (V c (Pipeline.arrRef spec0 1))) := by
  show (cfg0.win 2).cut (grid0.coords t) ((dat0 V c).after 2 t) = _
  rw [after0_2]
  unfold out0_2
  rw [View.canon_unit_zero lin_hz]
  simp only [View.ld_unit_zero (S := S5000x128) lin_hz, View.ld_unit_zero (S := S128x128) lin_hz]
  funext y
  obtain ⟨r, j, rfl⟩ : ∃ (r : Fin 5000) (j : Fin 128), y = ix2 r j := ⟨y 0, y 1, eq_ix2 y⟩
  show k0_pay1 (F := Ideal) (iblk0 V c 0 t) (iblk0 V c 1 t) (ix2 r j)
    = Cert.Gcn.matmulNH (V c (Pipeline.arrRef spec0 0)) (V c (Pipeline.arrRef spec0 1)) (((cfg0.win 2).blk t).view.emb (ix2 r j))
  rw [lin_emb0 t r j]
  refine (lin_pay0 (iblk0 V c 0 t) (iblk0 V c 1 t) r j).trans ?_
  unfold Cert.Gcn.matmulNH
  refine Finset.sum_congr rfl fun k _ => ?_
  rw [lin_iblk0_0 V c t r k, lin_iblk0_1 V c t k j]

/-- An index of the result array is in point t's block iff each coordinate is in the block's range on its axis. -/
theorem lin_mem0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- The ten row blocks tile the array: row i is in the block of point i / 5000. -/
theorem lin_cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := lin_onto0 ⟨(i 0).val / 5000, by omega⟩
  have ht' : t.val = (i 0).val / 5000 := ht
  obtain ⟨-, -, -, -, e0, e1⟩ := lin_idx0 t
  refine ⟨t, flush0_2 t, ?_⟩
  rw [lin_mem0]
  intro a
  match a with
  | ⟨0, _⟩ => show win0_2.index t (0 : Fin 2) * 5000 ≤ (i 0).val ∧ (i 0).val < win0_2.index t (0 : Fin 2) * 5000 + 5000; rw [e0]; omega
  | ⟨1, _⟩ => show win0_2.index t (1 : Fin 2) * 128 ≤ (i 1).val ∧ (i 1).val < win0_2.index t (1 : Fin 2) * 128 + 128; rw [e1]; omega

/-- After region 0 its result array holds the dense product of the two operand arrays as the region found them. -/
theorem lin0 (c : Dev nD) : (dat0 (F := Ideal) V c).arrAt 2 cfg0.N = Cert.Gcn.matmulNH (V c (Pipeline.arrRef spec0 0)) (V c (Pipeline.arrRef spec0 1)) :=
  (dat0 (F := Ideal) V c).arrAt_eq_of_cover 2 (Cert.Gcn.matmulNH (V c (Pipeline.arrRef spec0 0)) (V c (Pipeline.arrRef spec0 1))) (fun t _ => lin_flushed0 V c t) lin_cover0

/-! # Region 3: the dense product, block by block

The grid has 10 points; at point t the body reads rows 5000 t … 5000 t + 4999 of the left operand and the whole
weight matrix, and writes the same rows of the result. The narrowing casts are the identity on extended reals. -/

/-- The body's payload at (r, j): the row-by-column sum. -/
theorem lin_pay3 (x0 : Vec Ideal S5000x128 .f32) (x1 : Vec Ideal S128x128 .f32) (r : Fin 5000) (j : Fin 128) :
    k3_pay1 (F := Ideal) x0 x1 (ix2 r j) = ∑ k : Fin 128, x0 (ix2 r k) * x1 (ix2 k j) := by
  unfold k3_pay1
  refine (lin_matmul_zero_apply _ _ r j).trans ?_
  simp only [shapeCast_self]
  rfl

/-- The index maps over the grid: the row-blocked windows are at block (t, 0), the weights at block (0, 0). -/
theorem lin_idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block is some point's. -/
theorem lin_onto3 : ∀ q : Fin 10, ∃ t : Fin cfg3.N, t.val = q.val :=
  (by decide +kernel : ∀ q : Fin 10, ∃ t : Fin grid3.N, t.val = q.val)

theorem lin_N3_lt (t : Fin cfg3.N) : t.val < 10 := by have := t.isLt; have h : cfg3.N = 10 := N_3; omega

/-- The left operand's block at point t is rows 5000 t … 5000 t + 4999 of its array. -/
theorem lin_iblk3_0 (c : Dev nD) (t : Fin cfg3.N) (r : Fin 5000) (k : Fin 128) :
    (iblk3 V c 0 t : Vec Ideal S5000x128 .f32) (ix2 r k)
      = (V c (Pipeline.arrRef spec3 0) : S50000x128.Idx → EReal) (ix2 ⟨5000 * t.val + r.val, by have := lin_N3_lt t; omega⟩ k) := by
  obtain ⟨e0, e1, -⟩ := lin_idx3 t
  unfold iblk3
  rw [View.read_apply]
  refine congrArg (V c (Pipeline.arrRef spec3 0) : S50000x128.Idx → EReal) (funext fun a => Fin.ext ?_)
  match a with
  | ⟨0, _⟩ => show win3_0.index t (0 : Fin 2) * 5000 + 1 * r.val = 5000 * t.val + r.val; rw [e0]; omega
  | ⟨1, _⟩ => show win3_0.index t (1 : Fin 2) * 128 + 1 * k.val = k.val; rw [e1]; omega

/-- The weight window's block at every point is the whole matrix. -/
theorem lin_iblk3_1 (c : Dev nD) (t : Fin cfg3.N) (k : Fin 128) (j : Fin 128) :
    (iblk3 V c 1 t : Vec Ideal S128x128 .f32) (ix2 k j)
      = (V c (Pipeline.arrRef spec3 1) : S128x128.Idx → EReal) (ix2 k j) := by
  obtain ⟨-, -, e0, e1, -⟩ := lin_idx3 t
  unfold iblk3
  rw [View.read_apply]
  refine congrArg (V c (Pipeline.arrRef spec3 1) : S128x128.Idx → EReal) (funext fun a => Fin.ext ?_)
  match a with
  | ⟨0, _⟩ => show win3_1.index t (0 : Fin 2) * 128 + 1 * k.val = k.val; rw [e0]; omega
  | ⟨1, _⟩ => show win3_1.index t (1 : Fin 2) * 128 + 1 * j.val = j.val; rw [e1]; omega

/-- Element (r, j) of the result's block at point t sits at row 5000 t + r, column j of the array. -/
theorem lin_emb3 (t : Fin cfg3.N) (r : Fin 5000) (j : Fin 128) :
    (((cfg3.win 2).blk t).view.emb (ix2 r j) : S50000x128.Idx) = ix2 ⟨5000 * t.val + r.val, by have := lin_N3_lt t; omega⟩ j := by
  obtain ⟨-, -, -, -, e0, e1⟩ := lin_idx3 t
  funext a
  apply Fin.ext
  match a with
  | ⟨0, _⟩ => show win3_2.index t (0 : Fin 2) * 5000 + 1 * r.val = 5000 * t.val + r.val; rw [e0]; omega
  | ⟨1, _⟩ => show win3_2.index t (1 : Fin 2) * 128 + 1 * j.val = j.val; rw [e1]; omega

/-- What point t writes back is block t of the dense product of the two arrays as the region finds them. -/
theorem lin_flushed3 (c : Dev nD) (t : Fin cfg3.N) :
    (dat3 (F := Ideal) V c).flushed 2 t = ((cfg3.win 2).blk t).view.read (Elt Ideal) (Cert.Gcn.matmulNH (V c (Pipeline.arrRef spec3 0)) (V c (Pipeline.arrRef spec3 1))) := by
  show (cfg3.win 2).cut (grid3.coords t) ((dat3 V c).after 2 t) = _
  rw [after3_2]
  unfold out3_2
  rw [View.canon_unit_zero lin_hz]
  simp only [View.ld_unit_zero (S := S5000x128) lin_hz, View.ld_unit_zero (S := S128x128) lin_hz]
  funext y
  obtain ⟨r, j, rfl⟩ : ∃ (r : Fin 5000) (j : Fin 128), y = ix2 r j := ⟨y 0, y 1, eq_ix2 y⟩
  show k3_pay1 (F := Ideal) (iblk3 V c 0 t) (iblk3 V c 1 t) (ix2 r j)
    = Cert.Gcn.matmulNH (V c (Pipeline.arrRef spec3 0)) (V c (Pipeline.arrRef spec3 1)) (((cfg3.win 2).blk t).view.emb (ix2 r j))
  rw [lin_emb3 t r j]
  refine (lin_pay3 (iblk3 V c 0 t) (iblk3 V c 1 t) r j).trans ?_
  unfold Cert.Gcn.matmulNH
  refine Finset.sum_congr rfl fun k _ => ?_
  rw [lin_iblk3_0 V c t r k, lin_iblk3_1 V c t k j]

/-- An index of the result array is in point t's block iff each coordinate is in the block's range on its axis. -/
theorem lin_mem3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v51).slice (win3_2.rect t)).set ↔ _
  rw [View.set_slice_whole, Rect.mem_set_unit]
  exact Iff.rfl

/-- The ten row blocks tile the array: row i is in the block of point i / 5000. -/
theorem lin_cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := lin_onto3 ⟨(i 0).val / 5000, by omega⟩
  have ht' : t.val = (i 0).val / 5000 := ht
  obtain ⟨-, -, -, -, e0, e1⟩ := lin_idx3 t
  refine ⟨t, flush3_2 t, ?_⟩
  rw [lin_mem3]
  intro a
  match a with
  | ⟨0, _⟩ => show win3_2.index t (0 : Fin 2) * 5000 ≤ (i 0).val ∧ (i 0).val < win3_2.index t (0 : Fin 2) * 5000 + 5000; rw [e0]; omega
  | ⟨1, _⟩ => show win3_2.index t (1 : Fin 2) * 128 ≤ (i 1).val ∧ (i 1).val < win3_2.index t (1 : Fin 2) * 128 + 128; rw [e1]; omega

/-- After region 3 its result array holds the dense product of the two operand arrays as the region found them. -/
theorem lin3 (c : Dev nD) : (dat3 (F := Ideal) V c).arrAt 2 cfg3.N = Cert.Gcn.matmulNH (V c (Pipeline.arrRef spec3 0)) (V c (Pipeline.arrRef spec3 1)) :=
  (dat3 (F := Ideal) V c).arrAt_eq_of_cover 2 (Cert.Gcn.matmulNH (V c (Pipeline.arrRef spec3 0)) (V c (Pipeline.arrRef spec3 1))) (fun t _ => lin_flushed3 V c t) lin_cover3

end Cert.KernelIdeal.RegionValue

end
-- ==== Proof.RegionNorm.lean ====
/-
  The two normalise-and-clamp regions of the encoder (regions 2 and 5), read as whole-array functions over the extended reals.

  Each region takes a [50000,128] feature array x and five row vectors — bias b, mean μ, variance v, scale γ, shift β —
  and writes max (((((x + b) − μ) · (v + ε)^(-1/2)) · γ) + β, 0) in ten row blocks of 5000 rows, every row vector
  broadcast over the rows. Pointwise this is `Cert.Gcn.bnK x b μ v γ β` (the clamp's zero word is the real 0, ε stays the
  printed word); the ten blocks tile the result, hence the result array is `bnK` of the operand arrays as the region
  finds them.
-/
import proofs.«157031_j26723286515821_1_alg».proof.Proof.Gen.KernelIdeal.Frame
import proofs.«157031_j26723286515821_1_alg».proof.Proof.Spec
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, as a constant function (two axes, one axis). -/
theorem norm_hz2 : (![0, 0] : Fin 2 → Nat) = fun _ => 0 := funext fun a => by fin_cases a <;> rfl
theorem norm_hz1 : (![0] : Fin 1 → Nat) = fun _ => 0 := funext fun a => by fin_cases a; rfl

/-- A row vector broadcast over the 5000 rows of a block reads, at (r, j), the vector at j. -/
theorem norm_row (v : FVec Ideal S128 .f32) (r : Fin 5000) (j : Fin 128) :
    broadcastTo S5000x128 (shapeCast S1x128 v shapeCasts_S128_S1x128) broadcasts_S1x128_S5000x128 (ix2 r j) = v (ix1 j) :=
  (broadcastTo_1b_ab_apply (shapeCast S1x128 v shapeCasts_S128_S1x128) broadcasts_S1x128_S5000x128 r j).trans
    (shapeCast_a_1a_apply v shapeCasts_S128_S1x128 0 j)

/-- The whole-array normalisation at row p, column j. -/
theorem norm_bnK_apply (x : S50000x128.Idx → EReal) (b m v g be : S128.Idx → EReal) (p : Fin 50000) (j : Fin 128) :
    Cert.Gcn.bnK x b m v g be (ix2 p j)
      = max (((((x (ix2 p j) + b (ix1 j)) - m (ix1 j)) * Ideal.rsqrt (v (ix1 j) + Cert.Gcn.epsW)) * g (ix1 j)) + be (ix1 j)) 0 := rfl

/-! # Region 2: normalise, scale, shift, clamp — block by block

The grid has 10 points; at point t the body reads rows 5000 t … 5000 t + 4999 of the feature array and the five
whole row vectors (bias, mean, variance, scale, shift), and writes the same rows of the result. -/

/-- The body's payload at (r, j): max (((((x + b) − mean) · (var + ε)^(-1/2)) · γ) + β, 0), the row vectors read at j. -/
theorem norm_pay2 (x0 : Vec Ideal S5000x128 .f32) (x1 x2 x3 x4 x5 : Vec Ideal S128 .f32) (r : Fin 5000) (j : Fin 128) :
    k2_pay1 (F := Ideal) x0 x1 x2 x3 x4 x5 (ix2 r j)
      = max (((((x0 (ix2 r j) + x1 (ix1 j)) - x2 (ix1 j)) * Ideal.rsqrt (x3 (ix1 j) + Cert.Gcn.epsW)) * x4 (ix1 j)) + x5 (ix1 j)) 0 := by
  unfold k2_pay1
  simp only [shapeCast_self]
  show max (((((x0 (ix2 r j) + broadcastTo S5000x128 (shapeCast S1x128 x1 shapeCasts_S128_S1x128) broadcasts_S1x128_S5000x128 (ix2 r j))
      - broadcastTo S5000x128 (shapeCast S1x128 x2 shapeCasts_S128_S1x128) broadcasts_S1x128_S5000x128 (ix2 r j))
      * broadcastTo S5000x128 (shapeCast S1x128 (rsqrt (addf x3 (broadcast S128 (Scalar.ofBits (F := Ideal) .f32 0x3727C5AC#32)))) shapeCasts_S128_S1x128) broadcasts_S1x128_S5000x128 (ix2 r j))
      * broadcastTo S5000x128 (shapeCast S1x128 x4 shapeCasts_S128_S1x128) broadcasts_S1x128_S5000x128 (ix2 r j))
      + broadcastTo S5000x128 (shapeCast S1x128 x5 shapeCasts_S128_S1x128) broadcasts_S1x128_S5000x128 (ix2 r j))
      (Ideal.ofBits .f32 0x00000000#32) = _
  rw [norm_row x1 r j, norm_row x2 r j, norm_row x4 r j, norm_row x5 r j, norm_row _ r j, Ideal.ofBits_zero_f32]
  rfl

/-- The payload on blocks that read the arrays A0 … A5 at row p: the whole-array normalisation at (p, j). -/
theorem norm_point2 (A0 : S50000x128.Idx → EReal) (A1 A2 A3 A4 A5 : S128.Idx → EReal)
    (x0 : Vec Ideal S5000x128 .f32) (x1 x2 x3 x4 x5 : Vec Ideal S128 .f32) (r : Fin 5000) (j : Fin 128) (p : Fin 50000)
    (h0 : x0 (ix2 r j) = A0 (ix2 p j)) (h1 : x1 (ix1 j) = A1 (ix1 j)) (h2 : x2 (ix1 j) = A2 (ix1 j))
    (h3 : x3 (ix1 j) = A3 (ix1 j)) (h4 : x4 (ix1 j) = A4 (ix1 j)) (h5 : x5 (ix1 j) = A5 (ix1 j)) :
    k2_pay1 (F := Ideal) x0 x1 x2 x3 x4 x5 (ix2 r j) = Cert.Gcn.bnK A0 A1 A2 A3 A4 A5 (ix2 p j) := by
  rw [norm_pay2, norm_bnK_apply, h0, h1, h2, h3, h4, h5]

/-- The index maps over the grid: the row-blocked windows are at block (t, 0), each row vector at block 0. -/
theorem norm_idx2 : ∀ t : Fin cfg2.N, win2_0.index t (0 : Fin 2) = t.val ∧ win2_0.index t (1 : Fin 2) = 0
    ∧ win2_1.index t (0 : Fin 1) = 0 ∧ win2_2.index t (0 : Fin 1) = 0 ∧ win2_3.index t (0 : Fin 1) = 0
    ∧ win2_4.index t (0 : Fin 1) = 0 ∧ win2_5.index t (0 : Fin 1) = 0
    ∧ win2_6.index t (0 : Fin 2) = t.val ∧ win2_6.index t (1 : Fin 2) = 0 :=
  (by decide +kernel : ∀ t : Fin grid2.N, _)

/-- Every row block is some point's. -/
theorem norm_onto2 : ∀ q : Fin 10, ∃ t : Fin cfg2.N, t.val = q.val :=
  (by decide +kernel : ∀ q : Fin 10, ∃ t : Fin grid2.N, t.val = q.val)

theorem norm_N2_lt (t : Fin cfg2.N) : t.val < 10 := by have := t.isLt; have h : cfg2.N = 10 := N_2; omega

/-- The feature window's block at point t is rows 5000 t … 5000 t + 4999 of its array. -/
theorem norm_iblk2_0 (c : Dev nD) (t : Fin cfg2.N) (r : Fin 5000) (j : Fin 128) :
    (iblk2 V c 0 t : Vec Ideal S5000x128 .f32) (ix2 r j)
      = (V c (Pipeline.arrRef spec2 0) : S50000x128.Idx → EReal) (ix2 ⟨5000 * t.val + r.val, by have := norm_N2_lt t; omega⟩ j) := by
  obtain ⟨e0, e1, -⟩ := norm_idx2 t
  unfold iblk2
  rw [View.read_apply]
  refine congrArg (V c (Pipeline.arrRef spec2 0) : S50000x128.Idx → EReal) (funext fun a => Fin.ext ?_)
  match a with
  | ⟨0, _⟩ => show win2_0.index t (0 : Fin 2) * 5000 + 1 * r.val = 5000 * t.val + r.val; rw [e0]; omega
  | ⟨1, _⟩ => show win2_0.index t (1 : Fin 2) * 128 + 1 * j.val = j.val; rw [e1]; omega

/-! Each row vector's block at every point is the whole vector. -/

theorem norm_iblk2_1 (c : Dev nD) (t : Fin cfg2.N) (j : Fin 128) :
    (iblk2 V c 1 t : Vec Ideal S128 .f32) (ix1 j) = (V c (Pipeline.arrRef spec2 1) : S128.Idx → EReal) (ix1 j) := by
  have e0 : win2_1.index t (0 : Fin 1) = 0 := (norm_idx2 t).2.2.1
  unfold iblk2
  rw [View.read_apply]
  refine congrArg (V c (Pipeline.arrRef spec2 1) : S128.Idx → EReal) (funext fun a => Fin.ext ?_)
  match a with
  | ⟨0, _⟩ => show win2_1.index t (0 : Fin 1) * 128 + 1 * j.val = j.val; rw [e0]; omega

theorem norm_iblk2_2 (c : Dev nD) (t : Fin cfg2.N) (j : Fin 128) :
    (iblk2 V c 2 t : Vec Ideal S128 .f32) (ix1 j) = (V c (Pipeline.arrRef spec2 2) : S128.Idx → EReal) (ix1 j) := by
  have e0 : win2_2.index t (0 : Fin 1) = 0 := (norm_idx2 t).2.2.2.1
  unfold iblk2
  rw [View.read_apply]
  refine congrArg (V c (Pipeline.arrRef spec2 2) : S128.Idx → EReal) (funext fun a => Fin.ext ?_)
  match a with
  | ⟨0, _⟩ => show win2_2.index t (0 : Fin 1) * 128 + 1 * j.val = j.val; rw [e0]; omega

theorem norm_iblk2_3 (c : Dev nD) (t : Fin cfg2.N) (j : Fin 128) :
    (iblk2 V c 3 t : Vec Ideal S128 .f32) (ix1 j) = (V c (Pipeline.arrRef spec2 3) : S128.Idx → EReal) (ix1 j) := by
  have e0 : win2_3.index t (0 : Fin 1) = 0 := (norm_idx2 t).2.2.2.2.1
  unfold iblk2
  rw [View.read_apply]
  refine congrArg (V c (Pipeline.arrRef spec2 3) : S128.Idx → EReal) (funext fun a => Fin.ext ?_)
  match a with
  | ⟨0, _⟩ => show win2_3.index t (0 : Fin 1) * 128 + 1 * j.val = j.val; rw [e0]; omega

theorem norm_iblk2_4 (c : Dev nD) (t : Fin cfg2.N) (j : Fin 128) :
    (iblk2 V c 4 t : Vec Ideal S128 .f32) (ix1 j) = (V c (Pipeline.arrRef spec2 4) : S128.Idx → EReal) (ix1 j) := by
  have e0 : win2_4.index t (0 : Fin 1) = 0 := (norm_idx2 t).2.2.2.2.2.1
  unfold iblk2
  rw [View.read_apply]
  refine congrArg (V c (Pipeline.arrRef spec2 4) : S128.Idx → EReal) (funext fun a => Fin.ext ?_)
  match a with
  | ⟨0, _⟩ => show win2_4.index t (0 : Fin 1) * 128 + 1 * j.val = j.val; rw [e0]; omega

theorem norm_iblk2_5 (c : Dev nD) (t : Fin cfg2.N) (j : Fin 128) :
    (iblk2 V c 5 t : Vec Ideal S128 .f32) (ix1 j) = (V c (Pipeline.arrRef spec2 5) : S128.Idx → EReal) (ix1 j) := by
  have e0 : win2_5.index t (0 : Fin 1) = 0 := (norm_idx2 t).2.2.2.2.2.2.1
  unfold iblk2
  rw [View.read_apply]
  refine congrArg (V c (Pipeline.arrRef spec2 5) : S128.Idx → EReal) (funext fun a => Fin.ext ?_)
  match a with
  | ⟨0, _⟩ => show win2_5.index t (0 : Fin 1) * 128 + 1 * j.val = j.val; rw [e0]; omega

/-- Element (r, j) of the result's block at point t sits at row 5000 t + r, column j of the array. -/
theorem norm_emb2 (t : Fin cfg2.N) (r : Fin 5000) (j : Fin 128) :
    (((cfg2.win 6).blk t).view.emb (ix2 r j) : S50000x128.Idx) = ix2 ⟨5000 * t.val + r.val, by have := norm_N2_lt t; omega⟩ j := by
  obtain ⟨-, -, -, -, -, -, -, e0, e1⟩ := norm_idx2 t
  funext a
  apply Fin.ext
  match a with
  | ⟨0, _⟩ => show win2_6.index t (0 : Fin 2) * 5000 + 1 * r.val = 5000 * t.val + r.val; rw [e0]; omega
  | ⟨1, _⟩ => show win2_6.index t (1 : Fin 2) * 128 + 1 * j.val = j.val; rw [e1]; omega

set_option maxHeartbeats 4000000 in
/-- What point t writes back is block t of the normalisation of the six arrays as the region finds them. -/
theorem norm_flushed2 (c : Dev nD) (t : Fin cfg2.N) :
    (dat2 (F := Ideal) V c).flushed 6 t = ((cfg2.win 6).blk t).view.read (Elt Ideal)
      (Cert.Gcn.bnK (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero norm_hz2]
  simp only [View.ld_unit_zero (S := S5000x128) norm_hz2, View.ld_unit_zero (S := S128) norm_hz1]
  funext y
  obtain ⟨r, j, rfl⟩ : ∃ (r : Fin 5000) (j : Fin 128), y = ix2 r j := ⟨y 0, y 1, eq_ix2 y⟩
  show k2_pay1 (F := Ideal) (iblk2 V c 0 t) (iblk2 V c 1 t) (iblk2 V c 2 t) (iblk2 V c 3 t) (iblk2 V c 4 t) (iblk2 V c 5 t) (ix2 r j)
    = (Cert.Gcn.bnK (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) (((cfg2.win 6).blk t).view.emb (ix2 r j))
  rw [norm_emb2 t r j]
  exact norm_point2 (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (iblk2 V c 0 t) (iblk2 V c 1 t) (iblk2 V c 2 t) (iblk2 V c 3 t) (iblk2 V c 4 t) (iblk2 V c 5 t) r j
    ⟨5000 * t.val + r.val, by have := norm_N2_lt t; omega⟩
    (norm_iblk2_0 V c t r j) (norm_iblk2_1 V c t j) (norm_iblk2_2 V c t j) (norm_iblk2_3 V c t j)
    (norm_iblk2_4 V c t j) (norm_iblk2_5 V c t j)

/-- An index of the result array is in point t's block iff each coordinate is in the block's range on its axis. -/
theorem norm_mem2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v50).slice (win2_6.rect t)).set ↔ _
  rw [View.set_slice_whole, Rect.mem_set_unit]
  exact Iff.rfl

/-- The ten row blocks tile the array: row i is in the block of point i / 5000. -/
theorem norm_cover2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := norm_onto2 ⟨(i 0).val / 5000, by omega⟩
  have ht' : t.val = (i 0).val / 5000 := ht
  obtain ⟨-, -, -, -, -, -, -, e0, e1⟩ := norm_idx2 t
  refine ⟨t, flush2_6 t, ?_⟩
  rw [norm_mem2]
  intro a
  match a with
  | ⟨0, _⟩ => show win2_6.index t (0 : Fin 2) * 5000 ≤ (i 0).val ∧ (i 0).val < win2_6.index t (0 : Fin 2) * 5000 + 5000; rw [e0]; omega
  | ⟨1, _⟩ => show win2_6.index t (1 : Fin 2) * 128 ≤ (i 1).val ∧ (i 1).val < win2_6.index t (1 : Fin 2) * 128 + 128; rw [e1]; omega

set_option maxHeartbeats 4000000 in
/-- After region 2 its result array holds the normalisation of the six operand arrays as the region found them. -/
theorem norm2 (c : Dev nD) : ((dat2 (F := Ideal) V c).arrAt 6 cfg2.N : S50000x128.Idx → EReal)
    = Cert.Gcn.bnK (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) :=
  (dat2 (F := Ideal) V c).arrAt_eq_of_cover 6
    (Cert.Gcn.bnK (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)))
    (fun t _ => norm_flushed2 V c t) norm_cover2

/-! # Region 5: normalise, scale, shift, clamp — block by block

The grid has 10 points; at point t the body reads rows 5000 t … 5000 t + 4999 of the feature array and the five
whole row vectors (bias, mean, variance, scale, shift), and writes the same rows of the result. -/

/-- The body's payload at (r, j): max (((((x + b) − mean) · (var + ε)^(-1/2)) · γ) + β, 0), the row vectors read at j. -/
theorem norm_pay5 (x0 : Vec Ideal S5000x128 .f32) (x1 x2 x3 x4 x5 : Vec Ideal S128 .f32) (r : Fin 5000) (j : Fin 128) :
    k5_pay1 (F := Ideal) x0 x1 x2 x3 x4 x5 (ix2 r j)
      = max (((((x0 (ix2 r j) + x1 (ix1 j)) - x2 (ix1 j)) * Ideal.rsqrt (x3 (ix1 j) + Cert.Gcn.epsW)) * x4 (ix1 j)) + x5 (ix1 j)) 0 := by
  unfold k5_pay1
  simp only [shapeCast_self]
  show max (((((x0 (ix2 r j) + broadcastTo S5000x128 (shapeCast S1x128 x1 shapeCasts_S128_S1x128) broadcasts_S1x128_S5000x128 (ix2 r j))
      - broadcastTo S5000x128 (shapeCast S1x128 x2 shapeCasts_S128_S1x128) broadcasts_S1x128_S5000x128 (ix2 r j))
      * broadcastTo S5000x128 (shapeCast S1x128 (rsqrt (addf x3 (broadcast S128 (Scalar.ofBits (F := Ideal) .f32 0x3727C5AC#32)))) shapeCasts_S128_S1x128) broadcasts_S1x128_S5000x128 (ix2 r j))
      * broadcastTo S5000x128 (shapeCast S1x128 x4 shapeCasts_S128_S1x128) broadcasts_S1x128_S5000x128 (ix2 r j))
      + broadcastTo S5000x128 (shapeCast S1x128 x5 shapeCasts_S128_S1x128) broadcasts_S1x128_S5000x128 (ix2 r j))
      (Ideal.ofBits .f32 0x00000000#32) = _
  rw [norm_row x1 r j, norm_row x2 r j, norm_row x4 r j, norm_row x5 r j, norm_row _ r j, Ideal.ofBits_zero_f32]
  rfl

/-- The payload on blocks that read the arrays A0 … A5 at row p: the whole-array normalisation at (p, j). -/
theorem norm_point5 (A0 : S50000x128.Idx → EReal) (A1 A2 A3 A4 A5 : S128.Idx → EReal)
    (x0 : Vec Ideal S5000x128 .f32) (x1 x2 x3 x4 x5 : Vec Ideal S128 .f32) (r : Fin 5000) (j : Fin 128) (p : Fin 50000)
    (h0 : x0 (ix2 r j) = A0 (ix2 p j)) (h1 : x1 (ix1 j) = A1 (ix1 j)) (h2 : x2 (ix1 j) = A2 (ix1 j))
    (h3 : x3 (ix1 j) = A3 (ix1 j)) (h4 : x4 (ix1 j) = A4 (ix1 j)) (h5 : x5 (ix1 j) = A5 (ix1 j)) :
    k5_pay1 (F := Ideal) x0 x1 x2 x3 x4 x5 (ix2 r j) = Cert.Gcn.bnK A0 A1 A2 A3 A4 A5 (ix2 p j) := by
  rw [norm_pay5, norm_bnK_apply, h0, h1, h2, h3, h4, h5]

/-- The index maps over the grid: the row-blocked windows are at block (t, 0), each row vector at block 0. -/
theorem norm_idx5 : ∀ t : Fin cfg5.N, win5_0.index t (0 : Fin 2) = t.val ∧ win5_0.index t (1 : Fin 2) = 0
    ∧ win5_1.index t (0 : Fin 1) = 0 ∧ win5_2.index t (0 : Fin 1) = 0 ∧ win5_3.index t (0 : Fin 1) = 0
    ∧ win5_4.index t (0 : Fin 1) = 0 ∧ win5_5.index t (0 : Fin 1) = 0
    ∧ win5_6.index t (0 : Fin 2) = t.val ∧ win5_6.index t (1 : Fin 2) = 0 :=
  (by decide +kernel : ∀ t : Fin grid5.N, _)

/-- Every row block is some point's. -/
theorem norm_onto5 : ∀ q : Fin 10, ∃ t : Fin cfg5.N, t.val = q.val :=
  (by decide +kernel : ∀ q : Fin 10, ∃ t : Fin grid5.N, t.val = q.val)

theorem norm_N5_lt (t : Fin cfg5.N) : t.val < 10 := by have := t.isLt; have h : cfg5.N = 10 := N_5; omega

/-- The feature window's block at point t is rows 5000 t … 5000 t + 4999 of its array. -/
theorem norm_iblk5_0 (c : Dev nD) (t : Fin cfg5.N) (r : Fin 5000) (j : Fin 128) :
    (iblk5 V c 0 t : Vec Ideal S5000x128 .f32) (ix2 r j)
      = (V c (Pipeline.arrRef spec5 0) : S50000x128.Idx → EReal) (ix2 ⟨5000 * t.val + r.val, by have := norm_N5_lt t; omega⟩ j) := by
  obtain ⟨e0, e1, -⟩ := norm_idx5 t
  unfold iblk5
  rw [View.read_apply]
  refine congrArg (V c (Pipeline.arrRef spec5 0) : S50000x128.Idx → EReal) (funext fun a => Fin.ext ?_)
  match a with
  | ⟨0, _⟩ => show win5_0.index t (0 : Fin 2) * 5000 + 1 * r.val = 5000 * t.val + r.val; rw [e0]; omega
  | ⟨1, _⟩ => show win5_0.index t (1 : Fin 2) * 128 + 1 * j.val = j.val; rw [e1]; omega

/-! Each row vector's block at every point is the whole vector. -/

theorem norm_iblk5_1 (c : Dev nD) (t : Fin cfg5.N) (j : Fin 128) :
    (iblk5 V c 1 t : Vec Ideal S128 .f32) (ix1 j) = (V c (Pipeline.arrRef spec5 1) : S128.Idx → EReal) (ix1 j) := by
  have e0 : win5_1.index t (0 : Fin 1) = 0 := (norm_idx5 t).2.2.1
  unfold iblk5
  rw [View.read_apply]
  refine congrArg (V c (Pipeline.arrRef spec5 1) : S128.Idx → EReal) (funext fun a => Fin.ext ?_)
  match a with
  | ⟨0, _⟩ => show win5_1.index t (0 : Fin 1) * 128 + 1 * j.val = j.val; rw [e0]; omega

theorem norm_iblk5_2 (c : Dev nD) (t : Fin cfg5.N) (j : Fin 128) :
    (iblk5 V c 2 t : Vec Ideal S128 .f32) (ix1 j) = (V c (Pipeline.arrRef spec5 2) : S128.Idx → EReal) (ix1 j) := by
  have e0 : win5_2.index t (0 : Fin 1) = 0 := (norm_idx5 t).2.2.2.1
  unfold iblk5
  rw [View.read_apply]
  refine congrArg (V c (Pipeline.arrRef spec5 2) : S128.Idx → EReal) (funext fun a => Fin.ext ?_)
  match a with
  | ⟨0, _⟩ => show win5_2.index t (0 : Fin 1) * 128 + 1 * j.val = j.val; rw [e0]; omega

theorem norm_iblk5_3 (c : Dev nD) (t : Fin cfg5.N) (j : Fin 128) :
    (iblk5 V c 3 t : Vec Ideal S128 .f32) (ix1 j) = (V c (Pipeline.arrRef spec5 3) : S128.Idx → EReal) (ix1 j) := by
  have e0 : win5_3.index t (0 : Fin 1) = 0 := (norm_idx5 t).2.2.2.2.1
  unfold iblk5
  rw [View.read_apply]
  refine congrArg (V c (Pipeline.arrRef spec5 3) : S128.Idx → EReal) (funext fun a => Fin.ext ?_)
  match a with
  | ⟨0, _⟩ => show win5_3.index t (0 : Fin 1) * 128 + 1 * j.val = j.val; rw [e0]; omega

theorem norm_iblk5_4 (c : Dev nD) (t : Fin cfg5.N) (j : Fin 128) :
    (iblk5 V c 4 t : Vec Ideal S128 .f32) (ix1 j) = (V c (Pipeline.arrRef spec5 4) : S128.Idx → EReal) (ix1 j) := by
  have e0 : win5_4.index t (0 : Fin 1) = 0 := (norm_idx5 t).2.2.2.2.2.1
  unfold iblk5
  rw [View.read_apply]
  refine congrArg (V c (Pipeline.arrRef spec5 4) : S128.Idx → EReal) (funext fun a => Fin.ext ?_)
  match a with
  | ⟨0, _⟩ => show win5_4.index t (0 : Fin 1) * 128 + 1 * j.val = j.val; rw [e0]; omega

theorem norm_iblk5_5 (c : Dev nD) (t : Fin cfg5.N) (j : Fin 128) :
    (iblk5 V c 5 t : Vec Ideal S128 .f32) (ix1 j) = (V c (Pipeline.arrRef spec5 5) : S128.Idx → EReal) (ix1 j) := by
  have e0 : win5_5.index t (0 : Fin 1) = 0 := (norm_idx5 t).2.2.2.2.2.2.1
  unfold iblk5
  rw [View.read_apply]
  refine congrArg (V c (Pipeline.arrRef spec5 5) : S128.Idx → EReal) (funext fun a => Fin.ext ?_)
  match a with
  | ⟨0, _⟩ => show win5_5.index t (0 : Fin 1) * 128 + 1 * j.val = j.val; rw [e0]; omega

/-- Element (r, j) of the result's block at point t sits at row 5000 t + r, column j of the array. -/
theorem norm_emb5 (t : Fin cfg5.N) (r : Fin 5000) (j : Fin 128) :
    (((cfg5.win 6).blk t).view.emb (ix2 r j) : S50000x128.Idx) = ix2 ⟨5000 * t.val + r.val, by have := norm_N5_lt t; omega⟩ j := by
  obtain ⟨-, -, -, -, -, -, -, e0, e1⟩ := norm_idx5 t
  funext a
  apply Fin.ext
  match a with
  | ⟨0, _⟩ => show win5_6.index t (0 : Fin 2) * 5000 + 1 * r.val = 5000 * t.val + r.val; rw [e0]; omega
  | ⟨1, _⟩ => show win5_6.index t (1 : Fin 2) * 128 + 1 * j.val = j.val; rw [e1]; omega

set_option maxHeartbeats 4000000 in
/-- What point t writes back is block t of the normalisation of the six arrays as the region finds them. -/
theorem norm_flushed5 (c : Dev nD) (t : Fin cfg5.N) :
    (dat5 (F := Ideal) V c).flushed 6 t = ((cfg5.win 6).blk t).view.read (Elt Ideal)
      (Cert.Gcn.bnK (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))) := by
  show (cfg5.win 6).cut (grid5.coords t) ((dat5 V c).after 6 t) = _
  rw [after5_6]
  unfold out5_6
  rw [View.canon_unit_zero norm_hz2]
  simp only [View.ld_unit_zero (S := S5000x128) norm_hz2, View.ld_unit_zero (S := S128) norm_hz1]
  funext y
  obtain ⟨r, j, rfl⟩ : ∃ (r : Fin 5000) (j : Fin 128), y = ix2 r j := ⟨y 0, y 1, eq_ix2 y⟩
  show k5_pay1 (F := Ideal) (iblk5 V c 0 t) (iblk5 V c 1 t) (iblk5 V c 2 t) (iblk5 V c 3 t) (iblk5 V c 4 t) (iblk5 V c 5 t) (ix2 r j)
    = (Cert.Gcn.bnK (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))) (((cfg5.win 6).blk t).view.emb (ix2 r j))
  rw [norm_emb5 t r j]
  exact norm_point5 (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))
    (iblk5 V c 0 t) (iblk5 V c 1 t) (iblk5 V c 2 t) (iblk5 V c 3 t) (iblk5 V c 4 t) (iblk5 V c 5 t) r j
    ⟨5000 * t.val + r.val, by have := norm_N5_lt t; omega⟩
    (norm_iblk5_0 V c t r j) (norm_iblk5_1 V c t j) (norm_iblk5_2 V c t j) (norm_iblk5_3 V c t j)
    (norm_iblk5_4 V c t j) (norm_iblk5_5 V c t j)

/-- An index of the result array is in point t's block iff each coordinate is in the block's range on its axis. -/
theorem norm_mem5 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v72).slice (win5_6.rect t)).set ↔ _
  rw [View.set_slice_whole, Rect.mem_set_unit]
  exact Iff.rfl

/-- The ten row blocks tile the array: row i is in the block of point i / 5000. -/
theorem norm_cover5 (i : S50000x128.Idx) : ∃ t : Fin cfg5.N, (cfg5.win 6).flush t = true ∧ i ∈ ((cfg5.win 6).blk t).view.set := by
  have hi0 : (i 0).val < 50000 := (i 0).isLt
  have hi1 : (i 1).val < 128 := (i 1).isLt
  obtain ⟨t, ht⟩ := norm_onto5 ⟨(i 0).val / 5000, by omega⟩
  have ht' : t.val = (i 0).val / 5000 := ht
  obtain ⟨-, -, -, -, -, -, -, e0, e1⟩ := norm_idx5 t
  refine ⟨t, flush5_6 t, ?_⟩
  rw [norm_mem5]
  intro a
  match a with
  | ⟨0, _⟩ => show win5_6.index t (0 : Fin 2) * 5000 ≤ (i 0).val ∧ (i 0).val < win5_6.index t (0 : Fin 2) * 5000 + 5000; rw [e0]; omega
  | ⟨1, _⟩ => show win5_6.index t (1 : Fin 2) * 128 ≤ (i 1).val ∧ (i 1).val < win5_6.index t (1 : Fin 2) * 128 + 128; rw [e1]; omega

set_option maxHeartbeats 4000000 in
/-- After region 5 its result array holds the normalisation of the six operand arrays as the region found them. -/
theorem norm5 (c : Dev nD) : ((dat5 (F := Ideal) V c).arrAt 6 cfg5.N : S50000x128.Idx → EReal)
    = Cert.Gcn.bnK (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) :=
  (dat5 (F := Ideal) V c).arrAt_eq_of_cover 6
    (Cert.Gcn.bnK (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)))
    (fun t _ => norm_flushed5 V c t) norm_cover5

end Cert.KernelIdeal.RegionValue

end
-- ==== Proof.RegionStatsRows.lean ====
/-
  Sums over the 50000 rows of the feature array, read as ten blocks of 5000 rows.

  A statistics pass walks the array block by block and adds each block's column sums (and column sums of squares)
  into a running 128-vector. Row `k` of the array is row `k % 5000` of block `k / 5000`, so the sum over ten
  consecutive blocks of 5000 terms is the sum over the first 50000 terms (`sum_blocks`). To let a block's rows and
  the array's rows be the same kind of index, the entries of the features with the bias row added are named by a
  NATURAL row number (`yAt`), and both the column sum and the column sum of squares of the specification are
  rewritten as sums over a range of naturals (`colSum_eq`, `colSumSq_eq`). `block_sum` reads one block's
  contribution off what the block and the bias row hold. Addition on the extended reals is a commutative monoid:
  no entry needs to be finite for any of this.
-/
import proofs.«157031_j26723286515821_1_alg».proof.Proof.Gen.KernelIdeal
import proofs.«157031_j26723286515821_1_alg».proof.Proof.Spec
import Idealize.ShloMosaic.Lib.ValueIdx

noncomputable section

namespace Cert.KernelIdeal.RegionValue.Stats

open Cert.KernelIdeal Cert.KernelIdeal.Gen Idealize.ShloMosaic Idealize.ShloMosaic.ValueIdx

/-- Zero offsets, of a vector and of a matrix, however they are spelt. -/
theorem zeros1 : (![0] : Fin 1 → Nat) = fun _ => 0 := funext fun a => by fin_cases a; rfl
theorem zeros2 : (![0, 0] : Fin 2 → Nat) = fun _ => 0 := funext fun a => by fin_cases a <;> rfl

/-- The index a reduction over the rows inserts: row `r` above column `j`. -/
theorem lift_eq (r : Fin 5000) (j : Fin 128) : reduces_S5000x128_S128.lift (ix1 j) r = ix2 r j :=
  funext fun a => Fin.ext (by match a with | ⟨0, _⟩ => rfl | ⟨1, _⟩ => rfl)

/-- Summing `a` consecutive blocks of `b` terms is summing the first `a·b` terms. -/
theorem sum_blocks {M : Type*} [AddCommMonoid M] (f : ℕ → M) (b : ℕ) : ∀ a : ℕ,
    ∑ p ∈ Finset.range a, ∑ r ∈ Finset.range b, f (b * p + r) = ∑ k ∈ Finset.range (a * b), f k
  | 0 => by simp
  | a + 1 => by
    rw [Finset.sum_range_succ, sum_blocks f b a, Nat.succ_mul, Finset.sum_range_add, Nat.mul_comm b a]

/-- Entry (k, j) of the features with the bias row added, for a natural row number (zero past the last row, which
    no sum below reaches). -/
def yAt (x : Cert.Gcn.SNH.Idx → EReal) (b : Cert.Gcn.SH.Idx → EReal) (j : Fin 128) (k : ℕ) : EReal :=
  if h : k < 50000 then x (ix2 ⟨k, h⟩ j) + b (ix1 j) else 0

theorem yAt_fin (x : Cert.Gcn.SNH.Idx → EReal) (b : Cert.Gcn.SH.Idx → EReal) (j : Fin 128) (k : Fin 50000) :
    yAt x b j k.val = Cert.Gcn.addRow x b (ix2 k j) := by
  unfold yAt Cert.Gcn.addRow
  rw [dif_pos k.isLt]

/-- The column sum of the biased features is the sum of the first 50000 row entries … -/
theorem colSum_eq (x : Cert.Gcn.SNH.Idx → EReal) (b : Cert.Gcn.SH.Idx → EReal) (j : Fin 128) :
    Cert.Gcn.colSum (Cert.Gcn.addRow x b) j = ∑ k ∈ Finset.range 50000, yAt x b j k := by
  unfold Cert.Gcn.colSum
  rw [Finset.sum_range]
  exact Finset.sum_congr rfl fun k _ => (yAt_fin x b j k).symm

/-- … and the column sum of squares the sum of their squares. -/
theorem colSumSq_eq (x : Cert.Gcn.SNH.Idx → EReal) (b : Cert.Gcn.SH.Idx → EReal) (j : Fin 128) :
    Cert.Gcn.colSumSq (Cert.Gcn.addRow x b) j = ∑ k ∈ Finset.range 50000, yAt x b j k * yAt x b j k := by
  unfold Cert.Gcn.colSumSq
  rw [Finset.sum_range]
  exact Finset.sum_congr rfl fun k _ => by rw [yAt_fin x b j k]

/-- One block's contribution, from what the block `x0` and the bias row `x1` read: block `t` holds rows
    `5000·t … 5000·t + 4999`; `g` is the identity for the sum and the square for the sum of squares. -/
theorem block_sum (x : Cert.Gcn.SNH.Idx → EReal) (b : Cert.Gcn.SH.Idx → EReal)
    (x0 : Vec Ideal S5000x128 .f32) (x1 : Vec Ideal S128 .f32) (t : ℕ) (ht : t < 10)
    (h0 : ∀ (r : Fin 5000) (j : Fin 128) (h : 5000 * t + r.val < 50000), x0 (ix2 r j) = x (ix2 ⟨5000 * t + r.val, h⟩ j))
    (h1 : ∀ j : Fin 128, x1 (ix1 j) = b (ix1 j)) (j : Fin 128) (g : EReal → EReal) :
    ∑ r : Fin 5000, g (x0 (ix2 r j) + x1 (ix1 j)) = ∑ r ∈ Finset.range 5000, g (yAt x b j (5000 * t + r)) := by
  rw [Finset.sum_range]
  refine Finset.sum_congr rfl fun r _ => ?_
  have h : 5000 * t + r.val < 50000 := by have := r.isLt; omega
  unfold yAt
  rw [dif_pos h, h0 r j h, h1 j]

end Cert.KernelIdeal.RegionValue.Stats

end
-- ==== Proof.RegionStats1.lean ====
/-
  What the first statistics pass leaves in its two result vectors: the column sums, and the column sums of squares,
  of the first layer's aggregated features with the bias row added.

  The pass walks the [50000,128] array in ten blocks of 5000 rows. At each grid point it forms `xb = x + b` (the
  bias row `b` broadcast over the block's rows) and adds `Σ_rows xb` to a running 128-vector and `Σ_rows xb·xb` to
  another; at the first point it stores zeros to both before adding. Both running vectors are one whole block whose
  index never moves, so they are carried from point to point in their staging buffers and written back once, after
  the last point.

  * One lemma per case and accumulator reads what the body's stores leave (the last store covers the whole vector)
    as the body's arithmetic over the point's blocks (`out1_A_2_eq` … `out1_B_3_eq`).
  * Over the extended reals that arithmetic, at column `j`, is "what was there, plus the sum over the block's rows
    `r` of `x (r, j) + b j`" (respectively of its square), and the stored zero is `0` (`k1_pay4_apply`,
    `k1_pay5_apply`, `k1_pay2_apply`).
  * Row `r` of block `t` is row `5000·t + r` of the array; the bias row's block is the row (`iblk1_0_apply`,
    `iblk1_1_apply`).
  * By induction on the point, after point `n` the accumulators hold the sums over rows `0 … 5000·(n+1) − 1`
    (`outsAt1_val`); after the last point, over all 50000 rows (`Stats.sum_blocks`).
  * The one write-back, at the last point, writes the whole vector, so the result arrays end holding those sums
    (`stats1_sum`, `stats1_sumsq`).
  No finiteness is used: extended-real addition is a commutative monoid.
-/
import proofs.«157031_j26723286515821_1_alg».proof.Proof.Gen.KernelIdeal.Frame
import proofs.«157031_j26723286515821_1_alg».proof.Proof.Spec
import proofs.«157031_j26723286515821_1_alg».proof.Proof.RegionStatsRows
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.RegionValue.Stats

open Cert.KernelIdeal Cert.KernelIdeal.Gen Idealize.ShloMosaic Idealize.ShloMosaic.ValueIdx
open Idealize.ShloMosaic.TcCoe Idealize.SL.Sem
open Idealize.ShloMosaic.Pipeline (Dat)

/-! ## What one grid point leaves in the two accumulators

At the first point the body stores the zero vector to each accumulator before it adds; at every later point it adds to
what the point before left. Every store covers the whole 128-vector, so the buffer afterwards is the last store's
payload, read here as a term over the point's input blocks. -/

section Pieces
variable {F : FTy → Type} [FloatOps F]

/-- A later point: the sum accumulator holds what it held plus this block's column sums. -/
theorem out1_B_2_eq (c : Dev nD) (i : grid1.Coords) (a1 : Memref sig .tc .vmem S5000x128 .f32) (h1 : a1.IsWhole)
    (a2 : Memref sig .tc .vmem S128 .f32) (h2 : a2.IsWhole) (a3 : Memref sig .tc .vmem S128 .f32) (h3 : a3.IsWhole)
    (a4 : Memref sig .tc .vmem S128 .f32) (h4 : a4.IsWhole) (hc : ¬cond1_0 i)
    (x0 : Vec F S5000x128 .f32) (x1 xo2 xo3 : Vec F S128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero zeros1]
  simp only [View.readAt_eq_ld, h1.read_unread, h2.read_unread, h3.read_unread, View.ld_unit_zero (S := S5000x128) zeros2,
    View.ld_unit_zero (S := S128) zeros1]

/-- A later point: the sum-of-squares accumulator holds what it held plus this block's column sums of squares. -/
theorem out1_B_3_eq (c : Dev nD) (i : grid1.Coords) (a1 : Memref sig .tc .vmem S5000x128 .f32) (h1 : a1.IsWhole)
    (a2 : Memref sig .tc .vmem S128 .f32) (h2 : a2.IsWhole) (a3 : Memref sig .tc .vmem S128 .f32) (h3 : a3.IsWhole)
    (a4 : Memref sig .tc .vmem S128 .f32) (h4 : a4.IsWhole) (hc : ¬cond1_0 i)
    (x0 : Vec F S5000x128 .f32) (x1 xo2 xo3 : Vec F S128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero zeros1]
  simp only [View.readAt_eq_ld, h1.read_unread, h2.read_unread, h4.read_unread, View.ld_unit_zero (S := S5000x128) zeros2,
    View.ld_unit_zero (S := S128) zeros1]

/-- The first point: the sum accumulator is zeroed, read back, and this block's column sums added. -/
theorem out1_A_2_eq (c : Dev nD) (i : grid1.Coords) (a1 : Memref sig .tc .vmem S5000x128 .f32) (h1 : a1.IsWhole)
    (a2 : Memref sig .tc .vmem S128 .f32) (h2 : a2.IsWhole) (a3 : Memref sig .tc .vmem S128 .f32) (h3 : a3.IsWhole)
    (a4 : Memref sig .tc .vmem S128 .f32) (h4 : a4.IsWhole) (hc : cond1_0 i)
    (x0 : Vec F S5000x128 .f32) (x1 : Vec F S128 .f32) :
    out1_A_2 c i a1 h1 a2 h2 a3 h3 a4 h4 hc x0 x1 = k1_pay4 x0 x1 k1_pay2 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S128) zeros1, View.readCov_unit_zero (S := S128) _ zeros1]
  simp only [View.readAt_eq_ld, h1.read_unread, h2.read_unread, View.ld_unit_zero (S := S5000x128) zeros2,
    View.ld_unit_zero (S := S128) zeros1]

/-- The first point: the sum-of-squares accumulator likewise. -/
theorem out1_A_3_eq (c : Dev nD) (i : grid1.Coords) (a1 : Memref sig .tc .vmem S5000x128 .f32) (h1 : a1.IsWhole)
    (a2 : Memref sig .tc .vmem S128 .f32) (h2 : a2.IsWhole) (a3 : Memref sig .tc .vmem S128 .f32) (h3 : a3.IsWhole)
    (a4 : Memref sig .tc .vmem S128 .f32) (h4 : a4.IsWhole) (hc : cond1_0 i)
    (x0 : Vec F S5000x128 .f32) (x1 : Vec F S128 .f32) :
    out1_A_3 c i a1 h1 a2 h2 a3 h3 a4 h4 hc x0 x1 = k1_pay5 x0 x1 k1_pay3 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S128) zeros1, View.readCov_unit_zero (S := S128) _ zeros1]
  simp only [View.readAt_eq_ld, h1.read_unread, h2.read_unread, View.ld_unit_zero (S := S5000x128) zeros2,
    View.ld_unit_zero (S := S128) zeros1]

end Pieces

/-! ## The payloads at an index, over the extended reals -/

section AtIdeal

/-- The block with the bias row added, at row `r`, column `j`. -/
theorem k1_pay1_apply (x0 : Vec Ideal S5000x128 .f32) (x1 : Vec Ideal S128 .f32) (r : Fin 5000) (j : Fin 128) :
    k1_pay1 x0 x1 (ix2 r j) = x0 (ix2 r j) + x1 (ix1 j) := by
  unfold k1_pay1
  refine (addf_apply _ _ _).trans ?_
  rw [shapeCast_self, broadcastTo_1b_ab_apply, shapeCast_a_1a_apply]

/-- The sum accumulator after a point: what it held plus the block's column sum. -/
theorem k1_pay4_apply (x0 : Vec Ideal S5000x128 .f32) (x1 acc : Vec Ideal S128 .f32) (j : Fin 128) :
    k1_pay4 x0 x1 acc (ix1 j) = acc (ix1 j) + ∑ r : Fin 5000, (x0 (ix2 r j) + x1 (ix1 j)) := by
  unfold k1_pay4
  refine (addf_apply _ _ _).trans ?_
  rw [shapeCast_self]
  congr 1
  refine (Ideal.multiReduction_add_single (k1_pay1 x0 x1) 0x00000000#32 reduces_S5000x128_S128 (.inl rfl) rfl (ix1 j)).trans ?_
  exact Finset.sum_congr rfl fun (r : Fin 5000) _ =>
    (congrArg (k1_pay1 x0 x1) (lift_eq r j)).trans (k1_pay1_apply x0 x1 r j)

/-- The sum-of-squares accumulator after a point: what it held plus the block's column sum of squares. -/
theorem k1_pay5_apply (x0 : Vec Ideal S5000x128 .f32) (x1 acc : Vec Ideal S128 .f32) (j : Fin 128) :
    k1_pay5 x0 x1 acc (ix1 j)
      = acc (ix1 j) + ∑ r : Fin 5000, (x0 (ix2 r j) + x1 (ix1 j)) * (x0 (ix2 r j) + x1 (ix1 j)) := by
  unfold k1_pay5
  refine (addf_apply _ _ _).trans ?_
  rw [shapeCast_self]
  congr 1
  refine (Ideal.multiReduction_add_single (mulf (k1_pay1 x0 x1) (k1_pay1 x0 x1)) 0x00000000#32 reduces_S5000x128_S128 (.inl rfl) rfl (ix1 j)).trans ?_
  refine Finset.sum_congr rfl fun (r : Fin 5000) _ => ?_
  refine (congrArg (mulf (k1_pay1 x0 x1) (k1_pay1 x0 x1)) (lift_eq r j)).trans ?_
  refine (mulf_apply _ _ _).trans ?_
  rw [k1_pay1_apply x0 x1 r j]

/-- The vectors the first point stores are zero. -/
theorem k1_pay2_apply (j : Fin 128) : (k1_pay2 (F := Ideal)) (ix1 j) = 0 := by
  unfold k1_pay2
  exact Ideal.ofBits_zero_f32
theorem k1_pay3_apply (j : Fin 128) : (k1_pay3 (F := Ideal)) (ix1 j) = 0 := by
  unfold k1_pay3
  exact Ideal.ofBits_zero_f32

end AtIdeal

/-! ## The input blocks a point reads -/

section Blocks
variable (V : (c : Dev nD) → (b : Ref sig .tc) → Buf (Elt Ideal) ((c : Thread nD τ).loc b))

/-- Block `t` of the features starts at row `5000·t`, column 0; the bias row's one block is the row. -/
theorem idx_facts1 : ∀ t : Fin cfg1.N, win1_0.index t (0 : Fin 2) = t.val ∧ win1_0.index t (1 : Fin 2) = 0
    ∧ win1_1.index t (0 : Fin 1) = 0 :=
  (by decide +kernel : ∀ t : Fin grid1.N, win1_0.index t (0 : Fin 2) = t.val ∧ win1_0.index t (1 : Fin 2) = 0
    ∧ win1_1.index t (0 : Fin 1) = 0)

/-- Row `r` of block `t` of the features is row `5000·t + r` of the array. -/
theorem iblk1_0_apply (c : Dev nD) (t : Fin cfg1.N) (r : Fin 5000) (j : Fin 128) (h : 5000 * t.val + r.val < 50000) :
    (iblk1 V c 0 t : Vec Ideal S5000x128 .f32) (ix2 r j)
      = (V c (Pipeline.arrRef spec1 0) : Cert.Gcn.SNH.Idx → EReal) (ix2 ⟨5000 * t.val + r.val, h⟩ j) := by
  unfold iblk1
  rw [View.read_apply]
  show (V c (Pipeline.arrRef spec1 0) : Cert.Gcn.SNH.Idx → EReal) _ = _
  congr 1
  funext a
  apply Fin.ext
  have hi := idx_facts1 t
  match a with
  | ⟨0, _⟩ => show win1_0.index t 0 * 5000 + 1 * r.val = 5000 * t.val + r.val; rw [hi.1]; omega
  | ⟨1, _⟩ => show win1_0.index t 1 * 128 + 1 * j.val = j.val; rw [hi.2.1]; omega

/-- The bias row's block at any point is the row. -/
theorem iblk1_1_apply (c : Dev nD) (t : Fin cfg1.N) (j : Fin 128) :
    (iblk1 V c 1 t : Vec Ideal S128 .f32) (ix1 j)
      = (V c (Pipeline.arrRef spec1 1) : Cert.Gcn.SH.Idx → EReal) (ix1 j) := by
  unfold iblk1
  rw [View.read_apply]
  show (V c (Pipeline.arrRef spec1 1) : Cert.Gcn.SH.Idx → EReal) _ = _
  congr 1
  funext a
  apply Fin.ext
  have hi := idx_facts1 t
  match a with
  | ⟨0, _⟩ => show win1_1.index t 0 * 128 + 1 * j.val = j.val; rw [hi.2.2]; omega

end Blocks

/-! ## The accumulators after each point

After point `n` the sum accumulator holds, in column `j`, the sum of the biased features over rows
`0 … 5000·(n+1) − 1`, and the other accumulator the sum of their squares: zero plus the first block at the first
point, one more block at each later one. Addition of extended reals is a commutative monoid, so nothing about
finiteness is needed. -/

section Invariant
variable (V : (c : Dev nD) → (b : Ref sig .tc) → Buf (Elt Ideal) ((c : Thread nD τ).loc b))

/-- The first point: both accumulators are their payloads over zero. -/
theorem outsAt1_zero (c : Dev nD) (hn : 0 < cfg1.N) :
    outsAt1 V c 0 hn
      = (k1_pay4 (iblk1 V c 0 ⟨0, hn⟩) (iblk1 V c 1 ⟨0, hn⟩) (k1_pay2 (F := Ideal)),
         k1_pay5 (iblk1 V c 0 ⟨0, hn⟩) (iblk1 V c 1 ⟨0, hn⟩) (k1_pay3 (F := Ideal))) := by
  refine (outsAt1_A V c ⟨0, hn⟩ rfl).trans ?_
  rw [out1_A_2_eq, out1_A_3_eq]

/-- A later point: both accumulators are their payloads over what the point before left. -/
theorem outsAt1_succ (c : Dev nD) (n : ℕ) (hn : n + 1 < cfg1.N) :
    outsAt1 V c (n + 1) hn
      = (k1_pay4 (iblk1 V c 0 ⟨n + 1, hn⟩) (iblk1 V c 1 ⟨n + 1, hn⟩) (outsAt1 V c n (Nat.lt_of_succ_lt hn)).1,
         k1_pay5 (iblk1 V c 0 ⟨n + 1, hn⟩) (iblk1 V c 1 ⟨n + 1, hn⟩) (outsAt1 V c n (Nat.lt_of_succ_lt hn)).2) := by
  have hN : cfg1.N = 10 := N_1
  have hB : ¬(⟨n + 1, hn⟩ : Fin cfg1.N).val % 10 = 0 := by dsimp only; omega
  rw [outsAt1_B V c ⟨n + 1, hn⟩ hB, out1_B_2_eq, out1_B_3_eq]
  rfl

/-- The running sums. -/
theorem outsAt1_val (c : Dev nD) (j : Fin 128) : ∀ (n : ℕ) (hn : n < cfg1.N),
    (outsAt1 V c n hn).1 (ix1 j)
        = ∑ p ∈ Finset.range (n + 1), ∑ r ∈ Finset.range 5000,
            yAt (V c (Pipeline.arrRef spec1 0)) (V c (Pipeline.arrRef spec1 1)) j (5000 * p + r)
    ∧ (outsAt1 V c n hn).2 (ix1 j)
        = ∑ p ∈ Finset.range (n + 1), ∑ r ∈ Finset.range 5000,
            yAt (V c (Pipeline.arrRef spec1 0)) (V c (Pipeline.arrRef spec1 1)) j (5000 * p + r)
              * yAt (V c (Pipeline.arrRef spec1 0)) (V c (Pipeline.arrRef spec1 1)) j (5000 * p + r)
  | 0, hn => by
    rw [outsAt1_zero V c hn]
    refine ⟨?_, ?_⟩
    · refine (k1_pay4_apply (iblk1 V c 0 ⟨0, hn⟩) (iblk1 V c 1 ⟨0, hn⟩) (k1_pay2 (F := Ideal)) j).trans ?_
      rw [k1_pay2_apply, zero_add, Finset.sum_range_one]
      exact block_sum (V c (Pipeline.arrRef spec1 0)) (V c (Pipeline.arrRef spec1 1)) (iblk1 V c 0 ⟨0, hn⟩) (iblk1 V c 1 ⟨0, hn⟩)
        0 (by omega) (fun r j h => iblk1_0_apply V c ⟨0, hn⟩ r j h) (fun j => iblk1_1_apply V c ⟨0, hn⟩ j) j (fun v => v)
    · refine (k1_pay5_apply (iblk1 V c 0 ⟨0, hn⟩) (iblk1 V c 1 ⟨0, hn⟩) (k1_pay3 (F := Ideal)) j).trans ?_
      rw [k1_pay3_apply, zero_add, Finset.sum_range_one]
      exact block_sum (V c (Pipeline.arrRef spec1 0)) (V c (Pipeline.arrRef spec1 1)) (iblk1 V c 0 ⟨0, hn⟩) (iblk1 V c 1 ⟨0, hn⟩)
        0 (by omega) (fun r j h => iblk1_0_apply V c ⟨0, hn⟩ r j h) (fun j => iblk1_1_apply V c ⟨0, hn⟩ j) j (fun v => v * v)
  | n + 1, hn => by
    have hN : cfg1.N = 10 := N_1
    obtain ⟨ih1, ih2⟩ := outsAt1_val c j n (Nat.lt_of_succ_lt hn)
    rw [outsAt1_succ V c n hn]
    refine ⟨?_, ?_⟩
    · refine (k1_pay4_apply (iblk1 V c 0 ⟨n + 1, hn⟩) (iblk1 V c 1 ⟨n + 1, hn⟩) (outsAt1 V c n (Nat.lt_of_succ_lt hn)).1 j).trans ?_
      rw [ih1, Finset.sum_range_succ _ (n + 1)]
      refine congrArg (HAdd.hAdd _) ?_
      exact block_sum (V c (Pipeline.arrRef spec1 0)) (V c (Pipeline.arrRef spec1 1)) (iblk1 V c 0 ⟨n + 1, hn⟩) (iblk1 V c 1 ⟨n + 1, hn⟩)
        (n + 1) (by omega) (fun r j h => iblk1_0_apply V c ⟨n + 1, hn⟩ r j h) (fun j => iblk1_1_apply V c ⟨n + 1, hn⟩ j) j (fun v => v)
    · refine (k1_pay5_apply (iblk1 V c 0 ⟨n + 1, hn⟩) (iblk1 V c 1 ⟨n + 1, hn⟩) (outsAt1 V c n (Nat.lt_of_succ_lt hn)).2 j).trans ?_
      rw [ih2, Finset.sum_range_succ _ (n + 1)]
      refine congrArg (HAdd.hAdd _) ?_
      exact block_sum (V c (Pipeline.arrRef spec1 0)) (V c (Pipeline.arrRef spec1 1)) (iblk1 V c 0 ⟨n + 1, hn⟩) (iblk1 V c 1 ⟨n + 1, hn⟩)
        (n + 1) (by omega) (fun r j h => iblk1_0_apply V c ⟨n + 1, hn⟩ r j h) (fun j => iblk1_1_apply V c ⟨n + 1, hn⟩ j) j (fun v => v * v)

end Invariant

/-! ## The result arrays

Each accumulator's one block is its whole array and is written back once, after the last point; so the array ends
holding what the last point left: the sums over all 50000 rows. -/

section Final
variable (V : (c : Dev nD) → (b : Ref sig .tc) → Buf (Elt Ideal) ((c : Thread nD τ).loc b))

theorem nine_lt1 : 9 < cfg1.N := by rw [show cfg1.N = 10 from N_1]; decide

/-- What the last point leaves in the two accumulators, as contents of the result arrays. -/
abbrev res1_2 (c : Dev nD) : Buf (Elt Ideal) ((c : Thread nD τ).loc main_v43_0) := (outsAt1 V c 9 nine_lt1).1
abbrev res1_3 (c : Dev nD) : Buf (Elt Ideal) ((c : Thread nD τ).loc main_v43_1) := (outsAt1 V c 9 nine_lt1).2

/-- The one write-back of the sum, at the last point, writes it whole. -/
theorem flushed1_2_eq (c : Dev nD) (t : Fin cfg1.N) (hf : (cfg1.win 2).flush t = true) :
    (dat1 V c).flushed 2 t = ((cfg1.win 2).blk t).view.read (Elt Ideal) (res1_2 V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have hz' : (fun a => win1_2.index t1_9 a * main_v43_0.ty.shape.size a) = fun _ => 0 :=
    funext fun a => by fin_cases a; decide
  exact (Memref.read_access_unit_zero (Elt Ideal) main_v43_0 hz' (fun a => by rw [congrFun hz' a]; simp) (res1_2 V c)).symm

theorem flushed1_3_eq (c : Dev nD) (t : Fin cfg1.N) (hf : (cfg1.win 3).flush t = true) :
    (dat1 V c).flushed 3 t = ((cfg1.win 3).blk t).view.read (Elt Ideal) (res1_3 V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3]
  have hz' : (fun a => win1_3.index t1_9 a * main_v43_1.ty.shape.size a) = fun _ => 0 :=
    funext fun a => by fin_cases a; decide
  exact (Memref.read_access_unit_zero (Elt Ideal) main_v43_1 hz' (fun a => by rw [congrFun hz' a]; simp) (res1_3 V c)).symm

/-- So the sum array ends holding what the last point left. -/
theorem final1_2 (c : Dev nD) : (dat1 V c).arrAt 2 cfg1.N = res1_2 V c :=
  (dat1 V c).arrAt_eq_of_cover 2 (res1_2 V c) (flushed1_2_eq V c) fun i =>
    ⟨t1_9, (flush1_2 t1_9).mpr rfl, by
      show i ∈ ((View.whole main_v43_0).slice (win1_2.rect t1_9)).set
      rw [View.set_slice_whole, Rect.mem_set_unit]
      intro a
      have h0 : (i 0 : Nat) < 128 := (i 0).isLt
      match a with
      | ⟨0, _⟩ =>
        show win1_2.index t1_9 0 * win1_2.size 0 ≤ (i 0 : Nat) ∧ (i 0 : Nat) < win1_2.index t1_9 0 * win1_2.size 0 + win1_2.xsize (grid1.coords t1_9) 0
        rw [show win1_2.index t1_9 0 * win1_2.size 0 = 0 from by decide +kernel, show win1_2.xsize (grid1.coords t1_9) 0 = 128 from by decide +kernel]; omega⟩

theorem final1_3 (c : Dev nD) : (dat1 V c).arrAt 3 cfg1.N = res1_3 V c :=
  (dat1 V c).arrAt_eq_of_cover 3 (res1_3 V c) (flushed1_3_eq V c) fun i =>
    ⟨t1_9, (flush1_3 t1_9).mpr rfl, by
      show i ∈ ((View.whole main_v43_1).slice (win1_3.rect t1_9)).set
      rw [View.set_slice_whole, Rect.mem_set_unit]
      intro a
      have h0 : (i 0 : Nat) < 128 := (i 0).isLt
      match a with
      | ⟨0, _⟩ =>
        show win1_3.index t1_9 0 * win1_3.size 0 ≤ (i 0 : Nat) ∧ (i 0 : Nat) < win1_3.index t1_9 0 * win1_3.size 0 + win1_3.xsize (grid1.coords t1_9) 0
        rw [show win1_3.index t1_9 0 * win1_3.size 0 = 0 from by decide +kernel, show win1_3.xsize (grid1.coords t1_9) 0 = 128 from by decide +kernel]; omega⟩

end Final

end Cert.KernelIdeal.RegionValue.Stats

/-! ## The statements the assembly cites -/

namespace Cert.KernelIdeal.RegionValue

open Cert.KernelIdeal Cert.KernelIdeal.Gen Idealize.ShloMosaic Idealize.ShloMosaic.ValueIdx
open Idealize.ShloMosaic.TcCoe Idealize.SL.Sem
open Stats

variable (V : (c : Dev nD) → (b : Ref sig .tc) → Buf (Elt Ideal) ((c : Thread nD τ).loc b))

/-- The first statistics pass leaves the column sums of the biased features in its first result … -/
theorem stats1_sum (c : Dev nD) : (dat1 (F := Ideal) V c).arrAt 2 cfg1.N
    = fun j => Cert.Gcn.colSum (Cert.Gcn.addRow (V c (Pipeline.arrRef spec1 0)) (V c (Pipeline.arrRef spec1 1))) (j 0) := by
  rw [final1_2]
  funext i
  obtain ⟨j, rfl⟩ : ∃ j : Fin 128, i = ix1 j := ⟨i 0, eq_ix1 i⟩
  show (outsAt1 V c 9 nine_lt1).1 (ix1 j) = Cert.Gcn.colSum _ j
  rw [(outsAt1_val V c j 9 nine_lt1).1, colSum_eq, sum_blocks]

/-- … and the column sums of their squares in its second. -/
theorem stats1_sumsq (c : Dev nD) : (dat1 (F := Ideal) V c).arrAt 3 cfg1.N
    = fun j => Cert.Gcn.colSumSq (Cert.Gcn.addRow (V c (Pipeline.arrRef spec1 0)) (V c (Pipeline.arrRef spec1 1))) (j 0) := by
  rw [final1_3]
  funext i
  obtain ⟨j, rfl⟩ : ∃ j : Fin 128, i = ix1 j := ⟨i 0, eq_ix1 i⟩
  show (outsAt1 V c 9 nine_lt1).2 (ix1 j) = Cert.Gcn.colSumSq _ j
  rw [(outsAt1_val V c j 9 nine_lt1).2, colSumSq_eq,
    sum_blocks (fun k => yAt (V c (Pipeline.arrRef spec1 0)) (V c (Pipeline.arrRef spec1 1)) j k
      * yAt (V c (Pipeline.arrRef spec1 0)) (V c (Pipeline.arrRef spec1 1)) j k)]

end Cert.KernelIdeal.RegionValue

end
-- ==== Proof.RegionStats4.lean ====
/-
  What the second statistics pass leaves in its two result vectors: the column sums, and the column sums of squares,
  of the second layer's aggregated features with the bias row added.

  The pass walks the [50000,128] array in ten blocks of 5000 rows. At each grid point it forms `xb = x + b` (the
  bias row `b` broadcast over the block's rows) and adds `Σ_rows xb` to a running 128-vector and `Σ_rows xb·xb` to
  another; at the first point it stores zeros to both before adding. Both running vectors are one whole block whose
  index never moves, so they are carried from point to point in their staging buffers and written back once, after
  the last point.

  * One lemma per case and accumulator reads what the body's stores leave (the last store covers the whole vector)
    as the body's arithmetic over the point's blocks (`out4_A_2_eq` … `out4_B_3_eq`).
  * Over the extended reals that arithmetic, at column `j`, is "what was there, plus the sum over the block's rows
    `r` of `x (r, j) + b j`" (respectively of its square), and the stored zero is `0` (`k4_pay4_apply`,
    `k4_pay5_apply`, `k4_pay2_apply`).
  * Row `r` of block `t` is row `5000·t + r` of the array; the bias row's block is the row (`iblk4_0_apply`,
    `iblk4_1_apply`).
  * By induction on the point, after point `n` the accumulators hold the sums over rows `0 … 5000·(n+1) − 1`
    (`outsAt4_val`); after the last point, over all 50000 rows (`Stats.sum_blocks`).
  * The one write-back, at the last point, writes the whole vector, so the result arrays end holding those sums
    (`stats4_sum`, `stats4_sumsq`).
  No finiteness is used: extended-real addition is a commutative monoid.
-/
import proofs.«157031_j26723286515821_1_alg».proof.Proof.Gen.KernelIdeal.Frame
import proofs.«157031_j26723286515821_1_alg».proof.Proof.Spec
import proofs.«157031_j26723286515821_1_alg».proof.Proof.RegionStatsRows
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.RegionValue.Stats

open Cert.KernelIdeal Cert.KernelIdeal.Gen Idealize.ShloMosaic Idealize.ShloMosaic.ValueIdx
open Idealize.ShloMosaic.TcCoe Idealize.SL.Sem
open Idealize.ShloMosaic.Pipeline (Dat)

/-! ## What one grid point leaves in the two accumulators

At the first point the body stores the zero vector to each accumulator before it adds; at every later point it adds to
what the point before left. Every store covers the whole 128-vector, so the buffer afterwards is the last store's
payload, read here as a term over the point's input blocks. -/

section Pieces
variable {F : FTy → Type} [FloatOps F]

/-- A later point: the sum accumulator holds what it held plus this block's column sums. -/
theorem out4_B_2_eq (c : Dev nD) (i : grid4.Coords) (a1 : Memref sig .tc .vmem S5000x128 .f32) (h1 : a1.IsWhole)
    (a2 : Memref sig .tc .vmem S128 .f32) (h2 : a2.IsWhole) (a3 : Memref sig .tc .vmem S128 .f32) (h3 : a3.IsWhole)
    (a4 : Memref sig .tc .vmem S128 .f32) (h4 : a4.IsWhole) (hc : ¬cond4_0 i)
    (x0 : Vec F S5000x128 .f32) (x1 xo2 xo3 : Vec F S128 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  rw [View.canon_unit_zero zeros1]
  simp only [View.readAt_eq_ld, h1.read_unread, h2.read_unread, h3.read_unread, View.ld_unit_zero (S := S5000x128) zeros2,
    View.ld_unit_zero (S := S128) zeros1]

/-- A later point: the sum-of-squares accumulator holds what it held plus this block's column sums of squares. -/
theorem out4_B_3_eq (c : Dev nD) (i : grid4.Coords) (a1 : Memref sig .tc .vmem S5000x128 .f32) (h1 : a1.IsWhole)
    (a2 : Memref sig .tc .vmem S128 .f32) (h2 : a2.IsWhole) (a3 : Memref sig .tc .vmem S128 .f32) (h3 : a3.IsWhole)
    (a4 : Memref sig .tc .vmem S128 .f32) (h4 : a4.IsWhole) (hc : ¬cond4_0 i)
    (x0 : Vec F S5000x128 .f32) (x1 xo2 xo3 : Vec F S128 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  rw [View.canon_unit_zero zeros1]
  simp only [View.readAt_eq_ld, h1.read_unread, h2.read_unread, h4.read_unread, View.ld_unit_zero (S := S5000x128) zeros2,
    View.ld_unit_zero (S := S128) zeros1]

/-- The first point: the sum accumulator is zeroed, read back, and this block's column sums added. -/
theorem out4_A_2_eq (c : Dev nD) (i : grid4.Coords) (a1 : Memref sig .tc .vmem S5000x128 .f32) (h1 : a1.IsWhole)
    (a2 : Memref sig .tc .vmem S128 .f32) (h2 : a2.IsWhole) (a3 : Memref sig .tc .vmem S128 .f32) (h3 : a3.IsWhole)
    (a4 : Memref sig .tc .vmem S128 .f32) (h4 : a4.IsWhole) (hc : cond4_0 i)
    (x0 : Vec F S5000x128 .f32) (x1 : Vec F S128 .f32) :
    out4_A_2 c i a1 h1 a2 h2 a3 h3 a4 h4 hc x0 x1 = k4_pay4 x0 x1 k4_pay2 := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S128) zeros1, View.readCov_unit_zero (S := S128) _ zeros1]
  simp only [View.readAt_eq_ld, h1.read_unread, h2.read_unread, View.ld_unit_zero (S := S5000x128) zeros2,
    View.ld_unit_zero (S := S128) zeros1]

/-- The first point: the sum-of-squares accumulator likewise. -/
theorem out4_A_3_eq (c : Dev nD) (i : grid4.Coords) (a1 : Memref sig .tc .vmem S5000x128 .f32) (h1 : a1.IsWhole)
    (a2 : Memref sig .tc .vmem S128 .f32) (h2 : a2.IsWhole) (a3 : Memref sig .tc .vmem S128 .f32) (h3 : a3.IsWhole)
    (a4 : Memref sig .tc .vmem S128 .f32) (h4 : a4.IsWhole) (hc : cond4_0 i)
    (x0 : Vec F S5000x128 .f32) (x1 : Vec F S128 .f32) :
    out4_A_3 c i a1 h1 a2 h2 a3 h3 a4 h4 hc x0 x1 = k4_pay5 x0 x1 k4_pay3 := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S128) zeros1, View.readCov_unit_zero (S := S128) _ zeros1]
  simp only [View.readAt_eq_ld, h1.read_unread, h2.read_unread, View.ld_unit_zero (S := S5000x128) zeros2,
    View.ld_unit_zero (S := S128) zeros1]

end Pieces

/-! ## The payloads at an index, over the extended reals -/

section AtIdeal

/-- The block with the bias row added, at row `r`, column `j`. -/
theorem k4_pay1_apply (x0 : Vec Ideal S5000x128 .f32) (x1 : Vec Ideal S128 .f32) (r : Fin 5000) (j : Fin 128) :
    k4_pay1 x0 x1 (ix2 r j) = x0 (ix2 r j) + x1 (ix1 j) := by
  unfold k4_pay1
  refine (addf_apply _ _ _).trans ?_
  rw [shapeCast_self, broadcastTo_1b_ab_apply, shapeCast_a_1a_apply]

/-- The sum accumulator after a point: what it held plus the block's column sum. -/
theorem k4_pay4_apply (x0 : Vec Ideal S5000x128 .f32) (x1 acc : Vec Ideal S128 .f32) (j : Fin 128) :
    k4_pay4 x0 x1 acc (ix1 j) = acc (ix1 j) + ∑ r : Fin 5000, (x0 (ix2 r j) + x1 (ix1 j)) := by
  unfold k4_pay4
  refine (addf_apply _ _ _).trans ?_
  rw [shapeCast_self]
  congr 1
  refine (Ideal.multiReduction_add_single (k4_pay1 x0 x1) 0x00000000#32 reduces_S5000x128_S128 (.inl rfl) rfl (ix1 j)).trans ?_
  exact Finset.sum_congr rfl fun (r : Fin 5000) _ =>
    (congrArg (k4_pay1 x0 x1) (lift_eq r j)).trans (k4_pay1_apply x0 x1 r j)

/-- The sum-of-squares accumulator after a point: what it held plus the block's column sum of squares. -/
theorem k4_pay5_apply (x0 : Vec Ideal S5000x128 .f32) (x1 acc : Vec Ideal S128 .f32) (j : Fin 128) :
    k4_pay5 x0 x1 acc (ix1 j)
      = acc (ix1 j) + ∑ r : Fin 5000, (x0 (ix2 r j) + x1 (ix1 j)) * (x0 (ix2 r j) + x1 (ix1 j)) := by
  unfold k4_pay5
  refine (addf_apply _ _ _).trans ?_
  rw [shapeCast_self]
  congr 1
  refine (Ideal.multiReduction_add_single (mulf (k4_pay1 x0 x1) (k4_pay1 x0 x1)) 0x00000000#32 reduces_S5000x128_S128 (.inl rfl) rfl (ix1 j)).trans ?_
  refine Finset.sum_congr rfl fun (r : Fin 5000) _ => ?_
  refine (congrArg (mulf (k4_pay1 x0 x1) (k4_pay1 x0 x1)) (lift_eq r j)).trans ?_
  refine (mulf_apply _ _ _).trans ?_
  rw [k4_pay1_apply x0 x1 r j]

/-- The vectors the first point stores are zero. -/
theorem k4_pay2_apply (j : Fin 128) : (k4_pay2 (F := Ideal)) (ix1 j) = 0 := by
  unfold k4_pay2
  exact Ideal.ofBits_zero_f32
theorem k4_pay3_apply (j : Fin 128) : (k4_pay3 (F := Ideal)) (ix1 j) = 0 := by
  unfold k4_pay3
  exact Ideal.ofBits_zero_f32

end AtIdeal

/-! ## The input blocks a point reads -/

section Blocks
variable (V : (c : Dev nD) → (b : Ref sig .tc) → Buf (Elt Ideal) ((c : Thread nD τ).loc b))

/-- Block `t` of the features starts at row `5000·t`, column 0; the bias row's one block is the row. -/
theorem idx_facts4 : ∀ t : Fin cfg4.N, win4_0.index t (0 : Fin 2) = t.val ∧ win4_0.index t (1 : Fin 2) = 0
    ∧ win4_1.index t (0 : Fin 1) = 0 :=
  (by decide +kernel : ∀ t : Fin grid4.N, win4_0.index t (0 : Fin 2) = t.val ∧ win4_0.index t (1 : Fin 2) = 0
    ∧ win4_1.index t (0 : Fin 1) = 0)

/-- Row `r` of block `t` of the features is row `5000·t + r` of the array. -/
theorem iblk4_0_apply (c : Dev nD) (t : Fin cfg4.N) (r : Fin 5000) (j : Fin 128) (h : 5000 * t.val + r.val < 50000) :
    (iblk4 V c 0 t : Vec Ideal S5000x128 .f32) (ix2 r j)
      = (V c (Pipeline.arrRef spec4 0) : Cert.Gcn.SNH.Idx → EReal) (ix2 ⟨5000 * t.val + r.val, h⟩ j) := by
  unfold iblk4
  rw [View.read_apply]
  show (V c (Pipeline.arrRef spec4 0) : Cert.Gcn.SNH.Idx → EReal) _ = _
  congr 1
  funext a
  apply Fin.ext
  have hi := idx_facts4 t
  match a with
  | ⟨0, _⟩ => show win4_0.index t 0 * 5000 + 1 * r.val = 5000 * t.val + r.val; rw [hi.1]; omega
  | ⟨1, _⟩ => show win4_0.index t 1 * 128 + 1 * j.val = j.val; rw [hi.2.1]; omega

/-- The bias row's block at any point is the row. -/
theorem iblk4_1_apply (c : Dev nD) (t : Fin cfg4.N) (j : Fin 128) :
    (iblk4 V c 1 t : Vec Ideal S128 .f32) (ix1 j)
      = (V c (Pipeline.arrRef spec4 1) : Cert.Gcn.SH.Idx → EReal) (ix1 j) := by
  unfold iblk4
  rw [View.read_apply]
  show (V c (Pipeline.arrRef spec4 1) : Cert.Gcn.SH.Idx → EReal) _ = _
  congr 1
  funext a
  apply Fin.ext
  have hi := idx_facts4 t
  match a with
  | ⟨0, _⟩ => show win4_1.index t 0 * 128 + 1 * j.val = j.val; rw [hi.2.2]; omega

end Blocks

/-! ## The accumulators after each point

After point `n` the sum accumulator holds, in column `j`, the sum of the biased features over rows
`0 … 5000·(n+1) − 1`, and the other accumulator the sum of their squares: zero plus the first block at the first
point, one more block at each later one. Addition of extended reals is a commutative monoid, so nothing about
finiteness is needed. -/

section Invariant
variable (V : (c : Dev nD) → (b : Ref sig .tc) → Buf (Elt Ideal) ((c : Thread nD τ).loc b))

/-- The first point: both accumulators are their payloads over zero. -/
theorem outsAt4_zero (c : Dev nD) (hn : 0 < cfg4.N) :
    outsAt4 V c 0 hn
      = (k4_pay4 (iblk4 V c 0 ⟨0, hn⟩) (iblk4 V c 1 ⟨0, hn⟩) (k4_pay2 (F := Ideal)),
         k4_pay5 (iblk4 V c 0 ⟨0, hn⟩) (iblk4 V c 1 ⟨0, hn⟩) (k4_pay3 (F := Ideal))) := by
  refine (outsAt4_A V c ⟨0, hn⟩ rfl).trans ?_
  rw [out4_A_2_eq, out4_A_3_eq]

/-- A later point: both accumulators are their payloads over what the point before left. -/
theorem outsAt4_succ (c : Dev nD) (n : ℕ) (hn : n + 1 < cfg4.N) :
    outsAt4 V c (n + 1) hn
      = (k4_pay4 (iblk4 V c 0 ⟨n + 1, hn⟩) (iblk4 V c 1 ⟨n + 1, hn⟩) (outsAt4 V c n (Nat.lt_of_succ_lt hn)).1,
         k4_pay5 (iblk4 V c 0 ⟨n + 1, hn⟩) (iblk4 V c 1 ⟨n + 1, hn⟩) (outsAt4 V c n (Nat.lt_of_succ_lt hn)).2) := by
  have hN : cfg4.N = 10 := N_4
  have hB : ¬(⟨n + 1, hn⟩ : Fin cfg4.N).val % 10 = 0 := by dsimp only; omega
  rw [outsAt4_B V c ⟨n + 1, hn⟩ hB, out4_B_2_eq, out4_B_3_eq]
  rfl

/-- The running sums. -/
theorem outsAt4_val (c : Dev nD) (j : Fin 128) : ∀ (n : ℕ) (hn : n < cfg4.N),
    (outsAt4 V c n hn).1 (ix1 j)
        = ∑ p ∈ Finset.range (n + 1), ∑ r ∈ Finset.range 5000,
            yAt (V c (Pipeline.arrRef spec4 0)) (V c (Pipeline.arrRef spec4 1)) j (5000 * p + r)
    ∧ (outsAt4 V c n hn).2 (ix1 j)
        = ∑ p ∈ Finset.range (n + 1), ∑ r ∈ Finset.range 5000,
            yAt (V c (Pipeline.arrRef spec4 0)) (V c (Pipeline.arrRef spec4 1)) j (5000 * p + r)
              * yAt (V c (Pipeline.arrRef spec4 0)) (V c (Pipeline.arrRef spec4 1)) j (5000 * p + r)
  | 0, hn => by
    rw [outsAt4_zero V c hn]
    refine ⟨?_, ?_⟩
    · refine (k4_pay4_apply (iblk4 V c 0 ⟨0, hn⟩) (iblk4 V c 1 ⟨0, hn⟩) (k4_pay2 (F := Ideal)) j).trans ?_
      rw [k4_pay2_apply, zero_add, Finset.sum_range_one]
      exact block_sum (V c (Pipeline.arrRef spec4 0)) (V c (Pipeline.arrRef spec4 1)) (iblk4 V c 0 ⟨0, hn⟩) (iblk4 V c 1 ⟨0, hn⟩)
        0 (by omega) (fun r j h => iblk4_0_apply V c ⟨0, hn⟩ r j h) (fun j => iblk4_1_apply V c ⟨0, hn⟩ j) j (fun v => v)
    · refine (k4_pay5_apply (iblk4 V c 0 ⟨0, hn⟩) (iblk4 V c 1 ⟨0, hn⟩) (k4_pay3 (F := Ideal)) j).trans ?_
      rw [k4_pay3_apply, zero_add, Finset.sum_range_one]
      exact block_sum (V c (Pipeline.arrRef spec4 0)) (V c (Pipeline.arrRef spec4 1)) (iblk4 V c 0 ⟨0, hn⟩) (iblk4 V c 1 ⟨0, hn⟩)
        0 (by omega) (fun r j h => iblk4_0_apply V c ⟨0, hn⟩ r j h) (fun j => iblk4_1_apply V c ⟨0, hn⟩ j) j (fun v => v * v)
  | n + 1, hn => by
    have hN : cfg4.N = 10 := N_4
    obtain ⟨ih1, ih2⟩ := outsAt4_val c j n (Nat.lt_of_succ_lt hn)
    rw [outsAt4_succ V c n hn]
    refine ⟨?_, ?_⟩
    · refine (k4_pay4_apply (iblk4 V c 0 ⟨n + 1, hn⟩) (iblk4 V c 1 ⟨n + 1, hn⟩) (outsAt4 V c n (Nat.lt_of_succ_lt hn)).1 j).trans ?_
      rw [ih1, Finset.sum_range_succ _ (n + 1)]
      refine congrArg (HAdd.hAdd _) ?_
      exact block_sum (V c (Pipeline.arrRef spec4 0)) (V c (Pipeline.arrRef spec4 1)) (iblk4 V c 0 ⟨n + 1, hn⟩) (iblk4 V c 1 ⟨n + 1, hn⟩)
        (n + 1) (by omega) (fun r j h => iblk4_0_apply V c ⟨n + 1, hn⟩ r j h) (fun j => iblk4_1_apply V c ⟨n + 1, hn⟩ j) j (fun v => v)
    · refine (k4_pay5_apply (iblk4 V c 0 ⟨n + 1, hn⟩) (iblk4 V c 1 ⟨n + 1, hn⟩) (outsAt4 V c n (Nat.lt_of_succ_lt hn)).2 j).trans ?_
      rw [ih2, Finset.sum_range_succ _ (n + 1)]
      refine congrArg (HAdd.hAdd _) ?_
      exact block_sum (V c (Pipeline.arrRef spec4 0)) (V c (Pipeline.arrRef spec4 1)) (iblk4 V c 0 ⟨n + 1, hn⟩) (iblk4 V c 1 ⟨n + 1, hn⟩)
        (n + 1) (by omega) (fun r j h => iblk4_0_apply V c ⟨n + 1, hn⟩ r j h) (fun j => iblk4_1_apply V c ⟨n + 1, hn⟩ j) j (fun v => v * v)

end Invariant

/-! ## The result arrays

Each accumulator's one block is its whole array and is written back once, after the last point; so the array ends
holding what the last point left: the sums over all 50000 rows. -/

section Final
variable (V : (c : Dev nD) → (b : Ref sig .tc) → Buf (Elt Ideal) ((c : Thread nD τ).loc b))

theorem nine_lt4 : 9 < cfg4.N := by rw [show cfg4.N = 10 from N_4]; decide

/-- What the last point leaves in the two accumulators, as contents of the result arrays. -/
abbrev res4_2 (c : Dev nD) : Buf (Elt Ideal) ((c : Thread nD τ).loc main_v65_0) := (outsAt4 V c 9 nine_lt4).1
abbrev res4_3 (c : Dev nD) : Buf (Elt Ideal) ((c : Thread nD τ).loc main_v65_1) := (outsAt4 V c 9 nine_lt4).2

/-- The one write-back of the sum, at the last point, writes it whole. -/
theorem flushed4_2_eq (c : Dev nD) (t : Fin cfg4.N) (hf : (cfg4.win 2).flush t = true) :
    (dat4 V c).flushed 2 t = ((cfg4.win 2).blk t).view.read (Elt Ideal) (res4_2 V c) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2]
  have hz' : (fun a => win4_2.index t4_9 a * main_v65_0.ty.shape.size a) = fun _ => 0 :=
    funext fun a => by fin_cases a; decide
  exact (Memref.read_access_unit_zero (Elt Ideal) main_v65_0 hz' (fun a => by rw [congrFun hz' a]; simp) (res4_2 V c)).symm

theorem flushed4_3_eq (c : Dev nD) (t : Fin cfg4.N) (hf : (cfg4.win 3).flush t = true) :
    (dat4 V c).flushed 3 t = ((cfg4.win 3).blk t).view.read (Elt Ideal) (res4_3 V c) := by
  have hN : cfg4.N = 10 := N_4
  have h9 : t.val = 9 := by have := (flush4_3 t).mp hf; have := t.isLt; omega
  obtain rfl : t = t4_9 := Fin.ext h9
  show (cfg4.win 3).cut (grid4.coords t4_9) ((dat4 V c).after 3 t4_9) = _
  rw [after4_3]
  have hz' : (fun a => win4_3.index t4_9 a * main_v65_1.ty.shape.size a) = fun _ => 0 :=
    funext fun a => by fin_cases a; decide
  exact (Memref.read_access_unit_zero (Elt Ideal) main_v65_1 hz' (fun a => by rw [congrFun hz' a]; simp) (res4_3 V c)).symm

/-- So the sum array ends holding what the last point left. -/
theorem final4_2 (c : Dev nD) : (dat4 V c).arrAt 2 cfg4.N = res4_2 V c :=
  (dat4 V c).arrAt_eq_of_cover 2 (res4_2 V c) (flushed4_2_eq V c) fun i =>
    ⟨t4_9, (flush4_2 t4_9).mpr rfl, by
      show i ∈ ((View.whole main_v65_0).slice (win4_2.rect t4_9)).set
      rw [View.set_slice_whole, Rect.mem_set_unit]
      intro a
      have h0 : (i 0 : Nat) < 128 := (i 0).isLt
      match a with
      | ⟨0, _⟩ =>
        show win4_2.index t4_9 0 * win4_2.size 0 ≤ (i 0 : Nat) ∧ (i 0 : Nat) < win4_2.index t4_9 0 * win4_2.size 0 + win4_2.xsize (grid4.coords t4_9) 0
        rw [show win4_2.index t4_9 0 * win4_2.size 0 = 0 from by decide +kernel, show win4_2.xsize (grid4.coords t4_9) 0 = 128 from by decide +kernel]; omega⟩

theorem final4_3 (c : Dev nD) : (dat4 V c).arrAt 3 cfg4.N = res4_3 V c :=
  (dat4 V c).arrAt_eq_of_cover 3 (res4_3 V c) (flushed4_3_eq V c) fun i =>
    ⟨t4_9, (flush4_3 t4_9).mpr rfl, by
      show i ∈ ((View.whole main_v65_1).slice (win4_3.rect t4_9)).set
      rw [View.set_slice_whole, Rect.mem_set_unit]
      intro a
      have h0 : (i 0 : Nat) < 128 := (i 0).isLt
      match a with
      | ⟨0, _⟩ =>
        show win4_3.index t4_9 0 * win4_3.size 0 ≤ (i 0 : Nat) ∧ (i 0 : Nat) < win4_3.index t4_9 0 * win4_3.size 0 + win4_3.xsize (grid4.coords t4_9) 0
        rw [show win4_3.index t4_9 0 * win4_3.size 0 = 0 from by decide +kernel, show win4_3.xsize (grid4.coords t4_9) 0 = 128 from by decide +kernel]; omega⟩

end Final

end Cert.KernelIdeal.RegionValue.Stats

/-! ## The statements the assembly cites -/

namespace Cert.KernelIdeal.RegionValue

open Cert.KernelIdeal Cert.KernelIdeal.Gen Idealize.ShloMosaic Idealize.ShloMosaic.ValueIdx
open Idealize.ShloMosaic.TcCoe Idealize.SL.Sem
open Stats

variable (V : (c : Dev nD) → (b : Ref sig .tc) → Buf (Elt Ideal) ((c : Thread nD τ).loc b))

/-- The second statistics pass leaves the column sums of the biased features in its first result … -/
theorem stats4_sum (c : Dev nD) : (dat4 (F := Ideal) V c).arrAt 2 cfg4.N
    = fun j => Cert.Gcn.colSum (Cert.Gcn.addRow (V c (Pipeline.arrRef spec4 0)) (V c (Pipeline.arrRef spec4 1))) (j 0) := by
  rw [final4_2]
  funext i
  obtain ⟨j, rfl⟩ : ∃ j : Fin 128, i = ix1 j := ⟨i 0, eq_ix1 i⟩
  show (outsAt4 V c 9 nine_lt4).1 (ix1 j) = Cert.Gcn.colSum _ j
  rw [(outsAt4_val V c j 9 nine_lt4).1, colSum_eq, sum_blocks]

/-- … and the column sums of their squares in its second. -/
theorem stats4_sumsq (c : Dev nD) : (dat4 (F := Ideal) V c).arrAt 3 cfg4.N
    = fun j => Cert.Gcn.colSumSq (Cert.Gcn.addRow (V c (Pipeline.arrRef spec4 0)) (V c (Pipeline.arrRef spec4 1))) (j 0) := by
  rw [final4_3]
  funext i
  obtain ⟨j, rfl⟩ : ∃ j : Fin 128, i = ix1 j := ⟨i 0, eq_ix1 i⟩
  show (outsAt4 V c 9 nine_lt4).2 (ix1 j) = Cert.Gcn.colSumSq _ j
  rw [(outsAt4_val V c j 9 nine_lt4).2, colSumSq_eq,
    sum_blocks (fun k => yAt (V c (Pipeline.arrRef spec4 0)) (V c (Pipeline.arrRef spec4 1)) j k
      * yAt (V c (Pipeline.arrRef spec4 0)) (V c (Pipeline.arrRef spec4 1)) j k)]

end Cert.KernelIdeal.RegionValue

end
-- ==== Proof.RefStages.lean ====
/-
  The reference's dense, bias and normalisation stages, restated through the shared specification.

  The reference runs two graph-convolution layers. Each layer multiplies the node features by a weight matrix,
  aggregates over the graph (a stage this module never opens: it is carried as one array), adds a bias row to every
  row, and then normalises each column by its batch statistics: with y the biased array, the column mean is
  μ_j = (Σ_r y_rj) / n, the variance is the mean of the squared deviations (Σ_r (y_rj − μ_j)²) / n, and the output is
  max (((y − μ) · (var + ε)^(-1/2)) · γ + β, 0).

  Every stage of the reference is read at one index: a broadcast of a row reads the row at the column coordinate,
  a broadcast of a constant reads the constant, a column sum is its initial value (the zero word, which is 0) plus the
  sum over the 50000 rows, and the dense product is the sum over the 128 contracted coordinates. Composing the stages
  at an index (r, c) gives exactly the specification's functions: the dense product is `matmulNH`, the bias addition
  `addRow`, the mean `mean`, the variance `varR`, the layer's output `bnOf` with `varR`. The float words for n and ε
  are never evaluated: they are the specification's `nW` and `epsW` by definition.
-/
import proofs.«157031_j26723286515821_1_alg».proof.Proof.Gen.ReferenceIdeal.Read
import proofs.«157031_j26723286515821_1_alg».proof.Proof.Spec
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Read Cert.Gcn Idealize.ShloMosaic Idealize.ShloMosaic.ValueIdx

/-! ## The dense product -/

/-- The dense product of the node features with a weight matrix: entry (r, j) is Σ_k a_rk · W_kj. -/
theorem dot_eq (a : S50000x128.Idx → EReal) (W : S128x128.Idx → EReal) :
    val_main_v7 (F := Ideal) a W = Cert.Gcn.matmulNH a W := by
  funext i
  obtain ⟨r, c, rfl⟩ : ∃ (r : Fin 50000) (c : Fin 128), i = ix2 r c := ⟨i 0, i 1, eq_ix2 i⟩
  rw [val_main_v7_apply]
  have el : ∀ k : Fin 128, lidx_main_v7 (ix2 r c) k = ix2 r k := fun k =>
    funext fun a => Fin.ext (by match a with | ⟨0, _⟩ => rfl | ⟨1, _⟩ => rfl)
  have er : ∀ k : Fin 128, ridx_main_v7 (ix2 r c) k = ix2 k c := fun k =>
    funext fun a => Fin.ext (by match a with | ⟨0, _⟩ => rfl | ⟨1, _⟩ => rfl)
  simp only [el, er]
  rfl

/-! ## Layer 1: bias, batch statistics, normalisation -/

section Layer1

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x6 x7 : (⟨S128, .f32⟩ : BufTy).Contents (Elt Ideal))

/-- The bias row is added to every row of the aggregated features. -/
theorem v45_eq : val_main_v45 (F := Ideal) x0 x1 x2 x3
    = Cert.Gcn.addRow (val_main_v42 (F := Ideal) x0 x1 x2) x3 := by
  funext i
  obtain ⟨r, c, rfl⟩ : ∃ (r : Fin 50000) (c : Fin 128), i = ix2 r c := ⟨i 0, i 1, eq_ix2 i⟩
  rw [val_main_v45_apply, val_main_v44_apply, val_main_v43_apply]
  have e : idx_main_v43 (idx_main_v44 (ix2 r c)) = ix1 c :=
    funext fun a => Fin.ext (by match a with | ⟨0, _⟩ => rfl)
  rw [e]
  rfl

/-- The column mean: the column sum (from the zero word) divided by the word for n. -/
theorem v48_at (c : Fin 128) : val_main_v48 (F := Ideal) x0 x1 x2 x3 (ix1 c)
    = Cert.Gcn.mean (val_main_v45 (F := Ideal) x0 x1 x2 x3) c := by
  rw [val_main_v48_apply, val_main_v46_apply, val_main_v47_apply, val_main_cst_9_apply, val_main_cst_8_apply]
  generalize val_main_v45 (F := Ideal) x0 x1 x2 x3 = y
  have e : ∀ k : Fin 50000, idx_main_v46 (ix1 c) k = ix2 k c := fun k =>
    funext fun a => Fin.ext (by match a with | ⟨0, _⟩ => rfl | ⟨1, _⟩ => rfl)
  simp only [e, Ideal.hostDivf_def, Ideal.ofBits_def, Ideal.ofBits_zero_f32, zero_add]
  rfl

/-- The mean broadcast over the rows, as the variance's deviation reads it. -/
theorem v50_at (r : Fin 50000) (c : Fin 128) : val_main_v50 (F := Ideal) x0 x1 x2 x3 (ix2 r c)
    = Cert.Gcn.mean (val_main_v45 (F := Ideal) x0 x1 x2 x3) c := by
  rw [val_main_v50_apply, val_main_v49_apply]
  have e : idx_main_v49 (idx_main_v50 (ix2 r c)) = ix1 c :=
    funext fun a => Fin.ext (by match a with | ⟨0, _⟩ => rfl)
  rw [e, v48_at]

/-- The mean broadcast over the rows, as the normalised value reads it. -/
theorem v57_at (r : Fin 50000) (c : Fin 128) : val_main_v57 (F := Ideal) x0 x1 x2 x3 (ix2 r c)
    = Cert.Gcn.mean (val_main_v45 (F := Ideal) x0 x1 x2 x3) c := by
  rw [val_main_v57_apply, val_main_v56_apply]
  have e : idx_main_v56 (idx_main_v57 (ix2 r c)) = ix1 c :=
    funext fun a => Fin.ext (by match a with | ⟨0, _⟩ => rfl)
  rw [e, v48_at]

/-- The squared deviation from the column mean. -/
theorem v52_at (r : Fin 50000) (c : Fin 128) : val_main_v52 (F := Ideal) x0 x1 x2 x3 (ix2 r c)
    = (val_main_v45 (F := Ideal) x0 x1 x2 x3 (ix2 r c) - Cert.Gcn.mean (val_main_v45 (F := Ideal) x0 x1 x2 x3) c)
      * (val_main_v45 (F := Ideal) x0 x1 x2 x3 (ix2 r c) - Cert.Gcn.mean (val_main_v45 (F := Ideal) x0 x1 x2 x3) c) := by
  rw [val_main_v52_apply, val_main_v51_apply, v50_at]
  rfl

/-- The column variance: the column sum of the squared deviations from the mean, divided by the word for n. -/
theorem v55_at (c : Fin 128) : val_main_v55 (F := Ideal) x0 x1 x2 x3 (ix1 c)
    = Cert.Gcn.varR (val_main_v45 (F := Ideal) x0 x1 x2 x3) c := by
  rw [val_main_v55_apply, val_main_v53_apply, val_main_v54_apply, val_main_cst_11_apply, val_main_cst_10_apply]
  have e : ∀ k : Fin 50000, idx_main_v53 (ix1 c) k = ix2 k c := fun k =>
    funext fun a => Fin.ext (by match a with | ⟨0, _⟩ => rfl | ⟨1, _⟩ => rfl)
  have hs : ∑ k : Fin 50000, val_main_v52 (F := Ideal) x0 x1 x2 x3 (idx_main_v53 (ix1 c) k)
      = ∑ k : Fin 50000,
          (val_main_v45 (F := Ideal) x0 x1 x2 x3 (ix2 k c) - Cert.Gcn.mean (val_main_v45 (F := Ideal) x0 x1 x2 x3) c)
          * (val_main_v45 (F := Ideal) x0 x1 x2 x3 (ix2 k c) - Cert.Gcn.mean (val_main_v45 (F := Ideal) x0 x1 x2 x3) c) :=
    Finset.sum_congr rfl fun k _ => by rw [e k, v52_at]
  rw [hs]
  generalize val_main_v45 (F := Ideal) x0 x1 x2 x3 = y
  simp only [Ideal.hostDivf_def, Ideal.ofBits_def, Ideal.ofBits_zero_f32, zero_add]
  rfl

/-- The reciprocal square root of variance plus ε, broadcast over the rows. -/
theorem v63_at (r : Fin 50000) (c : Fin 128) : val_main_v63 (F := Ideal) x0 x1 x2 x3 (ix2 r c)
    = Ideal.rsqrt (Cert.Gcn.varR (val_main_v45 (F := Ideal) x0 x1 x2 x3) c + Cert.Gcn.epsW) := by
  rw [val_main_v63_apply, val_main_v62_apply]
  have e : idx_main_v62 (idx_main_v63 (ix2 r c)) = ix1 c :=
    funext fun a => Fin.ext (by match a with | ⟨0, _⟩ => rfl)
  rw [e, val_main_v61_apply, val_main_v60_apply, v55_at, val_main_v59_apply, val_main_cst_12_apply]
  simp only [Ideal.hostUnary_rsqrt_def, Ideal.addf_def, Ideal.ofBits_def]
  rfl

/-- The scale row broadcast over the rows. -/
theorem v66_at (r : Fin 50000) (c : Fin 128) : val_main_v66 (F := Ideal) x6 (ix2 r c) = x6 (ix1 c) := by
  rw [val_main_v66_apply, val_main_v65_apply]
  exact congrArg x6 (funext fun a => Fin.ext (by match a with | ⟨0, _⟩ => rfl))

/-- The shift row broadcast over the rows. -/
theorem v69_at (r : Fin 50000) (c : Fin 128) : val_main_v69 (F := Ideal) x7 (ix2 r c) = x7 (ix1 c) := by
  rw [val_main_v69_apply, val_main_v68_apply]
  exact congrArg x7 (funext fun a => Fin.ext (by match a with | ⟨0, _⟩ => rfl))

/-- The layer's output: the biased array normalised by its column mean and its variance of deviations, scaled,
    shifted and clamped below at zero. -/
theorem v71_eq : val_main_v71 (F := Ideal) x0 x1 x2 x3 x6 x7
    = Cert.Gcn.bnOf (val_main_v45 (F := Ideal) x0 x1 x2 x3)
        (Cert.Gcn.varR (val_main_v45 (F := Ideal) x0 x1 x2 x3)) x6 x7 := by
  funext i
  obtain ⟨r, c, rfl⟩ : ∃ (r : Fin 50000) (c : Fin 128), i = ix2 r c := ⟨i 0, i 1, eq_ix2 i⟩
  rw [val_main_v71_apply, val_main_v70_apply, val_main_v67_apply, val_main_v64_apply, val_main_v58_apply,
    v57_at, v63_at, v66_at, v69_at, val_main_call0_v0_apply, val_main_call0_cst_apply]
  generalize val_main_v45 (F := Ideal) x0 x1 x2 x3 = y
  simp only [Ideal.maximumf_def, Ideal.addf_def, Ideal.mulf_def, Ideal.subf_def, Ideal.ofBits_def, Ideal.ofBits_zero_f32]
  rfl

/-- The second layer's dense product: the first layer's output times the second weight matrix. -/
theorem v72_eq : val_main_v72 (F := Ideal) x0 x1 x2 x3 x4 x6 x7
    = Cert.Gcn.matmulNH (val_main_v71 (F := Ideal) x0 x1 x2 x3 x6 x7) x4 := by
  unfold val_main_v72
  exact dot_eq _ _

end Layer1

/-! ## Layer 2: the same chain on the second aggregate -/

section Layer2

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 x7 x8 x9 : (⟨S128, .f32⟩ : BufTy).Contents (Elt Ideal))

/-- The bias row is added to every row of the aggregated features. -/
theorem v110_eq : val_main_v110 (F := Ideal) x0 x1 x2 x3 x4 x5 x6 x7
    = Cert.Gcn.addRow (val_main_v107 (F := Ideal) x0 x1 x2 x3 x4 x6 x7) x5 := by
  funext i
  obtain ⟨r, c, rfl⟩ : ∃ (r : Fin 50000) (c : Fin 128), i = ix2 r c := ⟨i 0, i 1, eq_ix2 i⟩
  rw [val_main_v110_apply, val_main_v109_apply, val_main_v108_apply]
  have e : idx_main_v108 (idx_main_v109 (ix2 r c)) = ix1 c :=
    funext fun a => Fin.ext (by match a with | ⟨0, _⟩ => rfl)
  rw [e]
  rfl

/-- The column mean: the column sum (from the zero word) divided by the word for n. -/
theorem v113_at (c : Fin 128) : val_main_v113 (F := Ideal) x0 x1 x2 x3 x4 x5 x6 x7 (ix1 c)
    = Cert.Gcn.mean (val_main_v110 (F := Ideal) x0 x1 x2 x3 x4 x5 x6 x7) c := by
  rw [val_main_v113_apply, val_main_v111_apply, val_main_v112_apply, val_main_cst_24_apply, val_main_cst_23_apply]
  generalize val_main_v110 (F := Ideal) x0 x1 x2 x3 x4 x5 x6 x7 = y
  have e : ∀ k : Fin 50000, idx_main_v111 (ix1 c) k = ix2 k c := fun k =>
    funext fun a => Fin.ext (by match a with | ⟨0, _⟩ => rfl | ⟨1, _⟩ => rfl)
  simp only [e, Ideal.hostDivf_def, Ideal.ofBits_def, Ideal.ofBits_zero_f32, zero_add]
  rfl

/-- The mean broadcast over the rows, as the variance's deviation reads it. -/
theorem v115_at (r : Fin 50000) (c : Fin 128) : val_main_v115 (F := Ideal) x0 x1 x2 x3 x4 x5 x6 x7 (ix2 r c)
    = Cert.Gcn.mean (val_main_v110 (F := Ideal) x0 x1 x2 x3 x4 x5 x6 x7) c := by
  rw [val_main_v115_apply, val_main_v114_apply]
  have e : idx_main_v114 (idx_main_v115 (ix2 r c)) = ix1 c :=
    funext fun a => Fin.ext (by match a with | ⟨0, _⟩ => rfl)
  rw [e, v113_at]

/-- The mean broadcast over the rows, as the normalised value reads it. -/
theorem v122_at (r : Fin 50000) (c : Fin 128) : val_main_v122 (F := Ideal) x0 x1 x2 x3 x4 x5 x6 x7 (ix2 r c)
    = Cert.Gcn.mean (val_main_v110 (F := Ideal) x0 x1 x2 x3 x4 x5 x6 x7) c := by
  rw [val_main_v122_apply, val_main_v121_apply]
  have e : idx_main_v121 (idx_main_v122 (ix2 r c)) = ix1 c :=
    funext fun a => Fin.ext (by match a with | ⟨0, _⟩ => rfl)
  rw [e, v113_at]

/-- The squared deviation from the column mean. -/
theorem v117_at (r : Fin 50000) (c : Fin 128) : val_main_v117 (F := Ideal) x0 x1 x2 x3 x4 x5 x6 x7 (ix2 r c)
    = (val_main_v110 (F := Ideal) x0 x1 x2 x3 x4 x5 x6 x7 (ix2 r c) - Cert.Gcn.mean (val_main_v110 (F := Ideal) x0 x1 x2 x3 x4 x5 x6 x7) c)
      * (val_main_v110 (F := Ideal) x0 x1 x2 x3 x4 x5 x6 x7 (ix2 r c) - Cert.Gcn.mean (val_main_v110 (F := Ideal) x0 x1 x2 x3 x4 x5 x6 x7) c) := by
  rw [val_main_v117_apply, val_main_v116_apply, v115_at]
  rfl

/-- The column variance: the column sum of the squared deviations from the mean, divided by the word for n. -/
theorem v120_at (c : Fin 128) : val_main_v120 (F := Ideal) x0 x1 x2 x3 x4 x5 x6 x7 (ix1 c)
    = Cert.Gcn.varR (val_main_v110 (F := Ideal) x0 x1 x2 x3 x4 x5 x6 x7) c := by
  rw [val_main_v120_apply, val_main_v118_apply, val_main_v119_apply, val_main_cst_26_apply, val_main_cst_25_apply]
  have e : ∀ k : Fin 50000, idx_main_v118 (ix1 c) k = ix2 k c := fun k =>
    funext fun a => Fin.ext (by match a with | ⟨0, _⟩ => rfl | ⟨1, _⟩ => rfl)
  have hs : ∑ k : Fin 50000, val_main_v117 (F := Ideal) x0 x1 x2 x3 x4 x5 x6 x7 (idx_main_v118 (ix1 c) k)
      = ∑ k : Fin 50000,
          (val_main_v110 (F := Ideal) x0 x1 x2 x3 x4 x5 x6 x7 (ix2 k c) - Cert.Gcn.mean (val_main_v110 (F := Ideal) x0 x1 x2 x3 x4 x5 x6 x7) c)
          * (val_main_v110 (F := Ideal) x0 x1 x2 x3 x4 x5 x6 x7 (ix2 k c) - Cert.Gcn.mean (val_main_v110 (F := Ideal) x0 x1 x2 x3 x4 x5 x6 x7) c) :=
    Finset.sum_congr rfl fun k _ => by rw [e k, v117_at]
  rw [hs]
  generalize val_main_v110 (F := Ideal) x0 x1 x2 x3 x4 x5 x6 x7 = y
  simp only [Ideal.hostDivf_def, Ideal.ofBits_def, Ideal.ofBits_zero_f32, zero_add]
  rfl

/-- The reciprocal square root of variance plus ε, broadcast over the rows. -/
theorem v128_at (r : Fin 50000) (c : Fin 128) : val_main_v128 (F := Ideal) x0 x1 x2 x3 x4 x5 x6 x7 (ix2 r c)
    = Ideal.rsqrt (Cert.Gcn.varR (val_main_v110 (F := Ideal) x0 x1 x2 x3 x4 x5 x6 x7) c + Cert.Gcn.epsW) := by
  rw [val_main_v128_apply, val_main_v127_apply]
  have e : idx_main_v127 (idx_main_v128 (ix2 r c)) = ix1 c :=
    funext fun a => Fin.ext (by match a with | ⟨0, _⟩ => rfl)
  rw [e, val_main_v126_apply, val_main_v125_apply, v120_at, val_main_v124_apply, val_main_cst_27_apply]
  simp only [Ideal.hostUnary_rsqrt_def, Ideal.addf_def, Ideal.ofBits_def]
  rfl

/-- The scale row broadcast over the rows. -/
theorem v131_at (r : Fin 50000) (c : Fin 128) : val_main_v131 (F := Ideal) x8 (ix2 r c) = x8 (ix1 c) := by
  rw [val_main_v131_apply, val_main_v130_apply]
  exact congrArg x8 (funext fun a => Fin.ext (by match a with | ⟨0, _⟩ => rfl))

/-- The shift row broadcast over the rows. -/
theorem v134_at (r : Fin 50000) (c : Fin 128) : val_main_v134 (F := Ideal) x9 (ix2 r c) = x9 (ix1 c) := by
  rw [val_main_v134_apply, val_main_v133_apply]
  exact congrArg x9 (funext fun a => Fin.ext (by match a with | ⟨0, _⟩ => rfl))

/-- The layer's output: the biased array normalised by its column mean and its variance of deviations, scaled,
    shifted and clamped below at zero. -/
theorem v136_eq : val_main_v136 (F := Ideal) x0 x1 x2 x3 x4 x5 x6 x7 x8 x9
    = Cert.Gcn.bnOf (val_main_v110 (F := Ideal) x0 x1 x2 x3 x4 x5 x6 x7)
        (Cert.Gcn.varR (val_main_v110 (F := Ideal) x0 x1 x2 x3 x4 x5 x6 x7)) x8 x9 := by
  funext i
  obtain ⟨r, c, rfl⟩ : ∃ (r : Fin 50000) (c : Fin 128), i = ix2 r c := ⟨i 0, i 1, eq_ix2 i⟩
  rw [val_main_v136_apply, val_main_v135_apply, val_main_v132_apply, val_main_v129_apply, val_main_v123_apply,
    v122_at, v128_at, v131_at, v134_at, val_main_call1_v0_apply, val_main_call1_cst_apply]
  generalize val_main_v110 (F := Ideal) x0 x1 x2 x3 x4 x5 x6 x7 = y
  simp only [Ideal.maximumf_def, Ideal.addf_def, Ideal.mulf_def, Ideal.subf_def, Ideal.ofBits_def, Ideal.ofBits_zero_f32]
  rfl

end Layer2

end Cert.ReferenceIdeal.Stages

end
-- ==== Proof.KernelValue.lean ====
/-
  What the idealized kernel's result array holds, as a function of its arguments: the reference's result.

  The run is followed segment by segment. The opening host stretch builds the edge lists and the symmetric degree
  weights exactly as the reference does. Per layer: the dense-product region leaves `x · W` (the reference's
  dot product), the aggregation stretch gathers, scales and scatter-adds it (the reference's aggregate `a`), the
  statistics region leaves the column sums of `y = a + b` and of `y²`, the next stretch divides them by the row count
  — mean `μ` and `Σy²/n − μ²` —, and the normalisation region leaves `max (((y − μ)·(var + ε)^(-1/2))·γ + β, 0)`.
  The reference takes the variance as `Σ(y − μ)²/n`. On finite `y` the two variances are the same real number, so each
  layer's output is the reference's; layer 2 starts from layer 1's output, which is again finite.
-/
import proofs.«157031_j26723286515821_1_alg».proof.Proof.KernelHost
import proofs.«157031_j26723286515821_1_alg».proof.Proof.Algebra
import proofs.«157031_j26723286515821_1_alg».proof.Proof.RegionLinear
import proofs.«157031_j26723286515821_1_alg».proof.Proof.RegionNorm
import proofs.«157031_j26723286515821_1_alg».proof.Proof.RegionStats1
import proofs.«157031_j26723286515821_1_alg».proof.Proof.RegionStats4
import proofs.«157031_j26723286515821_1_alg».proof.Proof.RefStages

set_option maxRecDepth 16384

noncomputable section

namespace Cert.KernelIdeal.Chain

open Cert.KernelIdeal Cert.KernelIdeal.Gen Cert.Gcn
open Idealize.ShloMosaic Idealize.ShloMosaic.TcCoe Idealize.SL.Sem Idealize.ShloMosaic.ValueIdx
open Cert.ReferenceIdeal.Read (val_main_v7 val_main_v42 val_main_v45 val_main_v71 val_main_v72 val_main_v107 val_main_v110 val_main_v136)

variable (m : (ℓ : Loc nD τ sig) → Buf (Elt Ideal) ℓ) (ρ : Dev nD → PrngReg)

/-- The launch contents of the ten arguments on core `c`. -/
abbrev in0 (c : Dev nD) : S50000x128.Idx → EReal := m ((c : Thread nD τ).loc main_arg0)
abbrev in1 (c : Dev nD) : S2x800000.Idx → BitVec 32 := m ((c : Thread nD τ).loc main_arg1)
abbrev in2 (c : Dev nD) : S128x128.Idx → EReal := m ((c : Thread nD τ).loc main_arg2)
abbrev in3 (c : Dev nD) : S128.Idx → EReal := m ((c : Thread nD τ).loc main_arg3)
abbrev in4 (c : Dev nD) : S128x128.Idx → EReal := m ((c : Thread nD τ).loc main_arg4)
abbrev in5 (c : Dev nD) : S128.Idx → EReal := m ((c : Thread nD τ).loc main_arg5)
abbrev in6 (c : Dev nD) : S128.Idx → EReal := m ((c : Thread nD τ).loc main_arg6)
abbrev in7 (c : Dev nD) : S128.Idx → EReal := m ((c : Thread nD τ).loc main_arg7)
abbrev in8 (c : Dev nD) : S128.Idx → EReal := m ((c : Thread nD τ).loc main_arg8)
abbrev in9 (c : Dev nD) : S128.Idx → EReal := m ((c : Thread nD τ).loc main_arg9)

/-- With the mean and a variance of `x + b` supplied per column, the in-kernel normalisation of `x` with bias `b` is the
    layer's output from `x + b`. -/
theorem bnK_eq_bnOf (x : SNH.Idx → EReal) (b g be : SH.Idx → EReal) (var : Fin 128 → EReal) :
    bnK x b (fun j => mean (addRow x b) (j 0)) (fun j => var (j 0)) g be = bnOf (addRow x b) var g be := by
  funext i; rfl

/-- Layer 1's aggregate with its bias added, and layer 2's. -/
abbrev y1 (c : Dev nD) : SNH.Idx → EReal := addRow (val_main_v42 (F := Ideal) (in0 m c) (in1 m c) (in2 m c)) (in3 m c)
abbrev y2 (c : Dev nD) : SNH.Idx → EReal :=
  addRow (val_main_v107 (F := Ideal) (in0 m c) (in1 m c) (in2 m c) (in3 m c) (in4 m c) (in6 m c) (in7 m c)) (in5 m c)

set_option maxHeartbeats 2000000 in
/-- Region 0 leaves the dense product of the features with the first weight matrix: the reference's first stage. -/
theorem k2 (c : Dev nD) : (W2 m ρ c (Proc.devRef .tc main_v29) : S50000x128.Idx → EReal)
    = val_main_v7 (F := Ideal) (in0 m c) (in2 m c) := by
  rw [Cert.ReferenceIdeal.Stages.dot_eq]
  refine (W2_arr m ρ c 2).trans ?_
  rw [Cert.KernelIdeal.RegionValue.lin0 (V1 m ρ) c]
  exact congrArg₂ matmulNH (carry_arg0_1_0 m ρ c) (carry_arg2_1_0 m ρ c)

/-- The first aggregation stretch then leaves the reference's aggregate. -/
theorem k3 (c : Dev nD) : (W3 m ρ c (Proc.devRef .tc main_v42) : S50000x128.Idx → EReal)
    = val_main_v42 (F := Ideal) (in0 m c) (in1 m c) (in2 m c) :=
  h3_v42 m ρ c _ _ (k2 m ρ c)

set_option maxHeartbeats 2000000 in
theorem k4_sum (c : Dev nD) : (W4 m ρ c (Proc.devRef .tc main_v43_0) : S128.Idx → EReal)
    = fun j => colSum (y1 m c) (j 0) := by
  refine (W4_arr m ρ c 2).trans ?_
  rw [Cert.KernelIdeal.RegionValue.stats1_sum (V3 m ρ) c]
  exact congrArg (fun y : SNH.Idx → EReal => fun j : S128.Idx => colSum y (j 0))
    (congrArg₂ addRow (k3 m ρ c) (carry_arg3_3_0 m ρ c))

set_option maxHeartbeats 2000000 in
theorem k4_sq (c : Dev nD) : (W4 m ρ c (Proc.devRef .tc main_v43_1) : S128.Idx → EReal)
    = fun j => colSumSq (y1 m c) (j 0) := by
  refine (W4_arr m ρ c 3).trans ?_
  rw [Cert.KernelIdeal.RegionValue.stats1_sumsq (V3 m ρ) c]
  exact congrArg (fun y : SNH.Idx → EReal => fun j : S128.Idx => colSumSq y (j 0))
    (congrArg₂ addRow (k3 m ρ c) (carry_arg3_3_0 m ρ c))

theorem k5_mean (c : Dev nD) : (W5 m ρ c (Proc.devRef .tc main_v45) : S128.Idx → EReal) = fun j => mean (y1 m c) (j 0) :=
  h5_mean m ρ c _ (k4_sum m ρ c)

theorem k5_var (c : Dev nD) : (W5 m ρ c (Proc.devRef .tc main_v49) : S128.Idx → EReal) = fun j => varK (y1 m c) (j 0) :=
  h5_var m ρ c _ (k4_sum m ρ c) (k4_sq m ρ c)

set_option maxHeartbeats 4000000 in
/-- Region 2 normalises with the mean and the mean-of-squares variance; over finite entries that variance is the
    reference's, so the region leaves the reference's first layer output. -/
theorem k6 (c : Dev nD) (hy : IsFin (y1 m c)) : (W6 m ρ c (Proc.devRef .tc main_v50) : S50000x128.Idx → EReal)
    = val_main_v71 (F := Ideal) (in0 m c) (in1 m c) (in2 m c) (in3 m c) (in6 m c) (in7 m c) := by
  refine (W6_arr m ρ c 6).trans ?_
  rw [Cert.KernelIdeal.RegionValue.norm2 (V5 m ρ) c]
  have e0 : (V5 m ρ c (Pipeline.arrRef spec2 0) : S50000x128.Idx → EReal)
      = val_main_v42 (F := Ideal) (in0 m c) (in1 m c) (in2 m c) := (carry_v42_5_3 m ρ c).trans (k3 m ρ c)
  have e1 : (V5 m ρ c (Pipeline.arrRef spec2 1) : S128.Idx → EReal) = in3 m c := carry_arg3_5_0 m ρ c
  have e2 : (V5 m ρ c (Pipeline.arrRef spec2 2) : S128.Idx → EReal) = fun j => mean (y1 m c) (j 0) := k5_mean m ρ c
  have e3 : (V5 m ρ c (Pipeline.arrRef spec2 3) : S128.Idx → EReal) = fun j => varK (y1 m c) (j 0) := k5_var m ρ c
  have e4 : (V5 m ρ c (Pipeline.arrRef spec2 4) : S128.Idx → EReal) = in6 m c := carry_arg6_5_0 m ρ c
  have e5 : (V5 m ρ c (Pipeline.arrRef spec2 5) : S128.Idx → EReal) = in7 m c := carry_arg7_5_0 m ρ c
  rw [e0, e1, e2, e3, e4, e5]
  calc bnK (val_main_v42 (F := Ideal) (in0 m c) (in1 m c) (in2 m c)) (in3 m c) (fun j => mean (y1 m c) (j 0))
          (fun j => varK (y1 m c) (j 0)) (in6 m c) (in7 m c)
      = bnOf (y1 m c) (varK (y1 m c)) (in6 m c) (in7 m c) := bnK_eq_bnOf _ _ _ _ _
    _ = bnOf (y1 m c) (varR (y1 m c)) (in6 m c) (in7 m c) := bnOf_congr_var _ hy _ _
    _ = val_main_v71 (F := Ideal) (in0 m c) (in1 m c) (in2 m c) (in3 m c) (in6 m c) (in7 m c) := by rw [Cert.ReferenceIdeal.Stages.v71_eq, Cert.ReferenceIdeal.Stages.v45_eq]

set_option maxHeartbeats 2000000 in
/-- Region 3: the second dense product, of layer 1's output with the second weight matrix. -/
theorem k7 (c : Dev nD) (hy : IsFin (y1 m c)) : (W7 m ρ c (Proc.devRef .tc main_v51) : S50000x128.Idx → EReal)
    = val_main_v72 (F := Ideal) (in0 m c) (in1 m c) (in2 m c) (in3 m c) (in4 m c) (in6 m c) (in7 m c) := by
  rw [Cert.ReferenceIdeal.Stages.v72_eq]
  refine (W7_arr m ρ c 2).trans ?_
  rw [Cert.KernelIdeal.RegionValue.lin3 (V6 m ρ) c]
  exact congrArg₂ matmulNH (k6 m ρ c hy) (carry_arg4_6_0 m ρ c)

theorem k8 (c : Dev nD) (hy : IsFin (y1 m c)) : (W8 m ρ c (Proc.devRef .tc main_v64) : S50000x128.Idx → EReal)
    = val_main_v107 (F := Ideal) (in0 m c) (in1 m c) (in2 m c) (in3 m c) (in4 m c) (in6 m c) (in7 m c) :=
  h8_v64 m ρ c _ _ _ _ _ _ (k7 m ρ c hy)

set_option maxHeartbeats 2000000 in
theorem k9_sum (c : Dev nD) (hy : IsFin (y1 m c)) : (W9 m ρ c (Proc.devRef .tc main_v65_0) : S128.Idx → EReal)
    = fun j => colSum (y2 m c) (j 0) := by
  refine (W9_arr m ρ c 2).trans ?_
  rw [Cert.KernelIdeal.RegionValue.stats4_sum (V8 m ρ) c]
  exact congrArg (fun y : SNH.Idx → EReal => fun j : S128.Idx => colSum y (j 0))
    (congrArg₂ addRow (k8 m ρ c hy) (carry_arg5_8_0 m ρ c))

set_option maxHeartbeats 2000000 in
theorem k9_sq (c : Dev nD) (hy : IsFin (y1 m c)) : (W9 m ρ c (Proc.devRef .tc main_v65_1) : S128.Idx → EReal)
    = fun j => colSumSq (y2 m c) (j 0) := by
  refine (W9_arr m ρ c 3).trans ?_
  rw [Cert.KernelIdeal.RegionValue.stats4_sumsq (V8 m ρ) c]
  exact congrArg (fun y : SNH.Idx → EReal => fun j : S128.Idx => colSumSq y (j 0))
    (congrArg₂ addRow (k8 m ρ c hy) (carry_arg5_8_0 m ρ c))

theorem k10_mean (c : Dev nD) (hy : IsFin (y1 m c)) :
    (W10 m ρ c (Proc.devRef .tc main_v67) : S128.Idx → EReal) = fun j => mean (y2 m c) (j 0) :=
  h10_mean m ρ c _ (k9_sum m ρ c hy)

theorem k10_var (c : Dev nD) (hy : IsFin (y1 m c)) :
    (W10 m ρ c (Proc.devRef .tc main_v71) : S128.Idx → EReal) = fun j => varK (y2 m c) (j 0) :=
  h10_var m ρ c _ (k9_sum m ρ c hy) (k9_sq m ρ c hy)

set_option maxHeartbeats 4000000 in
/-- Region 5, and with it the program: the result array ends at the reference's result. -/
theorem kernel_value (c : Dev nD) (hy1 : IsFin (y1 m c)) (hy2 : IsFin (y2 m c)) :
    (W11 m ρ c (Proc.devRef .tc main_v72) : S50000x128.Idx → EReal)
    = val_main_v136 (F := Ideal) (in0 m c) (in1 m c) (in2 m c) (in3 m c) (in4 m c) (in5 m c) (in6 m c) (in7 m c) (in8 m c) (in9 m c) := by
  refine (W11_arr m ρ c 6).trans ?_
  rw [Cert.KernelIdeal.RegionValue.norm5 (V10 m ρ) c]
  have e0 : (V10 m ρ c (Pipeline.arrRef spec5 0) : S50000x128.Idx → EReal)
      = val_main_v107 (F := Ideal) (in0 m c) (in1 m c) (in2 m c) (in3 m c) (in4 m c) (in6 m c) (in7 m c) :=
    (carry_v64_10_8 m ρ c).trans (k8 m ρ c hy1)
  have e1 : (V10 m ρ c (Pipeline.arrRef spec5 1) : S128.Idx → EReal) = in5 m c := carry_arg5_10_0 m ρ c
  have e2 : (V10 m ρ c (Pipeline.arrRef spec5 2) : S128.Idx → EReal) = fun j => mean (y2 m c) (j 0) := k10_mean m ρ c hy1
  have e3 : (V10 m ρ c (Pipeline.arrRef spec5 3) : S128.Idx → EReal) = fun j => varK (y2 m c) (j 0) := k10_var m ρ c hy1
  have e4 : (V10 m ρ c (Pipeline.arrRef spec5 4) : S128.Idx → EReal) = in8 m c := carry_arg8_10_0 m ρ c
  have e5 : (V10 m ρ c (Pipeline.arrRef spec5 5) : S128.Idx → EReal) = in9 m c := carry_arg9_10_0 m ρ c
  rw [e0, e1, e2, e3, e4, e5]
  calc bnK (val_main_v107 (F := Ideal) (in0 m c) (in1 m c) (in2 m c) (in3 m c) (in4 m c) (in6 m c) (in7 m c)) (in5 m c)
          (fun j => mean (y2 m c) (j 0)) (fun j => varK (y2 m c) (j 0)) (in8 m c) (in9 m c)
      = bnOf (y2 m c) (varK (y2 m c)) (in8 m c) (in9 m c) := bnK_eq_bnOf _ _ _ _ _
    _ = bnOf (y2 m c) (varR (y2 m c)) (in8 m c) (in9 m c) := bnOf_congr_var _ hy2 _ _
    _ = val_main_v136 (F := Ideal) (in0 m c) (in1 m c) (in2 m c) (in3 m c) (in4 m c) (in5 m c) (in6 m c) (in7 m c) (in8 m c) (in9 m c) := by
        rw [Cert.ReferenceIdeal.Stages.v136_eq, Cert.ReferenceIdeal.Stages.v110_eq]

end Cert.KernelIdeal.Chain

end
-- ==== Proof.Finite.lean ====
/-
  Finiteness (every entry a real number, neither infinity) is preserved by the array operations the layer is built from,
  at the exact instance where a float is an extended real: sums and products of reals are reals, a gather or a broadcast
  only re-reads entries, an accumulating scatter adds finitely many reals to a real, and the inverse square root of a real
  that is at least one is a real.
-/
import proofs.«157031_j26723286515821_1_alg».proof.Proof.Spec
import proofs.«157031_j26723286515821_1_alg».proof.Proof.Algebra
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-! ### Reals inside the extended reals -/

theorem isReal_add {a b : EReal} (ha : ∃ r : ℝ, a = (r : EReal)) (hb : ∃ r : ℝ, b = (r : EReal)) :
    ∃ r : ℝ, a + b = (r : EReal) := by
  obtain ⟨p, rfl⟩ := ha
  obtain ⟨q, rfl⟩ := hb
  exact ⟨p + q, (EReal.coe_add p q).symm⟩

theorem isReal_mul {a b : EReal} (ha : ∃ r : ℝ, a = (r : EReal)) (hb : ∃ r : ℝ, b = (r : EReal)) :
    ∃ r : ℝ, a * b = (r : EReal) := by
  obtain ⟨p, rfl⟩ := ha
  obtain ⟨q, rfl⟩ := hb
  exact ⟨p * q, (EReal.coe_mul p q).symm⟩

theorem isReal_sub {a b : EReal} (ha : ∃ r : ℝ, a = (r : EReal)) (hb : ∃ r : ℝ, b = (r : EReal)) :
    ∃ r : ℝ, a - b = (r : EReal) := by
  obtain ⟨p, rfl⟩ := ha
  obtain ⟨q, rfl⟩ := hb
  exact ⟨p - q, (EReal.coe_sub p q).symm⟩

theorem isReal_max {a b : EReal} (ha : ∃ r : ℝ, a = (r : EReal)) (hb : ∃ r : ℝ, b = (r : EReal)) :
    ∃ r : ℝ, max a b = (r : EReal) := by
  rcases max_choice a b with h | h
  · rw [h]; exact ha
  · rw [h]; exact hb

/-- A finite sum of reals is a real. -/
theorem isReal_sum {ι : Type*} (s : Finset ι) (f : ι → EReal) (h : ∀ k ∈ s, ∃ r : ℝ, f k = (r : EReal)) :
    ∃ r : ℝ, (∑ k ∈ s, f k) = (r : EReal) := by
  classical
  induction s using Finset.induction_on with
  | empty => exact ⟨0, by simp⟩
  | insert a s ha ih =>
    rw [Finset.sum_insert ha]
    exact isReal_add (h a (Finset.mem_insert_self a s)) (ih fun k hk => h k (Finset.mem_insert_of_mem hk))

/-! ### Arrays -/

theorem isFin_of_forall_eq_coe {s : Shape} (v : s.Idx → EReal) (f : s.Idx → ℝ) (h : ∀ i, v i = (f i : EReal)) :
    IsFin v := fun i => ⟨f i, h i⟩

/-- An array every entry of which is an entry of a finite array is finite. -/
theorem isFin_of_forall_mem {s t : Shape} (v : s.Idx → EReal) (u : t.Idx → EReal) (hv : IsFin v)
    (h : ∀ j, ∃ i, u j = v i) : IsFin u := by
  intro j
  obtain ⟨i, hi⟩ := h j
  rw [hi]
  exact hv i

theorem isFin_matmulNH (x : SNH.Idx → EReal) (W : SHH.Idx → EReal) (hx : IsFin x) (hW : IsFin W) :
    IsFin (matmulNH x W) := by
  intro i
  unfold matmulNH
  exact isReal_sum _ _ fun k _ => isReal_mul (hx _) (hW _)

theorem isFin_addRow (x : SNH.Idx → EReal) (b : SH.Idx → EReal) (hx : IsFin x) (hb : IsFin b) :
    IsFin (addRow x b) := by
  intro i
  unfold addRow
  exact isReal_add (hx _) (hb _)

theorem isFin_scatterAdd {s si su : Shape} {w : Nat} (d : ScatterDims s si su) (x : FVec Ideal s .f32) (idx : IVec si w)
    (upd : FVec Ideal su .f32) (hx : IsFin x) (hu : IsFin upd) : IsFin (Host.scatterAdd d x idx upd) := by
  intro i
  unfold Host.scatterAdd
  rw [Ideal.hostScatterAdd_def]
  unfold Ideal.hostScatterAdd
  exact isReal_add (hx i) (isReal_sum _ _ fun j _ => hu j)

theorem isFin_gather {s si t : Shape} {w : Nat} (d : GatherDims s si t) (x : s.Idx → EReal) (idx : IVec si w)
    (hx : IsFin x) : IsFin (Host.gather d x idx) := by
  intro j
  unfold Host.gather
  exact hx _

theorem isFin_mulf {s : Shape} (a b : FVec Ideal s .f32) (ha : IsFin a) (hb : IsFin b) : IsFin (mulf a b) := by
  intro i
  unfold mulf
  rw [Ideal.mulf_def]
  exact isReal_mul (ha i) (hb i)

theorem isFin_addf {s : Shape} (a b : FVec Ideal s .f32) (ha : IsFin a) (hb : IsFin b) : IsFin (addf a b) := by
  intro i
  unfold addf
  rw [Ideal.addf_def]
  exact isReal_add (ha i) (hb i)

theorem isFin_subf {s : Shape} (a b : FVec Ideal s .f32) (ha : IsFin a) (hb : IsFin b) : IsFin (subf a b) := by
  intro i
  unfold subf
  rw [Ideal.subf_def]
  exact isReal_sub (ha i) (hb i)

theorem isFin_maximumf {s : Shape} (a b : FVec Ideal s .f32) (ha : IsFin a) (hb : IsFin b) : IsFin (maximumf a b) := by
  intro i
  unfold maximumf
  rw [Ideal.maximumf_def]
  exact isReal_max (ha i) (hb i)

/-- A host dot product of finite arrays is finite: each entry is a finite sum of products of reals. -/
theorem isFin_dotGeneral {sl sr so : Shape} (d : DotDims sl sr so) (prec : Option ContractPrecision)
    (l : FVec Ideal sl .f32) (r : FVec Ideal sr .f32) (hl : IsFin l) (hr : IsFin r) :
    IsFin (Host.dotGeneral d prec l r) := by
  intro j
  simp only [Host.dotGeneral]
  rw [Ideal.dotGeneral_apply]
  exact isReal_sum _ _ fun k _ => isReal_mul (hl _) (hr _)

/-- A matrix-unit product accumulated into a finite array is finite. -/
theorem isFin_matmul {sl sr so : Shape} (d : DotDims sl sr so) (prec : Option ContractPrecision)
    (l : FVec Ideal sl .f32) (r : FVec Ideal sr .f32) (acc : FVec Ideal so .f32) (hl : IsFin l) (hr : IsFin r)
    (hacc : IsFin acc) : IsFin (matmul d prec l r acc) := by
  intro j
  simp only [matmul]
  rw [Ideal.matmul_apply]
  exact isReal_add (hacc j) (isReal_sum _ _ fun k _ => isReal_mul (hl _) (hr _))

/-- A `broadcast_in_dim` only re-reads entries of its operand. -/
theorem isFin_broadcastInDim {s : Shape} (t : Shape) (dims : Fin s.rank → Fin t.rank) (h : s.BroadcastsInDim t dims)
    (v : s.Idx → EReal) (hv : IsFin v) : IsFin (broadcastInDim t dims h v) := by
  intro j
  unfold broadcastInDim
  exact hv _

theorem const_zero_apply (i : (⟨0, ![]⟩ : Shape).Idx) :
    constant (F := Ideal) (⟨0, ![]⟩ : Shape) .f32 0x00000000#32 i = 0 := by
  unfold constant
  rw [Ideal.ofBits_def, Ideal.ofBits_zero_f32]

theorem const_one_apply (i : (⟨0, ![]⟩ : Shape).Idx) :
    constant (F := Ideal) (⟨0, ![]⟩ : Shape) .f32 0x3F800000#32 i = 1 := by
  unfold constant
  rw [Ideal.ofBits_def, ofBits_one_f32]

theorem isFin_const_zero : IsFin (constant (F := Ideal) (⟨0, ![]⟩ : Shape) .f32 0x00000000#32) := by
  intro i
  rw [const_zero_apply]
  exact ⟨0, EReal.coe_zero.symm⟩

theorem isFin_const_one : IsFin (constant (F := Ideal) (⟨0, ![]⟩ : Shape) .f32 0x3F800000#32) := by
  intro i
  rw [const_one_apply]
  exact ⟨1, EReal.coe_one.symm⟩

/-- The larger of a real and one is at least one, hence positive, so its inverse square root is a real. -/
theorem isFin_rsqrt_max_one {s : Shape} (d o : FVec Ideal s .f32) (hd : IsFin d) (ho : ∀ i, o i = 1) :
    IsFin (Host.rsqrt (maximumf d o)) := by
  intro i
  obtain ⟨r, hr⟩ := hd i
  unfold Host.rsqrt maximumf
  rw [Ideal.hostUnary_rsqrt_def, Ideal.maximumf_def, hr, ho i]
  rcases le_total (r : EReal) 1 with h | h
  · rw [max_eq_right h, ← EReal.coe_one]
    exact rsqrt_pos_real 1 one_pos
  · rw [max_eq_left h]
    rw [← EReal.coe_one, EReal.coe_le_coe_iff] at h
    exact rsqrt_pos_real r (by linarith)

end Cert.Gcn

end
-- ==== Proof.RefFinite.lean ====
/-
  Finiteness of the reference's aggregation stages, from finite arguments.

  Each stage is one array operation applied to earlier stages, and each such operation keeps every entry a real number:
  the dense product is a finite sum of products; the degree vector is an accumulating scatter of ones into zeros; the
  inverse square root is taken of max(degree, 1) ≥ 1; the edge weights are products of gathered entries of it; the
  messages are gathered rows times broadcast edge weights; the aggregate is an accumulating scatter of the messages into
  zeros; and the bias row is broadcast and added. The edge list is arbitrary: a gather only re-reads entries of its
  operand, and a scatter adds finitely many update entries to each operand entry, wherever the indices point.
  The second layer repeats the chain on the first layer's output, whose finiteness is taken as a hypothesis.
-/
import proofs.«157031_j26723286515821_1_alg».proof.Proof.Gen.ReferenceIdeal.Read
import proofs.«157031_j26723286515821_1_alg».proof.Proof.Finite
import proofs.«157031_j26723286515821_1_alg».proof.Proof.Spec

noncomputable section

namespace Cert.ReferenceIdeal.FiniteStages

open Cert.ReferenceIdeal Cert.ReferenceIdeal.Read Cert.Gcn Idealize.ShloMosaic

/-! ### The constant scalars -/

theorem isFin_cst : IsFin (val_main_cst (F := Ideal)) := by unfold val_main_cst; exact isFin_const_one
theorem isFin_cst_0 : IsFin (val_main_cst_0 (F := Ideal)) := by unfold val_main_cst_0; exact isFin_const_zero
theorem isFin_cst_7 : IsFin (val_main_cst_7 (F := Ideal)) := by unfold val_main_cst_7; exact isFin_const_zero
theorem isFin_cst_13 : IsFin (val_main_cst_13 (F := Ideal)) := by unfold val_main_cst_13; exact isFin_const_one
theorem isFin_cst_14 : IsFin (val_main_cst_14 (F := Ideal)) := by unfold val_main_cst_14; exact isFin_const_zero
theorem isFin_cst_22 : IsFin (val_main_cst_22 (F := Ideal)) := by unfold val_main_cst_22; exact isFin_const_zero

/-! ### Layer 1 -/

/-- The dense product of the features with the first weight matrix. -/
theorem isFin_v7 (x0 : S50000x128.Idx → EReal) (x2 : S128x128.Idx → EReal) (h0 : IsFin x0) (h2 : IsFin x2) : IsFin (val_main_v7 (F := Ideal) x0 x2) := by
  unfold val_main_v7
  exact isFin_dotGeneral _ _ _ _ h0 h2

/-- The ones that are scattered, and the zeros they are scattered into. -/
theorem isFin_v8 : IsFin (val_main_v8 (F := Ideal)) := by
  unfold val_main_v8
  exact isFin_broadcastInDim _ _ _ _ isFin_cst

theorem isFin_v9 : IsFin (val_main_v9 (F := Ideal)) := by
  unfold val_main_v9
  exact isFin_broadcastInDim _ _ _ _ isFin_cst_0

/-- The degrees. -/
theorem isFin_v11 (x1 : (⟨S2x800000, .i32⟩ : BufTy).Contents (Elt Ideal)) : IsFin (val_main_v11 (F := Ideal) x1) := by
  unfold val_main_v11
  exact isFin_scatterAdd _ _ _ _ isFin_v9 isFin_v8

/-- The vector the degrees are clamped below by is constantly one. -/
theorem v12_eq_one (i : S50000.Idx) : val_main_v12 (F := Ideal) i = 1 := by
  unfold val_main_v12 broadcastInDim val_main_cst_1
  exact const_one_apply _

/-- The inverse square root of the clamped degrees. -/
theorem isFin_v14 (x1 : (⟨S2x800000, .i32⟩ : BufTy).Contents (Elt Ideal)) : IsFin (val_main_v14 (F := Ideal) x1) := by
  unfold val_main_v14 val_main_v13
  exact isFin_rsqrt_max_one _ _ (isFin_v11 x1) v12_eq_one

theorem isFin_v21 (x1 : (⟨S2x800000, .i32⟩ : BufTy).Contents (Elt Ideal)) : IsFin (val_main_v21 (F := Ideal) x1) := by
  unfold val_main_v21
  exact isFin_gather _ _ _ (isFin_v14 x1)

theorem isFin_v28 (x1 : (⟨S2x800000, .i32⟩ : BufTy).Contents (Elt Ideal)) : IsFin (val_main_v28 (F := Ideal) x1) := by
  unfold val_main_v28
  exact isFin_gather _ _ _ (isFin_v14 x1)

/-- The edge weights. -/
theorem isFin_v29 (x1 : (⟨S2x800000, .i32⟩ : BufTy).Contents (Elt Ideal)) : IsFin (val_main_v29 (F := Ideal) x1) := by
  unfold val_main_v29
  exact isFin_mulf _ _ (isFin_v21 x1) (isFin_v28 x1)

/-- The gathered rows of the dense product. -/
theorem isFin_v36 (x0 : S50000x128.Idx → EReal) (x1 : (⟨S2x800000, .i32⟩ : BufTy).Contents (Elt Ideal)) (x2 : S128x128.Idx → EReal) (h0 : IsFin x0) (h2 : IsFin x2) :
    IsFin (val_main_v36 (F := Ideal) x0 x1 x2) := by
  unfold val_main_v36
  exact isFin_gather _ _ _ (isFin_v7 x0 x2 h0 h2)

theorem isFin_v37 (x1 : (⟨S2x800000, .i32⟩ : BufTy).Contents (Elt Ideal)) : IsFin (val_main_v37 (F := Ideal) x1) := by
  unfold val_main_v37
  exact isFin_broadcastInDim _ _ _ _ (isFin_v29 x1)

theorem isFin_v38 (x1 : (⟨S2x800000, .i32⟩ : BufTy).Contents (Elt Ideal)) : IsFin (val_main_v38 (F := Ideal) x1) := by
  unfold val_main_v38
  exact isFin_broadcastInDim _ _ _ _ (isFin_v37 x1)

/-- The messages. -/
theorem isFin_v39 (x0 : S50000x128.Idx → EReal) (x1 : (⟨S2x800000, .i32⟩ : BufTy).Contents (Elt Ideal)) (x2 : S128x128.Idx → EReal) (h0 : IsFin x0) (h2 : IsFin x2) :
    IsFin (val_main_v39 (F := Ideal) x0 x1 x2) := by
  unfold val_main_v39
  exact isFin_mulf _ _ (isFin_v36 x0 x1 x2 h0 h2) (isFin_v38 x1)

theorem isFin_v40 : IsFin (val_main_v40 (F := Ideal)) := by
  unfold val_main_v40
  exact isFin_broadcastInDim _ _ _ _ isFin_cst_7

/-- The aggregate. -/
theorem isFin_v42 (x0 : S50000x128.Idx → EReal) (x1 : (⟨S2x800000, .i32⟩ : BufTy).Contents (Elt Ideal)) (x2 : S128x128.Idx → EReal) (h0 : IsFin x0) (h2 : IsFin x2) :
    IsFin (val_main_v42 (F := Ideal) x0 x1 x2) := by
  unfold val_main_v42
  exact isFin_scatterAdd _ _ _ _ isFin_v40 (isFin_v39 x0 x1 x2 h0 h2)

theorem isFin_v43 (x3 : S128.Idx → EReal) (h3 : IsFin x3) : IsFin (val_main_v43 (F := Ideal) x3) := by
  unfold val_main_v43
  exact isFin_broadcastInDim _ _ _ _ h3

theorem isFin_v44 (x3 : S128.Idx → EReal) (h3 : IsFin x3) : IsFin (val_main_v44 (F := Ideal) x3) := by
  unfold val_main_v44
  exact isFin_broadcastInDim _ _ _ _ (isFin_v43 x3 h3)

/-- The aggregate with the bias row added. -/
theorem isFin_v45 (x0 : S50000x128.Idx → EReal) (x1 : (⟨S2x800000, .i32⟩ : BufTy).Contents (Elt Ideal)) (x2 : S128x128.Idx → EReal) (x3 : S128.Idx → EReal) (h0 : IsFin x0) (h2 : IsFin x2) (h3 : IsFin x3) :
    IsFin (val_main_v45 (F := Ideal) x0 x1 x2 x3) := by
  unfold val_main_v45
  exact isFin_addf _ _ (isFin_v42 x0 x1 x2 h0 h2) (isFin_v44 x3 h3)

/-! ### Layer 2 -/

/-- The dense product of the first layer's output with the second weight matrix. -/
theorem isFin_v72 (x0 : S50000x128.Idx → EReal) (x1 : (⟨S2x800000, .i32⟩ : BufTy).Contents (Elt Ideal)) (x2 : S128x128.Idx → EReal) (x3 : S128.Idx → EReal) (x4 : S128x128.Idx → EReal) (x6 : S128.Idx → EReal) (x7 : S128.Idx → EReal)
    (h71 : IsFin (val_main_v71 (F := Ideal) x0 x1 x2 x3 x6 x7)) (h4 : IsFin x4) :
    IsFin (val_main_v72 (F := Ideal) x0 x1 x2 x3 x4 x6 x7) := by
  unfold val_main_v72
  exact isFin_dotGeneral _ _ _ _ h71 h4

theorem isFin_v73 : IsFin (val_main_v73 (F := Ideal)) := by
  unfold val_main_v73
  exact isFin_broadcastInDim _ _ _ _ isFin_cst_13

theorem isFin_v74 : IsFin (val_main_v74 (F := Ideal)) := by
  unfold val_main_v74
  exact isFin_broadcastInDim _ _ _ _ isFin_cst_14

/-- The degrees again. -/
theorem isFin_v76 (x1 : (⟨S2x800000, .i32⟩ : BufTy).Contents (Elt Ideal)) : IsFin (val_main_v76 (F := Ideal) x1) := by
  unfold val_main_v76
  exact isFin_scatterAdd _ _ _ _ isFin_v74 isFin_v73

theorem v77_eq_one (i : S50000.Idx) : val_main_v77 (F := Ideal) i = 1 := by
  unfold val_main_v77 broadcastInDim val_main_cst_15
  exact const_one_apply _

theorem isFin_v79 (x1 : (⟨S2x800000, .i32⟩ : BufTy).Contents (Elt Ideal)) : IsFin (val_main_v79 (F := Ideal) x1) := by
  unfold val_main_v79 val_main_v78
  exact isFin_rsqrt_max_one _ _ (isFin_v76 x1) v77_eq_one

theorem isFin_v86 (x1 : (⟨S2x800000, .i32⟩ : BufTy).Contents (Elt Ideal)) : IsFin (val_main_v86 (F := Ideal) x1) := by
  unfold val_main_v86
  exact isFin_gather _ _ _ (isFin_v79 x1)

theorem isFin_v93 (x1 : (⟨S2x800000, .i32⟩ : BufTy).Contents (Elt Ideal)) : IsFin (val_main_v93 (F := Ideal) x1) := by
  unfold val_main_v93
  exact isFin_gather _ _ _ (isFin_v79 x1)

/-- The edge weights again. -/
theorem isFin_v94 (x1 : (⟨S2x800000, .i32⟩ : BufTy).Contents (Elt Ideal)) : IsFin (val_main_v94 (F := Ideal) x1) := by
  unfold val_main_v94
  exact isFin_mulf _ _ (isFin_v86 x1) (isFin_v93 x1)

theorem isFin_v101 (x0 : S50000x128.Idx → EReal) (x1 : (⟨S2x800000, .i32⟩ : BufTy).Contents (Elt Ideal)) (x2 : S128x128.Idx → EReal) (x3 : S128.Idx → EReal) (x4 : S128x128.Idx → EReal) (x6 : S128.Idx → EReal) (x7 : S128.Idx → EReal)
    (h71 : IsFin (val_main_v71 (F := Ideal) x0 x1 x2 x3 x6 x7)) (h4 : IsFin x4) :
    IsFin (val_main_v101 (F := Ideal) x0 x1 x2 x3 x4 x6 x7) := by
  unfold val_main_v101
  exact isFin_gather _ _ _ (isFin_v72 x0 x1 x2 x3 x4 x6 x7 h71 h4)

theorem isFin_v102 (x1 : (⟨S2x800000, .i32⟩ : BufTy).Contents (Elt Ideal)) : IsFin (val_main_v102 (F := Ideal) x1) := by
  unfold val_main_v102
  exact isFin_broadcastInDim _ _ _ _ (isFin_v94 x1)

theorem isFin_v103 (x1 : (⟨S2x800000, .i32⟩ : BufTy).Contents (Elt Ideal)) : IsFin (val_main_v103 (F := Ideal) x1) := by
  unfold val_main_v103
  exact isFin_broadcastInDim _ _ _ _ (isFin_v102 x1)

theorem isFin_v104 (x0 : S50000x128.Idx → EReal) (x1 : (⟨S2x800000, .i32⟩ : BufTy).Contents (Elt Ideal)) (x2 : S128x128.Idx → EReal) (x3 : S128.Idx → EReal) (x4 : S128x128.Idx → EReal) (x6 : S128.Idx → EReal) (x7 : S128.Idx → EReal)
    (h71 : IsFin (val_main_v71 (F := Ideal) x0 x1 x2 x3 x6 x7)) (h4 : IsFin x4) :
    IsFin (val_main_v104 (F := Ideal) x0 x1 x2 x3 x4 x6 x7) := by
  unfold val_main_v104
  exact isFin_mulf _ _ (isFin_v101 x0 x1 x2 x3 x4 x6 x7 h71 h4) (isFin_v103 x1)

theorem isFin_v105 : IsFin (val_main_v105 (F := Ideal)) := by
  unfold val_main_v105
  exact isFin_broadcastInDim _ _ _ _ isFin_cst_22

/-- The second aggregate. -/
theorem isFin_v107 (x0 : S50000x128.Idx → EReal) (x1 : (⟨S2x800000, .i32⟩ : BufTy).Contents (Elt Ideal)) (x2 : S128x128.Idx → EReal) (x3 : S128.Idx → EReal) (x4 : S128x128.Idx → EReal) (x6 : S128.Idx → EReal) (x7 : S128.Idx → EReal)
    (h71 : IsFin (val_main_v71 (F := Ideal) x0 x1 x2 x3 x6 x7)) (h4 : IsFin x4) :
    IsFin (val_main_v107 (F := Ideal) x0 x1 x2 x3 x4 x6 x7) := by
  unfold val_main_v107
  exact isFin_scatterAdd _ _ _ _ isFin_v105 (isFin_v104 x0 x1 x2 x3 x4 x6 x7 h71 h4)

theorem isFin_v108 (x5 : S128.Idx → EReal) (h5 : IsFin x5) : IsFin (val_main_v108 (F := Ideal) x5) := by
  unfold val_main_v108
  exact isFin_broadcastInDim _ _ _ _ h5

theorem isFin_v109 (x5 : S128.Idx → EReal) (h5 : IsFin x5) : IsFin (val_main_v109 (F := Ideal) x5) := by
  unfold val_main_v109
  exact isFin_broadcastInDim _ _ _ _ (isFin_v108 x5 h5)

/-- The second aggregate with its bias row added. -/
theorem isFin_v110 (x0 : S50000x128.Idx → EReal) (x1 : (⟨S2x800000, .i32⟩ : BufTy).Contents (Elt Ideal)) (x2 : S128x128.Idx → EReal) (x3 : S128.Idx → EReal) (x4 : S128x128.Idx → EReal) (x5 : S128.Idx → EReal) (x6 : S128.Idx → EReal) (x7 : S128.Idx → EReal)
    (h71 : IsFin (val_main_v71 (F := Ideal) x0 x1 x2 x3 x6 x7)) (h4 : IsFin x4) (h5 : IsFin x5) :
    IsFin (val_main_v110 (F := Ideal) x0 x1 x2 x3 x4 x5 x6 x7) := by
  unfold val_main_v110
  exact isFin_addf _ _ (isFin_v107 x0 x1 x2 x3 x4 x6 x7 h71 h4) (isFin_v109 x5 h5)

end Cert.ReferenceIdeal.FiniteStages

end
-- ==== Proof.PreFinite.lean ====
/-
  From the input precondition to "every float input is a real number".

  The precondition computes, for each of the nine float inputs, the conjunction over all entries of |x| < +∞ (an
  and-reduction of the entrywise comparison, started from 1) and ands the nine bits together; the claim assumes the
  result is 1. An and-reduction that is 1 met a 1 at every entry, so every entry x has max x (−x) < ⊤ on the
  extended reals. That excludes x = ⊤ (max ⊤ ⊥ = ⊤) and x = ⊥ (max ⊥ ⊤ = ⊤), so x is a real number.
-/
import proofs.«157031_j26723286515821_1_alg».proof.Pre_finite_inputs
import proofs.«157031_j26723286515821_1_alg».proof.Proof.Gen.Pre_finite_inputs
import proofs.«157031_j26723286515821_1_alg».proof.Proof.Spec
import Idealize.ShloMosaic.PureOps.Ideal
import Idealize.ShloMosaic.Lib.ReduceAll
import Idealize.ShloMosaic.Lib.ValueIdx

noncomputable section

namespace Cert.Gcn.PreFinite

open Idealize.ShloMosaic Idealize.ShloMosaic.ValueIdx
open Cert.Pre_finite_inputs

/-- The rank-0 shape has one index. -/
instance : Subsingleton S_.Idx := ⟨fun a b => funext fun d => d.elim0⟩

/-- An extended real whose absolute value max x (−x) lies strictly below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test: the comparison |x| < +∞ printing 1 says x is a real number. -/
theorem real_of_cmp (x : Ideal .f32)
    (h : FloatOps.cmpf (F := Ideal) .olt (FloatOps.hostAbsf x) (FloatOps.ofBits .f32 0x7F800000#32) = 1#1) :
    ∃ r : ℝ, x = (r : EReal) := by
  apply real_of_abs_lt_top
  have h' : Ideal.cmp .olt (max x (-x)) (Ideal.ofBits .f32 0x7F800000#32) = 1#1 := h
  have htop : Ideal.ofBits .f32 0x7F800000#32 = ⊤ := by simp [Ideal.ofBits, Ideal.ieee]
  rw [htop] at h'
  unfold Ideal.cmp at h'
  by_contra hn
  simp [hn] at h'

/-- The whole-array test jnp.all(|a| < +∞), over any shape and any reduction of it to the rank-0 shape: if it is 1,
    every entry of a is a real number. -/
theorem isFin_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) :
    Cert.Gcn.IsFin a := by
  intro i
  exact real_of_cmp (a i) (Host.reduce_andi_all _ _ hr hu ix0 e i)

/-- The precondition being all ones makes every one of the nine float inputs an array of real numbers (the integer
    edge list is not constrained). -/
theorem finite_of_pre [Cert.Pre_finite_inputs.Facts]
    (a0 : FVec Ideal S50000x128 .f32) (a1 : IVec S2x800000 32) (a2 : FVec Ideal S128x128 .f32) (a3 : FVec Ideal S128 .f32)
    (a4 : FVec Ideal S128x128 .f32) (a5 a6 a7 a8 a9 : FVec Ideal S128 .f32)
    (h : Cert.Pre_finite_inputs.fn (F := Ideal) a0 a1 a2 a3 a4 a5 a6 a7 a8 a9 = (fun _ => 1#1)) :
    Cert.Gcn.IsFin a0 ∧ Cert.Gcn.IsFin a2 ∧ Cert.Gcn.IsFin a3 ∧ Cert.Gcn.IsFin a4 ∧ Cert.Gcn.IsFin a5 ∧ Cert.Gcn.IsFin a6
      ∧ Cert.Gcn.IsFin a7 ∧ Cert.Gcn.IsFin a8 ∧ Cert.Gcn.IsFin a9 := by
  have h0 := congrFun h ix0
  dsimp only [fn, fn_part1, fn_part2, andi] at h0
  simp only [IntOp.andi_eq_one] at h0
  obtain ⟨⟨⟨⟨⟨⟨⟨⟨e0, e2⟩, e3⟩, e4⟩, e5⟩, e6⟩, e7⟩, e8⟩, e9⟩ := h0
  exact ⟨isFin_of_all a0 _ _ _ e0, isFin_of_all a2 _ _ _ e2, isFin_of_all a3 _ _ _ e3, isFin_of_all a4 _ _ _ e4,
    isFin_of_all a5 _ _ _ e5, isFin_of_all a6 _ _ _ e6, isFin_of_all a7 _ _ _ e7, isFin_of_all a8 _ _ _ e8,
    isFin_of_all a9 _ _ _ e9⟩

end Cert.Gcn.PreFinite

end
-- ==== Proof.lean ====
/-
  The certificate of a two-layer graph-convolution encoder: each layer is a dense product, a degree-normalised
  aggregation over the edges (with self-loops), batch normalisation over the 50000 rows and a clamp at zero.

  The kernel program runs the two dense products, the two pairs of column statistics and the two normalisations as six
  pipelined regions over blocks of 5000 rows, with the gathers and scatter-adds on the host between them; the reference
  is one host program. All three programs run to completion without a fault and leave their arguments unchanged (the
  frames). The idealization rewrote nothing, so `preserves` has no conjunct. At the exact instance the two programs
  agree: they differ only in how the batch variance is written — mean of squares less the squared mean against mean
  of squared deviations — and over finite entries these are one number. Finiteness is where the precondition enters:
  finite inputs make the dense products, the degree weights (an inverse square root of a number at least one), the
  aggregates and, because the variance is non-negative and ε is positive, each layer's normalised output finite.
-/
import proofs.«157031_j26723286515821_1_alg».proof.Defs
import proofs.«157031_j26723286515821_1_alg».proof.Proof.Gen.Kernel
import proofs.«157031_j26723286515821_1_alg».proof.Proof.Gen.Kernel.Frame
import proofs.«157031_j26723286515821_1_alg».proof.Proof.Gen.KernelIdeal
import proofs.«157031_j26723286515821_1_alg».proof.Proof.Gen.KernelIdeal.Frame
import proofs.«157031_j26723286515821_1_alg».proof.Proof.Gen.ReferenceIdeal
import proofs.«157031_j26723286515821_1_alg».proof.Proof.Gen.Pre_finite_inputs
import proofs.«157031_j26723286515821_1_alg».proof.Proof.Gen.ReferenceIdeal.Run
import proofs.«157031_j26723286515821_1_alg».proof.Proof.Gen.ReferenceIdeal.Read
import proofs.«157031_j26723286515821_1_alg».proof.Proof.KernelRun
import proofs.«157031_j26723286515821_1_alg».proof.Proof.KernelValue
import proofs.«157031_j26723286515821_1_alg».proof.Proof.RefFinite
import proofs.«157031_j26723286515821_1_alg».proof.Proof.PreFinite
import Idealize.ShloMosaic.Adequacy
import Idealize.ShloMosaic.Init

set_option maxRecDepth 16384

noncomputable section

namespace Cert.Proof

open Idealize.ShloMosaic Idealize.SL.Sem Cert.Gcn
open Cert.KernelIdeal.Chain (in0 in1 in2 in3 in4 in5 in6 in7 in8 in9 y1 y2 kernel_value)
open Cert.ReferenceIdeal.Read (val_main_v45 val_main_v71 val_main_v110 val_main_v136)

/-! ## The frames and the idealization -/

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The ideal pass rewrote no operation. -/
theorem preserves : Cert.preserves_Kernel_KernelIdeal := trivial

/-! ## Finiteness of each layer's biased aggregate, from the precondition -/

set_option maxHeartbeats 2000000 in
theorem fin_layers (m : (ℓ : Loc Cert.KernelIdeal.nD Cert.KernelIdeal.τ Cert.KernelIdeal.sig) → Buf (Elt Ideal) ℓ)
    (hpre : Cert.Pre_KernelIdeal m) (c : Dev Cert.KernelIdeal.nD) : IsFin (y1 m c) ∧ IsFin (y2 m c) := by
  obtain ⟨f0, f2, f3, f4, f5, f6, f7, f8, f9⟩ :=
    Cert.Gcn.PreFinite.finite_of_pre (in0 m c) (in1 m c) (in2 m c) (in3 m c) (in4 m c) (in5 m c) (in6 m c) (in7 m c) (in8 m c) (in9 m c) (hpre c)
  have h45 : IsFin (val_main_v45 (F := Ideal) (in0 m c) (in1 m c) (in2 m c) (in3 m c)) :=
    Cert.ReferenceIdeal.FiniteStages.isFin_v45 _ _ _ _ f0 f2 f3
  have h71 : IsFin (val_main_v71 (F := Ideal) (in0 m c) (in1 m c) (in2 m c) (in3 m c) (in6 m c) (in7 m c)) := by
    rw [Cert.ReferenceIdeal.Stages.v71_eq]; exact isFin_bnOf _ h45 _ _ f6 f7
  have h110 : IsFin (val_main_v110 (F := Ideal) (in0 m c) (in1 m c) (in2 m c) (in3 m c) (in4 m c) (in5 m c) (in6 m c) (in7 m c)) :=
    Cert.ReferenceIdeal.FiniteStages.isFin_v110 _ _ _ _ _ _ _ _ h71 f4 f5
  rw [Cert.ReferenceIdeal.Stages.v45_eq] at h45
  rw [Cert.ReferenceIdeal.Stages.v110_eq] at h110
  exact ⟨h45, h110⟩

/-! ## The two idealized programs end with one result -/

set_option maxHeartbeats 4000000 in
theorem algebraic : Cert.algebraic_KernelIdeal_ReferenceIdeal := by
  intro m ρ m' ρ' hpre hagree
  refine ⟨fun c => val_main_v136 (F := Ideal) (in0 m c) (in1 m c) (in2 m c) (in3 m c) (in4 m c) (in5 m c) (in6 m c) (in7 m c) (in8 m c) (in9 m c), ?_, ?_⟩
  · exact (θ_run Cert.KernelIdeal.defs _ _).mono
      (fun r h c => ⟨(h c).1.trans (kernel_value m ρ c (fin_layers m hpre c).1 (fin_layers m hpre c).2), (h c).2⟩)
      (Cert.KernelIdeal.RunValue.run_value m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v136_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
